-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x512 : Shape := ⟨4, ![4, 64, 64, 512]⟩
abbrev S512x64 : Shape := ⟨2, ![512, 64]⟩
abbrev S512x512 : Shape := ⟨2, ![512, 512]⟩
abbrev S1 : Shape := ⟨1, ![1]⟩
abbrev S_ : Shape := ⟨0, ![]⟩

class Facts : Prop where
  bcast_S_S4x64x64x512 : S_.BroadcastsInDim S4x64x64x512 (![] : Fin 0 → Fin S4x64x64x512.rank)
  reducesTo_S4x64x64x512_S_d0_1_2_3 : S4x64x64x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S512x512 : S_.BroadcastsInDim S512x512 (![] : Fin 0 → Fin S512x512.rank)
  reducesTo_S512x512_S_d0_1 : S512x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4x64x64x512 .f32) (main_arg1 : FVec F S512x64 .f32) (main_arg2 : FVec F S512x64 .f32) (main_arg3 : FVec F S512x512 .f32) (main_arg4 : FVec F S1 .f32) (main_arg5 : FVec F S1 .f32) : IVec S_ 1 :=
  let main_v0 : FVec F S4x64x64x512 .f32 := Host.absf main_arg0
  let main_cst : FVec F S_ .f32 := constant S_ .f32 0x7F800000#32
  let main_v1 : FVec F S4x64x64x512 .f32 := broadcastInDim S4x64x64x512 ![] bcast_S_S4x64x64x512 main_cst
  let main_v2 : IVec S4x64x64x512 1 := cmpf .olt main_v0 main_v1
  let main_c : IVec S_ 1 := constantI S_ 1 1#1
  let main_v3 : IVec S_ 1 := (fun x v => Host.reduce IntOp.andi x v reducesTo_S4x64x64x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S4x64x64x512 : Shape := ⟨4, ![4, 64, 64, 512]⟩
abbrev S512x64 : Shape := ⟨2, ![512, 64]⟩
abbrev S512x512 : Shape := ⟨2, ![512, 512]⟩
abbrev S1 : Shape := ⟨1, ![1]⟩
abbrev S4x4096x512 : Shape := ⟨3, ![4, 4096, 512]⟩
abbrev S4x4096x64 : Shape := ⟨3, ![4, 4096, 64]⟩
abbrev S1x1024x512 : Shape := ⟨3, ![1, 1024, 512]⟩
abbrev S1x1024x64 : Shape := ⟨3, ![1, 1024, 64]⟩
abbrev S1024x512 : Shape := ⟨2, ![1024, 512]⟩
abbrev S1024x64 : Shape := ⟨2, ![1024, 64]⟩
abbrev S4x512x4096 : Shape := ⟨3, ![4, 512, 4096]⟩
abbrev S1x512x64 : Shape := ⟨3, ![1, 512, 64]⟩
abbrev S1x512x512 : Shape := ⟨3, ![1, 512, 512]⟩
abbrev S1x512x1024 : Shape := ⟨3, ![1, 512, 1024]⟩
abbrev S1024x1 : Shape := ⟨2, ![1024, 1]⟩
abbrev S64x512 : Shape := ⟨2, ![64, 512]⟩
abbrev S1024 : Shape := ⟨1, ![1024]⟩
abbrev S512x1024 : Shape := ⟨2, ![512, 1024]⟩
abbrev S1x1x1x1 : Shape := ⟨4, ![1, 1, 1, 1]⟩
abbrev S4x512x512 : Shape := ⟨3, ![4, 512, 512]⟩
abbrev S512 : Shape := ⟨1, ![512]⟩
abbrev S512x1 : Shape := ⟨2, ![512, 1]⟩

abbrev nBuf : Space → Nat
  | .hbm => 28
  | .vmem => 32
  | .smem => 0
  | _ => 0

abbrev bufTy : (tb : Table) → Fin (tcTables nBuf tb) → BufTy
  | .hbm, ⟨0, _⟩ => ⟨S4x64x64x512, .f32⟩
  | .hbm, ⟨1, _⟩ => ⟨S512x64, .f32⟩
  | .hbm, ⟨2, _⟩ => ⟨S512x64, .f32⟩
  | .hbm, ⟨3, _⟩ => ⟨S512x512, .f32⟩
  | .hbm, ⟨4, _⟩ => ⟨S1, .f32⟩
  | .hbm, ⟨5, _⟩ => ⟨S1, .f32⟩
  | .hbm, ⟨6, _⟩ => ⟨S4x4096x512, .f32⟩
  | .hbm, ⟨7, _⟩ => ⟨S4x4096x512, .bf16⟩
  | .hbm, ⟨8, _⟩ => ⟨S512x64, .bf16⟩
  | .hbm, ⟨9, _⟩ => ⟨S512x64, .bf16⟩
  | .hbm, ⟨10, _⟩ => ⟨S512x512, .bf16⟩
  | .hbm, ⟨11, _⟩ => ⟨S4x4096x64, .bf16⟩
  | .hbm, ⟨12, _⟩ => ⟨S4x4096x64, .bf16⟩
  | .hbm, ⟨13, _⟩ => ⟨S4x4096x512, .bf16⟩
  | .hbm, ⟨14, _⟩ => ⟨S4x512x4096, .f32⟩
  | .hbm, ⟨15, _⟩ => ⟨S4x64x64x512, .f32⟩
  | .hbm, ⟨16, _⟩ => ⟨S1x1x1x1, .f32⟩
  | .hbm, ⟨17, _⟩ => ⟨S4x64x64x512, .f32⟩
  | .hbm, ⟨18, _⟩ => ⟨S4x64x64x512, .f32⟩
  | .hbm, ⟨19, _⟩ => ⟨S4x64x64x512, .f32⟩
  | .hbm, ⟨20, _⟩ => ⟨S4x512x512, .f32⟩
  | .hbm, ⟨21, _⟩ => ⟨S4x4096x512, .f32⟩
  | .hbm, ⟨22, _⟩ => ⟨S4x64x64x512, .f32⟩
  | .hbm, ⟨23, _⟩ => ⟨S1x1x1x1, .f32⟩
  | .hbm, ⟨24, _⟩ => ⟨S4x64x64x512, .f32⟩
  | .hbm, ⟨25, _⟩ => ⟨S4x64x64x512, .f32⟩
  | .hbm, ⟨26, _⟩ => ⟨S4x64x64x512, .f32⟩
  | .hbm, ⟨27, _⟩ => ⟨S4x64x64x512, .f32⟩
  | .local _ .vmem, ⟨0, _⟩ => ⟨S1x1024x512, .bf16⟩
  | .local _ .vmem, ⟨1, _⟩ => ⟨S1x1024x512, .bf16⟩
  | .local _ .vmem, ⟨2, _⟩ => ⟨S512x64, .bf16⟩
  | .local _ .vmem, ⟨3, _⟩ => ⟨S512x64, .bf16⟩
  | .local _ .vmem, ⟨4, _⟩ => ⟨S512x512, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x1024, .f32⟩
  | .local _ .vmem, ⟨18, _⟩ => ⟨S1x512x1024, .f32⟩
  | .local _ .vmem, ⟨19, _⟩ => ⟨S1024x1, .f32⟩
  | .local _ .vmem, ⟨20, _⟩ => ⟨S1024x1, .f32⟩
  | .local _ .vmem, ⟨21, _⟩ => ⟨S1024x512, .f32⟩
  | .local _ .vmem, ⟨22, _⟩ => ⟨S1x1024x512, .bf16⟩
  | .local _ .vmem, ⟨23, _⟩ => ⟨S1x1024x512, .bf16⟩
  | .local _ .vmem, ⟨24, _⟩ => ⟨S1x512x512, .f32⟩
  | .local _ .vmem, ⟨25, _⟩ => ⟨S1x512x512, .f32⟩
  | .local _ .vmem, ⟨26, _⟩ => ⟨S1x1024x512, .bf16⟩
  | .local _ .vmem, ⟨27, _⟩ => ⟨S1x1024x512, .bf16⟩
  | .local _ .vmem, ⟨28, _⟩ => ⟨S1x512x512, .f32⟩
  | .local _ .vmem, ⟨29, _⟩ => ⟨S1x512x512, .f32⟩
  | .local _ .vmem, ⟨30, _⟩ => ⟨S1x1024x512, .f32⟩
  | .local _ .vmem, ⟨31, _⟩ => ⟨S1x1024x512, .f32⟩
  | _, _ => ⟨S4x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_24 : BitVec 32 := 0#32
  let v42 : BitVec 1 := Scalar.cmpi .ne v41 c0_i32_24
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S4x64x64x512_S4x4096x512 : S4x64x64x512.ShapeCasts S4x4096x512
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  transposes_S1024x512_p1_0_S512x1024 : S1024x512.Transposes [1, 0] S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S4x512x4096_S4x64x64x512 : S4x512x4096.ShapeCasts S4x64x64x512
  bcast_S1_S1x1x1x1_3 : S1.BroadcastsInDim S1x1x1x1 (![3] : Fin 1 → Fin S1x1x1x1.rank)
  bcast_S1x1x1x1_S4x64x64x512_0_1_2_3 : S1x1x1x1.BroadcastsInDim S4x64x64x512 (![0, 1, 2, 3] : Fin 4 → Fin S4x64x64x512.rank)
  shapeCasts_S512x512_S1x512x512 : S512x512.ShapeCasts S1x512x512
  reduces_S512x512_S512 : S512x512.Reduces [1] S512
  shapeCasts_S512_S512x1 : S512.ShapeCasts S512x1
  broadcasts_S512x1_S512x512 : S512x1.Broadcasts S512x512
  shapeCasts_S4x4096x512_S4x64x64x512 : S4x4096x512.ShapeCasts S4x64x64x512
  dot_S1024x512_S512x64_S1024x64_1_0_0_1_n_n_wf : DotDims.WF S1024x512 S512x64 S1024x64 [1] [0] [0] [1] [] []
  dot_S1024x512_S512x512_S1024x512_1_0_0_1_n_n_wf : DotDims.WF S1024x512 S512x512 S1024x512 [1] [0] [0] [1] [] []
  dot_S1024x64_S64x512_S1024x512_1_0_0_1_n_n_wf : DotDims.WF S1024x64 S64x512 S1024x512 [1] [0] [0] [1] [] []
  dot_S1024x512_S1024x512_S512x512_0_0_1_1_n_n_wf : DotDims.WF S1024x512 S1024x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x4096x512.size a
  hwx0_0 : ∀ i : grid0.Coords, EltTy.bits .bf16 = 32 ∨ (Rect.block (s := S4x4096x512) S1x1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x4096x64.size a
  hwx0_5 : ∀ i : grid0.Coords, EltTy.bits .bf16 = 32 ∨ (Rect.block (s := S4x4096x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S4x4096x512.size a
  hwx0_6 : ∀ i : grid0.Coords, EltTy.bits .bf16 = 32 ∨ (Rect.block (s := S4x4096x512) S1x1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S4x4096x64.size a
  hwx1_1 : ∀ i : grid1.Coords, EltTy.bits .bf16 = 32 ∨ (Rect.block (s := S4x4096x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x4096x512.size a
  hwx1_2 : ∀ i : grid1.Coords, EltTy.bits .bf16 = 32 ∨ (Rect.block (s := S4x4096x512) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x512x4096.size a
  hwx1_3 : ∀ i : grid1.Coords, EltTy.bits .f32 = 32 ∨ (Rect.block (s := S4x512x4096) S1x512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S4x4096x512.size a
  hwx2_0 : ∀ i : grid2.Coords, EltTy.bits .bf16 = 32 ∨ (Rect.block (s := S4x4096x512) S1x1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S4x512x512.size a
  hwx2_1 : ∀ i : grid2.Coords, EltTy.bits .f32 = 32 ∨ (Rect.block (s := S4x512x512) S1x512x512.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x512.size a ≤ S4x4096x512.size a
  hwx3_0 : ∀ i : grid3.Coords, EltTy.bits .bf16 = 32 ∨ (Rect.block (s := S4x4096x512) S1x1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x512.size a ≤ S4x512x512.size a
  hwx3_1 : ∀ i : grid3.Coords, EltTy.bits .f32 = 32 ∨ (Rect.block (s := S4x512x512) S1x512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x512.size a ≤ S4x4096x512.size a
  hwx3_2 : ∀ i : grid3.Coords, EltTy.bits .f32 = 32 ∨ (Rect.block (s := S4x4096x512) S1x1024x512.size (cc3_transform_2 i) (hinb3_2 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf

abbrev win0_0 : Pipeline.Window sig grid0 :=
  Pipeline.Window.ofSpec (Memref.whole main_v1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x512x512.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v1) S1x1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x64x64x512 : Shape := ⟨4, ![4, 64, 64, 512]⟩
abbrev S512x64 : Shape := ⟨2, ![512, 64]⟩
abbrev S512x512 : Shape := ⟨2, ![512, 512]⟩
abbrev S1 : Shape := ⟨1, ![1]⟩
abbrev S4x64x64x64 : Shape := ⟨4, ![4, 64, 64, 64]⟩
abbrev S4x4096x64 : Shape := ⟨3, ![4, 4096, 64]⟩
abbrev S4x4096x512 : Shape := ⟨3, ![4, 4096, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S1x1x1x1 : Shape := ⟨4, ![1, 1, 1, 1]⟩
abbrev S4x512x512 : Shape := ⟨3, ![4, 512, 512]⟩
abbrev S4x512 : Shape := ⟨2, ![4, 512]⟩
abbrev S4x512x1 : Shape := ⟨3, ![4, 512, 1]⟩

abbrev nBuf : Space → Nat
  | .hbm => 56
  | .vmem => 0
  | .smem => 0
  | _ => 0

abbrev bufTy : (tb : Table) → Fin (tcTables nBuf tb) → BufTy
  | .hbm, ⟨0, _⟩ => ⟨S4x64x64x512, .f32⟩
  | .hbm, ⟨1, _⟩ => ⟨S512x64, .f32⟩
  | .hbm, ⟨2, _⟩ => ⟨S512x64, .f32⟩
  | .hbm, ⟨3, _⟩ => ⟨S512x512, .f32⟩
  | .hbm, ⟨4, _⟩ => ⟨S1, .f32⟩
  | .hbm, ⟨5, _⟩ => ⟨S1, .f32⟩
  | .hbm, ⟨6, _⟩ => ⟨S4x64x64x64, .f32⟩
  | .hbm, ⟨7, _⟩ => ⟨S4x4096x64, .f32⟩
  | .hbm, ⟨8, _⟩ => ⟨S4x64x64x64, .f32⟩
  | .hbm, ⟨9, _⟩ => ⟨S4x4096x64, .f32⟩
  | .hbm, ⟨10, _⟩ => ⟨S4x64x64x512, .f32⟩
  | .hbm, ⟨11, _⟩ => ⟨S4x4096x512, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x512x4096, .f32⟩
  | .hbm, ⟨28, _⟩ => ⟨S4x64x64x512, .f32⟩
  | .hbm, ⟨29, _⟩ => ⟨S1x1x1x1, .f32⟩
  | .hbm, ⟨30, _⟩ => ⟨S4x64x64x512, .f32⟩
  | .hbm, ⟨31, _⟩ => ⟨S4x64x64x512, .f32⟩
  | .hbm, ⟨32, _⟩ => ⟨S4x64x64x512, .f32⟩
  | .hbm, ⟨33, _⟩ => ⟨S4x4096x512, .f32⟩
  | .hbm, ⟨34, _⟩ => ⟨S4x512x512, .f32⟩
  | .hbm, ⟨35, _⟩ => ⟨S_, .f32⟩
  | .hbm, ⟨36, _⟩ => ⟨S4x512, .f32⟩
  | .hbm, ⟨37, _⟩ => ⟨S_, .f32⟩
  | .hbm, ⟨38, _⟩ => ⟨S4x512, .f32⟩
  | .hbm, ⟨39, _⟩ => ⟨S4x512, .f32⟩
  | .hbm, ⟨40, _⟩ => ⟨S4x512x1, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S_, .f32⟩
  | .hbm, ⟨45, _⟩ => ⟨S4x512, .f32⟩
  | .hbm, ⟨46, _⟩ => ⟨S4x512x1, .f32⟩
  | .hbm, ⟨47, _⟩ => ⟨S4x512x512, .f32⟩
  | .hbm, ⟨48, _⟩ => ⟨S4x512x512, .f32⟩
  | .hbm, ⟨49, _⟩ => ⟨S4x4096x512, .f32⟩
  | .hbm, ⟨50, _⟩ => ⟨S4x64x64x512, .f32⟩
  | .hbm, ⟨51, _⟩ => ⟨S1x1x1x1, .f32⟩
  | .hbm, ⟨52, _⟩ => ⟨S4x64x64x512, .f32⟩
  | .hbm, ⟨53, _⟩ => ⟨S4x64x64x512, .f32⟩
  | .hbm, ⟨54, _⟩ => ⟨S4x64x64x512, .f32⟩
  | .hbm, ⟨55, _⟩ => ⟨S4x64x64x512, .f32⟩
  | _, _ => ⟨S4x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  shapeCasts_S4x64x64x64_S4x4096x64 : S4x64x64x64.ShapeCasts S4x4096x64
  shapeCasts_S4x64x64x512_S4x4096x512 : S4x64x64x512.ShapeCasts S4x4096x512
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x512x4096_S4x64x64x512 : S4x512x4096.ShapeCasts S4x64x64x512
  bcast_S1_S1x1x1x1_3 : S1.BroadcastsInDim S1x1x1x1 (![3] : Fin 1 → Fin S1x1x1x1.rank)
  bcast_S1x1x1x1_S4x64x64x512_0_1_2_3 : S1x1x1x1.BroadcastsInDim S4x64x64x512 (![0, 1, 2, 3] : Fin 4 → Fin S4x64x64x512.rank)
  reducesTo_S4x512x512_S4x512_d2 : S4x512x512.ReducesTo [2] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  shapeCasts_S4x4096x512_S4x64x64x512 : S4x4096x512.ShapeCasts S4x64x64x512
  dot_S4x64x64x512_S512x64_S4x64x64x64_3_0_012_1_n_n_wf : DotDims.WF S4x64x64x512 S512x64 S4x64x64x64 [3] [0] [0, 1, 2] [1] [] []
  dot_S4x64x64x512_S512x512_S4x64x64x512_3_0_012_1_n_n_wf : DotDims.WF S4x64x64x512 S512x512 S4x64x64x512 [3] [0] [0, 1, 2] [1] [] []
  dot_S4x4096x64_S4x4096x64_S4x4096x4096_2_2_1_1_0_0_wf : DotDims.WF S4x4096x64 S4x4096x64 S4x4096x4096 [2] [2] [1] [1] [0] [0]
  dot_S4x4096x512_S4x4096x4096_S4x512x4096_1_2_2_1_0_0_wf : DotDims.WF S4x4096x512 S4x4096x4096 S4x512x4096 [1] [2] [2] [1] [0] [0]
  dot_S4x4096x512_S4x4096x512_S4x512x512_1_1_2_2_0_0_wf : DotDims.WF S4x4096x512 S4x4096x512 S4x512x512 [1] [1] [2] [2] [0] [0]
  dot_S4x4096x512_S4x512x512_S4x4096x512_2_1_1_2_0_0_wf : DotDims.WF S4x4096x512 S4x512x512 S4x4096x512 [2] [1] [1] [2] [0] [0]

variable [Facts₀]

def dot_S4x64x64x512_S512x64_S4x64x64x64_3_0_012_1_n_n : DotDims S4x64x64x512 S512x64 S4x64x64x64 where
  lhsContracting := [3]
  rhsContracting := [0]
  lhsNonContracting := [0, 1, 2]
  rhsNonContracting := [1]
  lhsBatch := []
  rhsBatch := []
  wf := dot_S4x64x64x512_S512x64_S4x64x64x64_3_0_012_1_n_n_wf
def dot_S4x64x64x512_S512x512_S4x64x64x512_3_0_012_1_n_n : DotDims S4x64x64x512 S512x512 S4x64x64x512 where
  lhsContracting := [3]
  rhsContracting := [0]
  lhsNonContracting := [0, 1, 2]
  rhsNonContracting := [1]
  lhsBatch := []
  rhsBatch := []
  wf := dot_S4x64x64x512_S512x512_S4x64x64x512_3_0_012_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x512_S4x4096x4096_S4x512x4096_1_2_2_1_0_0 : DotDims S4x4096x512 S4x4096x4096 S4x512x4096 where
  lhsContracting := [1]
  rhsContracting := [2]
  lhsNonContracting := [2]
  rhsNonContracting := [1]
  lhsBatch := [0]
  rhsBatch := [0]
  wf := dot_S4x4096x512_S4x4096x4096_S4x512x4096_1_2_2_1_0_0_wf
def dot_S4x4096x512_S4x4096x512_S4x512x512_1_1_2_2_0_0 : DotDims S4x4096x512 S4x4096x512 S4x512x512 where
  lhsContracting := [1]
  rhsContracting := [1]
  lhsNonContracting := [2]
  rhsNonContracting := [2]
  lhsBatch := [0]
  rhsBatch := [0]
  wf := dot_S4x4096x512_S4x4096x512_S4x512x512_1_1_2_2_0_0_wf
def dot_S4x4096x512_S4x512x512_S4x4096x512_2_1_1_2_0_0 : DotDims S4x4096x512 S4x512x512 S4x4096x512 where
  lhsContracting := [2]
  rhsContracting := [1]
  lhsNonContracting := [1]
  rhsNonContracting := [2]
  lhsBatch := [0]
  rhsBatch := [0]
  wf := dot_S4x4096x512_S4x512x512_S4x4096x512_2_1_1_2_0_0_wf

class Facts : Prop extends Facts₀ where

variable [Facts]
-- ==== Proof.K.Region0.lean ====
/-
  The projection kernel (first region) of the program, at any float instance: one grid point (b, ni) takes the
  1024 x 512 block of rows ni*1024 .. ni*1024+1023 of batch b of the flattened input and the three weight matrices,
  and leaves in its three output blocks the three matrix products of the block with the weights. Stated here: what
  each output block holds after the body as a function of the input blocks, the body's triple, and the pipeline's
  proof data for this region over the buffer contents `V` the region is entered from.
-/
import proofs.«117280_j38989713113557_2_alg».proof.Proof.Gen.Kernel.Launch
import proofs.«117280_j38989713113557_2_alg».proof.Proof.Gen.Kernel.Skeleton
import proofs.«117280_j38989713113557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a weight matrix is
    fetched once and its block index never moves); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S1x1024x512 := Rect.unit (s := S1x1024x512) ![0, 0, 0] S1x1024x512.size inb_S1x1024x512_S1x1024x512_0_0_0
abbrev rW0 : Rect S512x64 := Rect.unit (s := S512x64) ![0, 0] S512x64.size inb_S512x64_S512x64_0_0
abbrev rW30 : Rect S512x512 := Rect.unit (s := S512x512) ![0, 0] S512x512.size inb_S512x512_S512x512_0_0
abbrev rO0 : Rect S1x1024x64 := Rect.unit (s := S1x1024x64) ![0, 0, 0] S1x1024x64.size inb_S1x1024x64_S1x1024x64_0_0_0

/-! ## What the body leaves in each output block -/

/-- The query block: the input block times the first weight matrix. -/
def out0_4 (x0 : Vec F S1x1024x512 .bf16) (x1 : Vec F S512x64 .bf16) : Vec F S1x1024x64 .bf16 :=
  View.canon [⟨rO0, k0_pay2 (View.ld x0 rX0) (View.ld x1 rW0)⟩]
/-- The key block: the input block times the second weight matrix. -/
def out0_5 (x0 : Vec F S1x1024x512 .bf16) (x2 : Vec F S512x64 .bf16) : Vec F S1x1024x64 .bf16 :=
  View.canon [⟨rO0, k0_pay3 (View.ld x0 rX0) (View.ld x2 rW0)⟩]
/-- The value block: the input block times the third weight matrix. -/
def out0_6 (x0 : Vec F S1x1024x512 .bf16) (x3 : Vec F S512x512 .bf16) : Vec F S1x1024x512 .bf16 :=
  View.canon [⟨rX0, k0_pay4 (View.ld x0 rX0) (View.ld x3 rW30)⟩]

theorem cover0_O (p0 : Vec F S1x1024x64 .bf16) (y : S1x1024x64.Idx) :
    ∃ pc ∈ ([⟨rO0, p0⟩] : List (View.Piece (Elt F) S1x1024x64 .bf16)), y ∈ pc.1.set :=
  View.cover_of_tiled [⟨rO0, p0⟩] S1x1024x64.size (by rfl) y
theorem cover0_X (p0 : Vec F S1x1024x512 .bf16) (y : S1x1024x512.Idx) :
    ∃ pc ∈ ([⟨rX0, p0⟩] : List (View.Piece (Elt F) S1x1024x512 .bf16)), y ∈ pc.1.set :=
  View.cover_of_tiled [⟨rX0, p0⟩] S1x1024x512.size (by rfl) y

/-! ## The body's triple -/

set_option maxHeartbeats 4000000 in
/-- The body on whole staging buffers, the four inputs' at read contents and the three outputs' at anything, runs to
    the continuation with the inputs as they were and each output at its product. -/
theorem sound_kernel0 (c : Dev nD) (E : Set ℕ) (i : grid0.Coords)
    (arg2 : Memref sig .tc .vmem S1x1024x512 .bf16) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S1x1024x64 .bf16) (harg6 : arg6.IsWhole) (arg7 : Memref sig .tc .vmem S1x1024x64 .bf16) (harg7 : arg7.IsWhole)
    (arg8 : Memref sig .tc .vmem S1x1024x512 .bf16) (harg8 : arg8.IsWhole)
    (x0 : Vec F S1x1024x512 .bf16) (x1 x2 : Vec F S512x64 .bf16) (x3 : Vec F S512x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_X _)

/-! ## The pipeline's proof data -/

/-- The proof data of this region on core `c`: the arrays as the region finds them; after the body at point `t` each
    input's buffer at its block and each output's at its product of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Defs.lean ====
/-
  The position-attention kernel (second region): one grid point (b, qi, ki) takes a 1024-row query block, the ki-th
  512-row key block and value block of batch b, and three scratch buffers it carries from point to point — the
  running row maximum m, the running normaliser l and the running weighted sum acc. At ki = 0 it resets them
  (m to minus infinity, l and acc to zero), at every point it rescales and adds the tile's contribution, and at
  ki = 7 it writes acc / l, transposed, to its output block. Here: the blocks, the two branch conditions in closed
  form over the grid, where the output window is idle, and the region invariant split into the three scratch
  buffers and the rest.
-/
import proofs.«117280_j38989713113557_2_alg».proof.Proof.Gen.Kernel.Launch
import proofs.«117280_j38989713113557_2_alg».proof.Proof.Gen.Kernel.Skeleton
import proofs.«117280_j38989713113557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched once per (b, qi) and its block index does not move over ki). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions -/

/-- The reset branch is taken: the key-tile coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The write-out branch is taken: the key-tile coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the write-out branch is not taken the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x512x1024 .f32 := (Memref.whole cc1_stg3_0 : Memref sig .tc .vmem S1x512x1024 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The running row maximum, the running normaliser, the running weighted sum: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x512 .f32 := scM1_2.view

/-! ## The region invariant, split -/

/-- Everything the class invariant holds besides the three scratch buffers: the other regions' staging buffers at
    some contents each, and the generator register at some state. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ r, prngReg c r))

/-- The class invariant hands out the three scratch buffers at some contents, and the rest. -/
theorem PhiA1_in (c : Dev nD) : (Pipeline.ΦA spec1 c : sProp 𝕄)
    ⊢ iprop((∃ d, owns (c : Thread nD τ) scM1_0 fullShare d) ∗ (∃ d, owns (c : Thread nD τ) scM1_1 fullShare d) ∗ (∃ d, owns (c : Thread nD τ) scM1_2 fullShare d) ∗ Rest1 c) := by
  unfold Pipeline.ΦA Rest1; rw [scopedRest1_eq]; simp only [scM1_0, scM1_1, scM1_2, owns_whole]
  iintro ⟨⟨H0, H1, H2, H3, H4, H5, H6, H7, H8, H9, H10, H11, H12, H13, H14, H15, H16, H17, H18, H19, H20, H21, H22, H23⟩, Hg⟩
  isplitl [H11]; · iexact H11
  isplitl [H12]; · iexact H12
  isplitl [H13]; · iexact H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact Hg

/-- And takes them back. -/
theorem PhiA1_out (c : Dev nD) :
    iprop((∃ d, owns (c : Thread nD τ) scM1_0 fullShare d) ∗ (∃ d, owns (c : Thread nD τ) scM1_1 fullShare d) ∗ (∃ d, owns (c : Thread nD τ) scM1_2 fullShare d) ∗ Rest1 c)
      ⊢ (Pipeline.ΦA spec1 c : sProp 𝕄) := by
  unfold Pipeline.ΦA Rest1; rw [scopedRest1_eq]; simp only [scM1_0, scM1_1, scM1_2, owns_whole]
  iintro ⟨H11, H12, H13, H0, H1, H2, H3, H4, H5, H6, H7, H8, H9, H10, H14, H15, H16, H17, H18, H19, H20, H21, H22, H23, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Region1

end Cert.Kernel.Hand

end
-- ==== Proof.K.Region1RunA.lean ====
/-
  The position-attention kernel's body in the case where the key-tile coordinate is 0: the scratch buffers are reset first, so the case does not depend on what they held.
-/
import proofs.«117280_j38989713113557_2_alg».proof.Proof.K.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block and in the three scratch buffers, as lists of stored pieces
    (last first), with the proof that on whole buffers — the three inputs at their contents, the output at anything,
    the scratch buffers at anything — the body runs to the continuation holding the inputs as they were and each
    written buffer with its pieces written. The pieces are found by running the body. -/
noncomputable def kernelRun1_A (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16)  :
    Σ' (L3 : List (View.Piece (Elt F) S1x512x1024 .f32)) (LS0 : List (View.Piece (Elt F) S1024x1 .f32)) (LS1 : List (View.Piece (Elt F) S1024x1 .f32)), { LS2 : List (View.Piece (Elt F) S1024x512 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__pam_kernel i arg3 harg3 arg4 harg4 arg5 harg5 arg6 harg6 arg7 harg7 arg8 harg8 arg9 harg9) K } := by
  refine ⟨[], ?_, ?_, ?_, fun xi3 E K => ?run⟩
  case run =>
    simp only [cc1__pam_kernel_eq_skeleton]; unfold cc1__pam_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Region1RunB.lean ====
/-
  The position-attention kernel's body in the case where the key-tile coordinate is neither 0 nor 7: the scratch buffers are read at what the point before left and updated; nothing is stored into the output block.
-/
import proofs.«117280_j38989713113557_2_alg».proof.Proof.K.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block and in the three scratch buffers, as lists of stored pieces
    (last first), with the proof that on whole buffers — the three inputs at their contents, the output at anything,
    the scratch buffers at the contents the point before left — the body runs to the continuation holding the inputs as they were and each
    written buffer with its pieces written. The pieces are found by running the body. -/
noncomputable def kernelRun1_B (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) :
    Σ' (L3 : List (View.Piece (Elt F) S1x512x1024 .f32)) (LS0 : List (View.Piece (Elt F) S1024x1 .f32)) (LS1 : List (View.Piece (Elt F) S1024x1 .f32)), { LS2 : List (View.Piece (Elt F) S1024x512 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__pam_kernel i arg3 harg3 arg4 harg4 arg5 harg5 arg6 harg6 arg7 harg7 arg8 harg8 arg9 harg9) K } := by
  refine ⟨[], ?_, ?_, ?_, fun xi3 E K => ?run⟩
  case run =>
    simp only [cc1__pam_kernel_eq_skeleton]; unfold cc1__pam_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Region1RunC.lean ====
/-
  The position-attention kernel's body in the case where the key-tile coordinate is 7: the scratch buffers are updated and the quotient acc / l is stored, transposed, into the output block.
-/
import proofs.«117280_j38989713113557_2_alg».proof.Proof.K.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block and in the three scratch buffers, as lists of stored pieces
    (last first), with the proof that on whole buffers — the three inputs at their contents, the output at anything,
    the scratch buffers at the contents the point before left — the body runs to the continuation holding the inputs as they were and each
    written buffer with its pieces written. The pieces are found by running the body. -/
noncomputable def kernelRun1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) :
    Σ' (L3 : List (View.Piece (Elt F) S1x512x1024 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__pam_kernel i arg3 harg3 arg4 harg4 arg5 harg5 arg6 harg6 arg7 harg7 arg8 harg8 arg9 harg9) K } := by
  refine ⟨?_, ?_, ?_, ?_, fun E K => ?run⟩
  case run =>
    simp only [cc1__pam_kernel_eq_skeleton]; unfold cc1__pam_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Region1Main.lean ====
/-
  The position-attention kernel (second region): what its output block and its three carried scratch buffers hold
  after every grid point, by recursion over the points through the three cases of the body; the region invariant
  that carries the scratch buffers from point to point; the pipeline's proof data and the body obligation.
-/
import proofs.«117280_j38989713113557_2_alg».proof.Proof.K.Region1RunA
import proofs.«117280_j38989713113557_2_alg».proof.Proof.K.Region1RunB
import proofs.«117280_j38989713113557_2_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- What the case leaves in the output block: its pieces read back (none but in the write-out case). -/
def out1_A_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1x512x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)
theorem scover1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
def sout1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)
theorem scover1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y
def sout1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)
theorem scover1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) (y : S1024x512.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x512.size (by sl_kernel_rfl) y
def sout1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1024x512 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)
/-- What the case leaves in the output block: its pieces read back (none but in the write-out case). -/
def out1_B_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)
theorem scover1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
def sout1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)
theorem scover1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
def sout1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)
theorem scover1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x512.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x512.size (by sl_kernel_rfl) y
def sout1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x512 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)
/-- What the case leaves in the output block: its pieces read back (none but in the write-out case). -/
def out1_C_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)
theorem scover1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y
def sout1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)
theorem scover1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y
def sout1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)
theorem scover1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x512.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x512.size (by sl_kernel_rfl) y
def sout1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x512 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)
theorem cover1_C_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1x512x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x512x1024.size (by sl_kernel_rfl) y

/-! ## What the buffers hold after each point -/

/-- THE RECURSION over the grid points. What the output block's buffer and the three scratch buffers hold after the
    body at position `n`: the case the closed forms select there, run at the point's buffers and input blocks, the
    scratch buffers at what the point before left (they are the kernel's own and nothing else touches them). -/
def outsAt1 (c : Dev nD) : (n : ℕ) → n < cfg1.N → Vec F S1x512x1024 .f32 × Vec F S1024x1 .f32 × Vec F S1024x1 .f32 × Vec F S1024x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
        sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
        sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
        sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-! ## The region invariant -/

/-- Before the first point the class's invariant (every scratch buffer at anything); after a point, the three scratch
    buffers at what that point left, beside the rest. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ Rest1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ Rest1 c) := rfl
theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ Rest1 c) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the closed forms say which case the point is in; the
    invariant hands the body the scratch buffers (at anything at the first point, else at what the point before left)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_in (F := F) c) $$ HΦ
        icases HΦ' with ⟨HS0, HS1, HS2, Hrest⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hrest
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, HS1, HS2, Hrest⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hrest
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS1_castSucc V c t, PhiS1_pos V c _ _ hz]
      iintro ⟨⟨HS0, HS1, HS2, Hrest⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨HS0, HS1, HS2, Hrest⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_first (c : Dev nD) : (dat1 V c).Φ 0 = Pipeline.ΦA spec1 c := rfl

/-- After the last point the invariant gives the class's back: the scratch buffers' named contents are forgotten. -/
theorem Phi1_last (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine .trans ?_ (PhiA1_out (F := F) c)
  iintro ⟨HS0, HS1, HS2, Hrest⟩
  isplitl [HS0]; · iexists _; iexact HS0
  isplitl [HS1]; · iexists _; iexact HS1
  isplitl [HS2]; · iexists _; iexact HS2
  iexact Hrest

end Region1

end Cert.Kernel.Hand

end
-- ==== Proof.K.Region1.lean ====
/-
  The position-attention region (second region), assembled: its definitions, the three cases of its body, and its
  proof data with the invariant that carries the running maximum, normaliser and weighted sum between grid points.
-/
import proofs.«117280_j38989713113557_2_alg».proof.Proof.K.Region1Main
-- ==== Proof.K.Region2.lean ====
/-
  The Gram-matrix reduction kernel (third region) of the program, at any float instance: the grid point (b, ni) takes
  the 1024 x 512 block of rows ni*1024 .. ni*1024+1023 of batch b of the flattened input and adds its Gram product
  (block transposed times block, 512 x 512) into the output block of batch b, which the four points of the batch share:
  the first point of a batch resets the block to zero before adding, the three later points add to what the point before
  left, and the block is written back to its array only after the batch's last point. Stated here: the body's triple in
  each of the two cases, what the output block holds after each point (by recursion on the point within its batch), the
  pipeline's proof data for this region over the buffer contents `V` the region is entered from, and the body obligation.
-/
import proofs.«117280_j38989713113557_2_alg».proof.Proof.Gen.Kernel.Launch
import proofs.«117280_j38989713113557_2_alg».proof.Proof.Gen.Kernel.Skeleton
import proofs.«117280_j38989713113557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

/-! ## The body's branch condition -/

/-- The condition of the body's one conditional, from the grid coordinates: the position within the batch is zero. -/
abbrev cond2_0 (i : grid2.Coords) : Prop := (Scalar.cmpi .ne (Scalar.extui (Scalar.cmpi .eq (BitVec.ofNat 32 (i 1).val) 0#32)) 0#32) = 1#1
/-- It holds at the first point of each batch only — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- One staging buffer of the output window, through which its contents are stated (the choice does not matter). -/
abbrev VO2_1 : View sig .tc .vmem S1x512x512 .f32 := (Memref.whole cc2_stg1_0 : Memref sig .tc .vmem S1x512x512 .f32).view
/-- Each window's current staging memref at point `t`, spelled as the pipeline passes it, and its wholeness. -/
abbrev ms2_0 (t : Fin cfg2.N) : Memref sig .tc .vmem S1x1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x512 .f32 := win2_1.stage (cfg2.slots t 1)
abbrev hs2_1 (t : Fin cfg2.N) : (ms2_1 t).IsWhole := hstage2_1 ((cfg2.slots t 1).cast nbuf2_1)

/-! ## The body's triple, per case of the condition -/

set_option maxHeartbeats 4000000 in
/-- Case A (first point of a batch): the output buffer, at anything, is reset to zero and the Gram product of the rows
    block is added to it. The pieces the buffer ends with are the witness the run finds. -/
noncomputable def kernelRun2_A (c : Dev nD) (i : grid2.Coords) (arg2 : Memref sig .tc .vmem S1x1024x512 .bf16) (harg2 : arg2.IsWhole)
    (arg3 : Memref sig .tc .vmem S1x512x512 .f32) (harg3 : arg3.IsWhole) (hc0 : cond2_0 i)
    (x0 : Vec F S1x1024x512 .bf16) :
    { L1 : List (View.Piece (Elt F) S1x512x512 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__cam_reduce_kernel i arg2 harg2 arg3 harg3) K } := by
  refine ⟨?_, fun E K => ?run⟩
  case run =>
    simp only [cc2__cam_reduce_kernel_eq_skeleton]; unfold cc2__cam_reduce_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 4000000 in
/-- Case B (a later point of a batch): the output buffer, at the running sum `xo1`, has the Gram product of the rows
    block added to it. -/
noncomputable def kernelRun2_B (c : Dev nD) (i : grid2.Coords) (arg2 : Memref sig .tc .vmem S1x1024x512 .bf16) (harg2 : arg2.IsWhole)
    (arg3 : Memref sig .tc .vmem S1x512x512 .f32) (harg3 : arg3.IsWhole) (hc0 : ¬cond2_0 i)
    (x0 : Vec F S1x1024x512 .bf16) (xo1 : Vec F S1x512x512 .f32) :
    { L1 : List (View.Piece (Elt F) S1x512x512 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__cam_reduce_kernel i arg2 harg2 arg3 harg3) K } := by
  refine ⟨?_, fun E K => ?run⟩
  case run =>
    simp only [cc2__cam_reduce_kernel_eq_skeleton]; unfold cc2__cam_reduce_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output buffer -/

/-- Case A's pieces (the reset, then the sum) tile the output block, so they cover it. -/
theorem cover2_A_1 (c : Dev nD) (i : grid2.Coords) (arg2 : Memref sig .tc .vmem S1x1024x512 .bf16) (harg2 : arg2.IsWhole)
    (arg3 : Memref sig .tc .vmem S1x512x512 .f32) (harg3 : arg3.IsWhole) (hc0 : cond2_0 i)
    (x0 : Vec F S1x1024x512 .bf16) (y : S1x512x512.Idx) :
    ∃ pc ∈ (kernelRun2_A c i arg2 harg2 arg3 harg3 hc0 x0).1, y ∈ pc.1.set :=
  View.cover_of_tiledL (kernelRun2_A c i arg2 harg2 arg3 harg3 hc0 x0).1 S1x512x512.size (by sl_kernel_rfl) y

/-- What case A leaves in the output's staging buffer: its pieces read back. -/
def out2_A_1 (c : Dev nD) (i : grid2.Coords) (arg2 : Memref sig .tc .vmem S1x1024x512 .bf16) (harg2 : arg2.IsWhole)
    (arg3 : Memref sig .tc .vmem S1x512x512 .f32) (harg3 : arg3.IsWhole) (hc0 : cond2_0 i)
    (x0 : Vec F S1x1024x512 .bf16) : Vec F S1x512x512 .f32 :=
  VO2_1.read (Elt F) (VO2_1.writes (Elt F) VO2_1.junk (kernelRun2_A c i arg2 harg2 arg3 harg3 hc0 x0).1)

/-- Case B's one piece (the sum) tiles the output block, so it covers it. -/
theorem cover2_B_1 (c : Dev nD) (i : grid2.Coords) (arg2 : Memref sig .tc .vmem S1x1024x512 .bf16) (harg2 : arg2.IsWhole)
    (arg3 : Memref sig .tc .vmem S1x512x512 .f32) (harg3 : arg3.IsWhole) (hc0 : ¬cond2_0 i)
    (x0 : Vec F S1x1024x512 .bf16) (xo1 : Vec F S1x512x512 .f32) (y : S1x512x512.Idx) :
    ∃ pc ∈ (kernelRun2_B c i arg2 harg2 arg3 harg3 hc0 x0 xo1).1, y ∈ pc.1.set :=
  View.cover_of_tiledL (kernelRun2_B c i arg2 harg2 arg3 harg3 hc0 x0 xo1).1 S1x512x512.size (by sl_kernel_rfl) y

/-- What case B leaves in the output's staging buffer: its piece read back. -/
def out2_B_1 (c : Dev nD) (i : grid2.Coords) (arg2 : Memref sig .tc .vmem S1x1024x512 .bf16) (harg2 : arg2.IsWhole)
    (arg3 : Memref sig .tc .vmem S1x512x512 .f32) (harg3 : arg3.IsWhole) (hc0 : ¬cond2_0 i)
    (x0 : Vec F S1x1024x512 .bf16) (xo1 : Vec F S1x512x512 .f32) : Vec F S1x512x512 .f32 :=
  VO2_1.read (Elt F) (VO2_1.writes (Elt F) VO2_1.junk (kernelRun2_B c i arg2 harg2 arg3 harg3 hc0 x0 xo1).1)

/-! ## What the output buffer holds after each point -/

/-- The accumulation. What the output's staging buffer holds after the body at position `n`: at the first point of a
    batch the reset case on that point's rows block; at a later point the adding case on that point's rows block over
    what the point before left (the buffer is not written back between). -/
def outsAt2 (c : Dev nD) : (n : ℕ) → n < cfg2.N → Vec F S1x512x512 .f32
  | 0, hn => out2_A_1 c (grid2.coords ⟨0, hn⟩) (ms2_0 ⟨0, hn⟩) (hs2_0 ⟨0, hn⟩) (ms2_1 ⟨0, hn⟩) (hs2_1 ⟨0, hn⟩) ((hcond2_0 ⟨0, hn⟩).mpr (Nat.zero_mod _)) (iblk2 V c 0 ⟨0, hn⟩)
  | n + 1, hn =>
    if h0 : (n + 1) % 4 = 0 then
      out2_A_1 c (grid2.coords ⟨n + 1, hn⟩) (ms2_0 ⟨n + 1, hn⟩) (hs2_0 ⟨n + 1, hn⟩) (ms2_1 ⟨n + 1, hn⟩) (hs2_1 ⟨n + 1, hn⟩) ((hcond2_0 ⟨n + 1, hn⟩).mpr h0) (iblk2 V c 0 ⟨n + 1, hn⟩)
    else
      out2_B_1 c (grid2.coords ⟨n + 1, hn⟩) (ms2_0 ⟨n + 1, hn⟩) (hs2_0 ⟨n + 1, hn⟩) (ms2_1 ⟨n + 1, hn⟩) (hs2_1 ⟨n + 1, hn⟩) (fun h => h0 ((hcond2_0 ⟨n + 1, hn⟩).mp h)) (iblk2 V c 0 ⟨n + 1, hn⟩) (outsAt2 c n (Nat.lt_of_succ_lt hn))

/-- `outsAt2` at a first point of a batch: the reset case's contents. -/
theorem outsAt2_A (c : Dev nD) (t : Fin cfg2.N) (h0 : t.val % 4 = 0) :
    outsAt2 V c t.val t.isLt = out2_A_1 c (grid2.coords t) (ms2_0 t) (hs2_0 t) (ms2_1 t) (hs2_1 t) ((hcond2_0 t).mpr h0) (iblk2 V c 0 t) := by
  obtain ⟨n, hn⟩ := t
  cases n with
  | zero => exact rfl
  | succ n => exact (dif_pos h0).trans rfl

/-- `outsAt2` at a later point of a batch: the adding case's contents, over what the point before left. -/
theorem outsAt2_B (c : Dev nD) (t : Fin cfg2.N) (h0 : ¬t.val % 4 = 0) :
    outsAt2 V c t.val t.isLt = out2_B_1 c (grid2.coords t) (ms2_0 t) (hs2_0 t) (ms2_1 t) (hs2_1 t) (fun h => h0 ((hcond2_0 t).mp h)) (iblk2 V c 0 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region on core `c`: the arrays as the region finds them; after the body at point `t` the
    input's buffer at its block and the output's at the accumulation; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi2_first (c : Dev nD) : (dat2 V c).Φ 0 = Pipeline.ΦA spec2 c := rfl
theorem Phi2_last (c : Dev nD) : (dat2 V c).Φ (Fin.last cfg2.N) ⊢ (Pipeline.ΦA spec2 c : sProp 𝕄) := .rfl

theorem after2_0 (c : Dev nD) (t : Fin cfg2.N) : (dat2 V c).after 0 t = iblk2 V c 0 t := by dsimp only [dat2]
theorem after2_1 (c : Dev nD) (t : Fin cfg2.N) : (dat2 V c).after 1 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d

/-- At a later point of a batch the output's current staging buffer holds what the body left at the point before: the
    point is not the first, the buffer was not written back between, the window is live and uncut. -/
theorem before2_1_B (c : Dev nD) (t : Fin cfg2.N) (h0 : ¬t.val % 4 = 0) (d) :
    (dat2 V c).before 1 t d = outsAt2 V c (t.val - 1) (Nat.lt_of_le_of_lt (Nat.sub_le _ _) t.isLt) := by
  have hN : t.val < 16 := lt_of_lt_of_eq t.isLt (show cfg2.N = 16 from N_2)
  rw [Dat.before_out_kept _ 1 rfl t (by omega) (Bool.eq_false_iff.mpr fun h => by have := (flush2_1 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 1600000 in
/-- The body at any point: the input's buffer holds its block; the closed form says which case the point is in; in the
    adding case the output's buffer holds what the point before left; so that case's run applies; the invariant passes
    through unread; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 16 := lt_of_lt_of_eq t.isLt (show cfg2.N = 16 from N_2)
  by_cases h0 : t.val % 4 = 0
  · rw [outsAt2_A V c t h0]
    unfold out2_A_1
    iintro ⟨HΦ, Ho, ⟨%d0, H0⟩, ⟨%d1, H1⟩⟩
    iapply ((kernelRun2_A c (grid2.coords t) _ _ _ _ ((hcond2_0 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A_1 c _ _ _ _ _ _ _)
  · rw [outsAt2_B V c t h0]
    simp only [before2_1_B V c t h0]
    unfold out2_B_1
    iintro ⟨HΦ, Ho, ⟨%d0, H0⟩, ⟨%d1, H1⟩⟩
    iapply ((kernelRun2_B c (grid2.coords t) _ _ _ _ (fun h => h0 ((hcond2_0 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B_1 c _ _ _ _ _ _ _ _)

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Region3.lean ====
/-
  The channel-attention apply kernel (fourth region), at any float instance: one grid point (b, ni) takes the
  1024 x 512 block of rows of batch b of the flattened input and batch b's 512 x 512 Gram matrix, takes the
  softmax of the Gram matrix along its rows and leaves in its output block the product of the rows block with it.
  Stated here: what the output block holds after the body, the body's triple, and the pipeline's proof data over
  the buffer contents `V` the region is entered from.
-/
import proofs.«117280_j38989713113557_2_alg».proof.Proof.Gen.Kernel.Launch
import proofs.«117280_j38989713113557_2_alg».proof.Proof.Gen.Kernel.Skeleton
import proofs.«117280_j38989713113557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (the Gram matrix is
    fetched once per batch and its block index does not move within the batch). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rX3 : Rect S1x1024x512 := Rect.unit (s := S1x1024x512) ![0, 0, 0] S1x1024x512.size inb_S1x1024x512_S1x1024x512_0_0_0
abbrev rA3 : Rect S1x512x512 := Rect.unit (s := S1x512x512) ![0, 0, 0] S1x512x512.size inb_S1x512x512_S1x512x512_0_0_0

/-- The output block: the rows block times the row-softmax of the Gram matrix. -/
def out3_2 (x0 : Vec F S1x1024x512 .bf16) (x1 : Vec F S1x512x512 .f32) : Vec F S1x1024x512 .f32 :=
  View.canon [⟨rX3, k3_pay1 (View.ld x1 rA3) (View.ld x0 rX3)⟩]

theorem cover3_2 (p0 : Vec F S1x1024x512 .f32) (y : S1x1024x512.Idx) :
    ∃ pc ∈ ([⟨rX3, p0⟩] : List (View.Piece (Elt F) S1x1024x512 .f32)), y ∈ pc.1.set :=
  View.cover_of_tiled [⟨rX3, p0⟩] S1x1024x512.size (by rfl) y

set_option maxHeartbeats 4000000 in
/-- The body on whole staging buffers, the two inputs' at read contents and the output's at anything, runs to the
    continuation with the inputs as they were and the output at its product. -/
theorem sound_kernel3 (c : Dev nD) (E : Set ℕ) (i : grid3.Coords)
    (arg2 : Memref sig .tc .vmem S1x1024x512 .bf16) (harg2 : arg2.IsWhole) (arg3 : Memref sig .tc .vmem S1x512x512 .f32) (harg3 : arg3.IsWhole)
    (arg4 : Memref sig .tc .vmem S1x1024x512 .f32) (harg4 : arg4.IsWhole)
    (x0 : Vec F S1x1024x512 .bf16) (x1 : Vec F S1x512x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__cam_apply_kernel i arg2 harg2 arg3 harg3 arg4 harg4) K := by
  simp only [cc3__cam_apply_kernel_eq_skeleton]; unfold cc3__cam_apply_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region on core `c`: the arrays as the region finds them; after the body at point `t` each
    input's buffer at its block and the output's at its product; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Run.lean ====
/-
  The run of the whole program, at any float instance: the module's entry function is seven segments in a row — a
  stretch of host operations (a reshape and four conversions), the projection region, the position-attention region
  (entered straight from the first region's exit), a second host stretch, the channel-attention reduction region, the
  channel-attention application region, and a last host stretch. The buffer contents at every boundary are folded
  from the launch memory: a host stretch leaves what its operations compute, a region leaves its windows' arrays at
  what its pipeline writes back and every other buffer as entered. Over the thread state "every unscoped buffer at the
  boundary's contents, the generator register at some state, nothing owed", each region is a segment record built from
  its proof data, and the launch theorem for a list of segments gives one statement of the run: every execution
  terminates and every unscoped buffer ends at the last boundary's contents. The frame claim (each argument ends as
  launched) is read off that statement, since no host operation and no region writes an argument.
-/
import proofs.«117280_j38989713113557_2_alg».proof.Proof.K.Region0
import proofs.«117280_j38989713113557_2_alg».proof.Proof.K.Region1
import proofs.«117280_j38989713113557_2_alg».proof.Proof.K.Region2
import proofs.«117280_j38989713113557_2_alg».proof.Proof.K.Region3
import proofs.«117280_j38989713113557_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary: a fold through the entry function -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
/-- The same read at the TensorCore's references (what the projection region's proof data take). -/
abbrev V1 : (c : Dev nD) → (b : Ref sig .tc) → Buf (Elt F) ((c : Thread nD τ).loc b) := fun c b => W1 m c b

/-- At the projection region's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m c b
/-- At the projection region's exit each of its arrays holds what the pipeline leaves and every other buffer what it
    held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the position-attention region's exit: its arrays at what the pipeline leaves (the inputs as entered, each output's
    write-backs folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (the position-attention region's exit contents). -/
abbrev V3 : (c : Dev nD) → (b : Ref sig .tc) → Buf (Elt F) ((c : Thread nD τ).loc b) := fun c b => W3 m c b
/-- At the position-attention region's exit each of its arrays holds what the pipeline leaves and every other buffer what it
    held at entry. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch. -/
abbrev W4 : Dev nD → Valuation τ sig (Elt F) := fun c => StableHlo.after hostOps2 (W3 m c)
/-- The same read at the TensorCore's references. -/
abbrev V4 : (c : Dev nD) → (b : Ref sig .tc) → Buf (Elt F) ((c : Thread nD τ).loc b) := fun c b => W4 m c b

/-- At the channel-reduction region's exit: its arrays at what the pipeline leaves (the inputs as entered, each output's
    write-backs folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references (the channel-reduction region's exit contents). -/
abbrev V5 : (c : Dev nD) → (b : Ref sig .tc) → Buf (Elt F) ((c : Thread nD τ).loc b) := fun c b => W5 m c b
/-- At the channel-reduction region's exit each of its arrays holds what the pipeline leaves and every other buffer what it
    held at entry. -/
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- At the channel-application region's exit: its arrays at what the pipeline leaves (the inputs as entered, each output's
    write-backs folded), every other buffer as entered. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same read at the TensorCore's references (the channel-application region's exit contents). -/
abbrev V6 : (c : Dev nD) → (b : Ref sig .tc) → Buf (Elt F) ((c : Thread nD τ).loc b) := fun c b => W6 m c b
/-- At the channel-application region's exit each of its arrays holds what the pipeline leaves and every other buffer what it
    held at entry. -/
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-- After the last host stretch. -/
abbrev W7 : Dev nD → Valuation τ sig (Elt F) := fun c => StableHlo.after hostOps4 (W6 m c)

/-! ### The arguments end as launched: no host operation writes one and no region has one among its arrays, so the
    fold at an argument's buffer walks back to the launch memory -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps4 _ hostOps4_writes (by decide)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps4 _ hostOps4_writes (by decide)
    _ = W5 m c (Proc.devRef .tc main_arg1) := W6_of_ne m c main_arg1 (by decide)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps4 _ hostOps4_writes (by decide)
    _ = W5 m c (Proc.devRef .tc main_arg2) := W6_of_ne m c main_arg2 (by decide)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps4 _ hostOps4_writes (by decide)
    _ = W5 m c (Proc.devRef .tc main_arg3) := W6_of_ne m c main_arg3 (by decide)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps4 _ hostOps4_writes (by decide)
    _ = W5 m c (Proc.devRef .tc main_arg4) := W6_of_ne m c main_arg4 (by decide)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps4 _ hostOps4_writes (by decide)
    _ = W5 m c (Proc.devRef .tc main_arg5) := W6_of_ne m c main_arg5 (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at what the stretch's operations compute from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The projection region over the thread state: entered from every unscoped buffer at `W1`, left at `W2`. Its
    arrays are split out of the unscoped buffers at entry and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The position-attention region over the thread state: entered from every unscoped buffer at `W2`, left at `W3`. Its
    arrays are split out of the unscoped buffers at entry and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V2 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The channel-reduction region over the thread state: entered from every unscoped buffer at `W4`, left at `W5`. Its
    arrays are split out of the unscoped buffers at entry and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun w => A_eq2 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The channel-application region over the thread state: entered from every unscoped buffer at `W5`, left at `W6`. Its
    arrays are split out of the unscoped buffers at entry and put back at the exit contents; the generator register
    goes into the region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun w => A_eq3 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's seven segments in order: a host segment per stretch from its boundary's contents, a region
    per kernel call. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)) ]
/-- The entry function is the run of the segments. -/
theorem main_run (c : Dev nD) : main (F := F) c = Pipeline.Seg.run (segs m) :=
  main_segs adm (pdats m) () 𝒱₀ L lv _ _ _ (reg0 m) (reg1 m) (reg2 m) (reg3 m) rfl rfl rfl c

set_option backward.isDefEq.respectTransparency.types false in
/-- The run, with any consequence of its final buffer contents as the post: at the compiled mesh, from any memory with
    zero counters, every weakly fair execution of the entry function on the TensorCores terminates, nothing faulting,
    and every final state satisfies whatever follows from every unscoped buffer holding the last boundary's
    contents. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W7 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := hQ)

/-- THE RUN: every execution terminates and every unscoped buffer ends at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m c b) :=
  run_of m ρ fun _ h => h

/-- THE FRAME: every execution terminates and each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩

end Cert.Kernel.Hand

end
-- ==== Proof.KI.Region0.lean ====
/-
  The projection kernel (first region) of the program, at any float instance: one grid point (b, ni) takes the
  1024 x 512 block of rows ni*1024 .. ni*1024+1023 of batch b of the flattened input and the three weight matrices,
  and leaves in its three output blocks the three matrix products of the block with the weights. Stated here: what
  each output block holds after the body as a function of the input blocks, the body's triple, and the pipeline's
  proof data for this region over the buffer contents `V` the region is entered from.
-/
import proofs.«117280_j38989713113557_2_alg».proof.Proof.Gen.KernelIdeal.Launch
import proofs.«117280_j38989713113557_2_alg».proof.Proof.Gen.KernelIdeal.Skeleton
import proofs.«117280_j38989713113557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a weight matrix is
    fetched once and its block index never moves); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S1x1024x512 := Rect.unit (s := S1x1024x512) ![0, 0, 0] S1x1024x512.size inb_S1x1024x512_S1x1024x512_0_0_0
abbrev rW0 : Rect S512x64 := Rect.unit (s := S512x64) ![0, 0] S512x64.size inb_S512x64_S512x64_0_0
abbrev rW30 : Rect S512x512 := Rect.unit (s := S512x512) ![0, 0] S512x512.size inb_S512x512_S512x512_0_0
abbrev rO0 : Rect S1x1024x64 := Rect.unit (s := S1x1024x64) ![0, 0, 0] S1x1024x64.size inb_S1x1024x64_S1x1024x64_0_0_0

/-! ## What the body leaves in each output block -/

/-- The query block: the input block times the first weight matrix. -/
def out0_4 (x0 : Vec F S1x1024x512 .bf16) (x1 : Vec F S512x64 .bf16) : Vec F S1x1024x64 .bf16 :=
  View.canon [⟨rO0, k0_pay2 (View.ld x0 rX0) (View.ld x1 rW0)⟩]
/-- The key block: the input block times the second weight matrix. -/
def out0_5 (x0 : Vec F S1x1024x512 .bf16) (x2 : Vec F S512x64 .bf16) : Vec F S1x1024x64 .bf16 :=
  View.canon [⟨rO0, k0_pay3 (View.ld x0 rX0) (View.ld x2 rW0)⟩]
/-- The value block: the input block times the third weight matrix. -/
def out0_6 (x0 : Vec F S1x1024x512 .bf16) (x3 : Vec F S512x512 .bf16) : Vec F S1x1024x512 .bf16 :=
  View.canon [⟨rX0, k0_pay4 (View.ld x0 rX0) (View.ld x3 rW30)⟩]

theorem cover0_O (p0 : Vec F S1x1024x64 .bf16) (y : S1x1024x64.Idx) :
    ∃ pc ∈ ([⟨rO0, p0⟩] : List (View.Piece (Elt F) S1x1024x64 .bf16)), y ∈ pc.1.set :=
  View.cover_of_tiled [⟨rO0, p0⟩] S1x1024x64.size (by rfl) y
theorem cover0_X (p0 : Vec F S1x1024x512 .bf16) (y : S1x1024x512.Idx) :
    ∃ pc ∈ ([⟨rX0, p0⟩] : List (View.Piece (Elt F) S1x1024x512 .bf16)), y ∈ pc.1.set :=
  View.cover_of_tiled [⟨rX0, p0⟩] S1x1024x512.size (by rfl) y

/-! ## The body's triple -/

set_option maxHeartbeats 4000000 in
/-- The body on whole staging buffers, the four inputs' at read contents and the three outputs' at anything, runs to
    the continuation with the inputs as they were and each output at its product. -/
theorem sound_kernel0 (c : Dev nD) (E : Set ℕ) (i : grid0.Coords)
    (arg2 : Memref sig .tc .vmem S1x1024x512 .bf16) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S1x1024x64 .bf16) (harg6 : arg6.IsWhole) (arg7 : Memref sig .tc .vmem S1x1024x64 .bf16) (harg7 : arg7.IsWhole)
    (arg8 : Memref sig .tc .vmem S1x1024x512 .bf16) (harg8 : arg8.IsWhole)
    (x0 : Vec F S1x1024x512 .bf16) (x1 x2 : Vec F S512x64 .bf16) (x3 : Vec F S512x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_X _)

/-! ## The pipeline's proof data -/

/-- The proof data of this region on core `c`: the arrays as the region finds them; after the body at point `t` each
    input's buffer at its block and each output's at its product of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Defs.lean ====
/-
  The position-attention kernel (second region): one grid point (b, qi, ki) takes a 1024-row query block, the ki-th
  512-row key block and value block of batch b, and three scratch buffers it carries from point to point — the
  running row maximum m, the running normaliser l and the running weighted sum acc. At ki = 0 it resets them
  (m to minus infinity, l and acc to zero), at every point it rescales and adds the tile's contribution, and at
  ki = 7 it writes acc / l, transposed, to its output block. Here: the blocks, the two branch conditions in closed
  form over the grid, where the output window is idle, and the region invariant split into the three scratch
  buffers and the rest.
-/
import proofs.«117280_j38989713113557_2_alg».proof.Proof.Gen.KernelIdeal.Launch
import proofs.«117280_j38989713113557_2_alg».proof.Proof.Gen.KernelIdeal.Skeleton
import proofs.«117280_j38989713113557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched once per (b, qi) and its block index does not move over ki). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions -/

/-- The reset branch is taken: the key-tile coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The write-out branch is taken: the key-tile coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the write-out branch is not taken the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x512x1024 .f32 := (Memref.whole cc1_stg3_0 : Memref sig .tc .vmem S1x512x1024 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The running row maximum, the running normaliser, the running weighted sum: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x512 .f32 := scM1_2.view

/-! ## The region invariant, split -/

/-- Everything the class invariant holds besides the three scratch buffers: the other regions' staging buffers at
    some contents each, and the generator register at some state. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ r, prngReg c r))

/-- The class invariant hands out the three scratch buffers at some contents, and the rest. -/
theorem PhiA1_in (c : Dev nD) : (Pipeline.ΦA spec1 c : sProp 𝕄)
    ⊢ iprop((∃ d, owns (c : Thread nD τ) scM1_0 fullShare d) ∗ (∃ d, owns (c : Thread nD τ) scM1_1 fullShare d) ∗ (∃ d, owns (c : Thread nD τ) scM1_2 fullShare d) ∗ Rest1 c) := by
  unfold Pipeline.ΦA Rest1; rw [scopedRest1_eq]; simp only [scM1_0, scM1_1, scM1_2, owns_whole]
  iintro ⟨⟨H0, H1, H2, H3, H4, H5, H6, H7, H8, H9, H10, H11, H12, H13, H14, H15, H16, H17, H18, H19, H20, H21, H22, H23⟩, Hg⟩
  isplitl [H11]; · iexact H11
  isplitl [H12]; · iexact H12
  isplitl [H13]; · iexact H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact Hg

/-- And takes them back. -/
theorem PhiA1_out (c : Dev nD) :
    iprop((∃ d, owns (c : Thread nD τ) scM1_0 fullShare d) ∗ (∃ d, owns (c : Thread nD τ) scM1_1 fullShare d) ∗ (∃ d, owns (c : Thread nD τ) scM1_2 fullShare d) ∗ Rest1 c)
      ⊢ (Pipeline.ΦA spec1 c : sProp 𝕄) := by
  unfold Pipeline.ΦA Rest1; rw [scopedRest1_eq]; simp only [scM1_0, scM1_1, scM1_2, owns_whole]
  iintro ⟨H11, H12, H13, H0, H1, H2, H3, H4, H5, H6, H7, H8, H9, H10, H14, H15, H16, H17, H18, H19, H20, H21, H22, H23, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Region1

end Cert.KernelIdeal.Hand

end
-- ==== Proof.KI.Region1RunA.lean ====
/-
  The position-attention kernel's body in the case where the key-tile coordinate is 0: the scratch buffers are reset first, so the case does not depend on what they held.
-/
import proofs.«117280_j38989713113557_2_alg».proof.Proof.KI.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block and in the three scratch buffers, as lists of stored pieces
    (last first), with the proof that on whole buffers — the three inputs at their contents, the output at anything,
    the scratch buffers at anything — the body runs to the continuation holding the inputs as they were and each
    written buffer with its pieces written. The pieces are found by running the body. -/
noncomputable def kernelRun1_A (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16)  :
    Σ' (L3 : List (View.Piece (Elt F) S1x512x1024 .f32)) (LS0 : List (View.Piece (Elt F) S1024x1 .f32)) (LS1 : List (View.Piece (Elt F) S1024x1 .f32)), { LS2 : List (View.Piece (Elt F) S1024x512 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__pam_kernel i arg3 harg3 arg4 harg4 arg5 harg5 arg6 harg6 arg7 harg7 arg8 harg8 arg9 harg9) K } := by
  refine ⟨[], ?_, ?_, ?_, fun xi3 E K => ?run⟩
  case run =>
    simp only [cc1__pam_kernel_eq_skeleton]; unfold cc1__pam_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Region1RunB.lean ====
/-
  The position-attention kernel's body in the case where the key-tile coordinate is neither 0 nor 7: the scratch buffers are read at what the point before left and updated; nothing is stored into the output block.
-/
import proofs.«117280_j38989713113557_2_alg».proof.Proof.KI.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block and in the three scratch buffers, as lists of stored pieces
    (last first), with the proof that on whole buffers — the three inputs at their contents, the output at anything,
    the scratch buffers at the contents the point before left — the body runs to the continuation holding the inputs as they were and each
    written buffer with its pieces written. The pieces are found by running the body. -/
noncomputable def kernelRun1_B (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) :
    Σ' (L3 : List (View.Piece (Elt F) S1x512x1024 .f32)) (LS0 : List (View.Piece (Elt F) S1024x1 .f32)) (LS1 : List (View.Piece (Elt F) S1024x1 .f32)), { LS2 : List (View.Piece (Elt F) S1024x512 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__pam_kernel i arg3 harg3 arg4 harg4 arg5 harg5 arg6 harg6 arg7 harg7 arg8 harg8 arg9 harg9) K } := by
  refine ⟨[], ?_, ?_, ?_, fun xi3 E K => ?run⟩
  case run =>
    simp only [cc1__pam_kernel_eq_skeleton]; unfold cc1__pam_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Region1RunC.lean ====
/-
  The position-attention kernel's body in the case where the key-tile coordinate is 7: the scratch buffers are updated and the quotient acc / l is stored, transposed, into the output block.
-/
import proofs.«117280_j38989713113557_2_alg».proof.Proof.KI.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block and in the three scratch buffers, as lists of stored pieces
    (last first), with the proof that on whole buffers — the three inputs at their contents, the output at anything,
    the scratch buffers at the contents the point before left — the body runs to the continuation holding the inputs as they were and each
    written buffer with its pieces written. The pieces are found by running the body. -/
noncomputable def kernelRun1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) :
    Σ' (L3 : List (View.Piece (Elt F) S1x512x1024 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__pam_kernel i arg3 harg3 arg4 harg4 arg5 harg5 arg6 harg6 arg7 harg7 arg8 harg8 arg9 harg9) K } := by
  refine ⟨?_, ?_, ?_, ?_, fun E K => ?run⟩
  case run =>
    simp only [cc1__pam_kernel_eq_skeleton]; unfold cc1__pam_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Region1Main.lean ====
/-
  The position-attention kernel (second region): what its output block and its three carried scratch buffers hold
  after every grid point, by recursion over the points through the three cases of the body; the region invariant
  that carries the scratch buffers from point to point; the pipeline's proof data and the body obligation.
-/
import proofs.«117280_j38989713113557_2_alg».proof.Proof.KI.Region1RunA
import proofs.«117280_j38989713113557_2_alg».proof.Proof.KI.Region1RunB
import proofs.«117280_j38989713113557_2_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- What the case leaves in the output block: its pieces read back (none but in the write-out case). -/
def out1_A_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1x512x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)
theorem scover1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
def sout1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)
theorem scover1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y
def sout1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)
theorem scover1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) (y : S1024x512.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x512.size (by sl_kernel_rfl) y
def sout1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x64 .bf16) (x1 : Vec F S1x512x64 .bf16) (x2 : Vec F S1x512x512 .bf16) : Vec F S1024x512 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)
/-- What the case leaves in the output block: its pieces read back (none but in the write-out case). -/
def out1_B_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)
theorem scover1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
def sout1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)
theorem scover1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
def sout1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)
theorem scover1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x512.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x512.size (by sl_kernel_rfl) y
def sout1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x512 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)
/-- What the case leaves in the output block: its pieces read back (none but in the write-out case). -/
def out1_C_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)
theorem scover1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y
def sout1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)
theorem scover1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y
def sout1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)
theorem scover1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1024x512.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x512.size (by sl_kernel_rfl) y
def sout1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) : Vec F S1024x512 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)
theorem cover1_C_3 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x64 .bf16) (x1 : Vec F S1x512x64 .bf16) (x2 : Vec F S1x512x512 .bf16) (xs0 : Vec F S1024x1 .f32) (xs1 : Vec F S1024x1 .f32) (xs2 : Vec F S1024x512 .f32) (y : S1x512x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x512x1024.size (by sl_kernel_rfl) y

/-! ## What the buffers hold after each point -/

/-- THE RECURSION over the grid points. What the output block's buffer and the three scratch buffers hold after the
    body at position `n`: the case the closed forms select there, run at the point's buffers and input blocks, the
    scratch buffers at what the point before left (they are the kernel's own and nothing else touches them). -/
def outsAt1 (c : Dev nD) : (n : ℕ) → n < cfg1.N → Vec F S1x512x1024 .f32 × Vec F S1024x1 .f32 × Vec F S1024x1 .f32 × Vec F S1024x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
        sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
        sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
        sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-! ## The region invariant -/

/-- Before the first point the class's invariant (every scratch buffer at anything); after a point, the three scratch
    buffers at what that point left, beside the rest. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ Rest1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ Rest1 c) := rfl
theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ Rest1 c) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the closed forms say which case the point is in; the
    invariant hands the body the scratch buffers (at anything at the first point, else at what the point before left)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_in (F := F) c) $$ HΦ
        icases HΦ' with ⟨HS0, HS1, HS2, Hrest⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hrest
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, HS1, HS2, Hrest⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hrest
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS1_castSucc V c t, PhiS1_pos V c _ _ hz]
      iintro ⟨⟨HS0, HS1, HS2, Hrest⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨HS0, HS1, HS2, Hrest⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_first (c : Dev nD) : (dat1 V c).Φ 0 = Pipeline.ΦA spec1 c := rfl

/-- After the last point the invariant gives the class's back: the scratch buffers' named contents are forgotten. -/
theorem Phi1_last (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine .trans ?_ (PhiA1_out (F := F) c)
  iintro ⟨HS0, HS1, HS2, Hrest⟩
  isplitl [HS0]; · iexists _; iexact HS0
  isplitl [HS1]; · iexists _; iexact HS1
  isplitl [HS2]; · iexists _; iexact HS2
  iexact Hrest

end Region1

end Cert.KernelIdeal.Hand

end
-- ==== Proof.KI.Region1.lean ====
/-
  The position-attention region (second region), assembled: its definitions, the three cases of its body, and its
  proof data with the invariant that carries the running maximum, normaliser and weighted sum between grid points.
-/
import proofs.«117280_j38989713113557_2_alg».proof.Proof.KI.Region1Main
-- ==== Proof.KI.Region2.lean ====
/-
  The Gram-matrix reduction kernel (third region) of the program, at any float instance: the grid point (b, ni) takes
  the 1024 x 512 block of rows ni*1024 .. ni*1024+1023 of batch b of the flattened input and adds its Gram product
  (block transposed times block, 512 x 512) into the output block of batch b, which the four points of the batch share:
  the first point of a batch resets the block to zero before adding, the three later points add to what the point before
  left, and the block is written back to its array only after the batch's last point. Stated here: the body's triple in
  each of the two cases, what the output block holds after each point (by recursion on the point within its batch), the
  pipeline's proof data for this region over the buffer contents `V` the region is entered from, and the body obligation.
-/
import proofs.«117280_j38989713113557_2_alg».proof.Proof.Gen.KernelIdeal.Launch
import proofs.«117280_j38989713113557_2_alg».proof.Proof.Gen.KernelIdeal.Skeleton
import proofs.«117280_j38989713113557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

/-! ## The body's branch condition -/

/-- The condition of the body's one conditional, from the grid coordinates: the position within the batch is zero. -/
abbrev cond2_0 (i : grid2.Coords) : Prop := (Scalar.cmpi .ne (Scalar.extui (Scalar.cmpi .eq (BitVec.ofNat 32 (i 1).val) 0#32)) 0#32) = 1#1
/-- It holds at the first point of each batch only — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- One staging buffer of the output window, through which its contents are stated (the choice does not matter). -/
abbrev VO2_1 : View sig .tc .vmem S1x512x512 .f32 := (Memref.whole cc2_stg1_0 : Memref sig .tc .vmem S1x512x512 .f32).view
/-- Each window's current staging memref at point `t`, spelled as the pipeline passes it, and its wholeness. -/
abbrev ms2_0 (t : Fin cfg2.N) : Memref sig .tc .vmem S1x1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x512 .f32 := win2_1.stage (cfg2.slots t 1)
abbrev hs2_1 (t : Fin cfg2.N) : (ms2_1 t).IsWhole := hstage2_1 ((cfg2.slots t 1).cast nbuf2_1)

/-! ## The body's triple, per case of the condition -/

set_option maxHeartbeats 4000000 in
/-- Case A (first point of a batch): the output buffer, at anything, is reset to zero and the Gram product of the rows
    block is added to it. The pieces the buffer ends with are the witness the run finds. -/
noncomputable def kernelRun2_A (c : Dev nD) (i : grid2.Coords) (arg2 : Memref sig .tc .vmem S1x1024x512 .bf16) (harg2 : arg2.IsWhole)
    (arg3 : Memref sig .tc .vmem S1x512x512 .f32) (harg3 : arg3.IsWhole) (hc0 : cond2_0 i)
    (x0 : Vec F S1x1024x512 .bf16) :
    { L1 : List (View.Piece (Elt F) S1x512x512 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__cam_reduce_kernel i arg2 harg2 arg3 harg3) K } := by
  refine ⟨?_, fun E K => ?run⟩
  case run =>
    simp only [cc2__cam_reduce_kernel_eq_skeleton]; unfold cc2__cam_reduce_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 4000000 in
/-- Case B (a later point of a batch): the output buffer, at the running sum `xo1`, has the Gram product of the rows
    block added to it. -/
noncomputable def kernelRun2_B (c : Dev nD) (i : grid2.Coords) (arg2 : Memref sig .tc .vmem S1x1024x512 .bf16) (harg2 : arg2.IsWhole)
    (arg3 : Memref sig .tc .vmem S1x512x512 .f32) (harg3 : arg3.IsWhole) (hc0 : ¬cond2_0 i)
    (x0 : Vec F S1x1024x512 .bf16) (xo1 : Vec F S1x512x512 .f32) :
    { L1 : List (View.Piece (Elt F) S1x512x512 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__cam_reduce_kernel i arg2 harg2 arg3 harg3) K } := by
  refine ⟨?_, fun E K => ?run⟩
  case run =>
    simp only [cc2__cam_reduce_kernel_eq_skeleton]; unfold cc2__cam_reduce_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output buffer -/

/-- Case A's pieces (the reset, then the sum) tile the output block, so they cover it. -/
theorem cover2_A_1 (c : Dev nD) (i : grid2.Coords) (arg2 : Memref sig .tc .vmem S1x1024x512 .bf16) (harg2 : arg2.IsWhole)
    (arg3 : Memref sig .tc .vmem S1x512x512 .f32) (harg3 : arg3.IsWhole) (hc0 : cond2_0 i)
    (x0 : Vec F S1x1024x512 .bf16) (y : S1x512x512.Idx) :
    ∃ pc ∈ (kernelRun2_A c i arg2 harg2 arg3 harg3 hc0 x0).1, y ∈ pc.1.set :=
  View.cover_of_tiledL (kernelRun2_A c i arg2 harg2 arg3 harg3 hc0 x0).1 S1x512x512.size (by sl_kernel_rfl) y

/-- What case A leaves in the output's staging buffer: its pieces read back. -/
def out2_A_1 (c : Dev nD) (i : grid2.Coords) (arg2 : Memref sig .tc .vmem S1x1024x512 .bf16) (harg2 : arg2.IsWhole)
    (arg3 : Memref sig .tc .vmem S1x512x512 .f32) (harg3 : arg3.IsWhole) (hc0 : cond2_0 i)
    (x0 : Vec F S1x1024x512 .bf16) : Vec F S1x512x512 .f32 :=
  VO2_1.read (Elt F) (VO2_1.writes (Elt F) VO2_1.junk (kernelRun2_A c i arg2 harg2 arg3 harg3 hc0 x0).1)

/-- Case B's one piece (the sum) tiles the output block, so it covers it. -/
theorem cover2_B_1 (c : Dev nD) (i : grid2.Coords) (arg2 : Memref sig .tc .vmem S1x1024x512 .bf16) (harg2 : arg2.IsWhole)
    (arg3 : Memref sig .tc .vmem S1x512x512 .f32) (harg3 : arg3.IsWhole) (hc0 : ¬cond2_0 i)
    (x0 : Vec F S1x1024x512 .bf16) (xo1 : Vec F S1x512x512 .f32) (y : S1x512x512.Idx) :
    ∃ pc ∈ (kernelRun2_B c i arg2 harg2 arg3 harg3 hc0 x0 xo1).1, y ∈ pc.1.set :=
  View.cover_of_tiledL (kernelRun2_B c i arg2 harg2 arg3 harg3 hc0 x0 xo1).1 S1x512x512.size (by sl_kernel_rfl) y

/-- What case B leaves in the output's staging buffer: its piece read back. -/
def out2_B_1 (c : Dev nD) (i : grid2.Coords) (arg2 : Memref sig .tc .vmem S1x1024x512 .bf16) (harg2 : arg2.IsWhole)
    (arg3 : Memref sig .tc .vmem S1x512x512 .f32) (harg3 : arg3.IsWhole) (hc0 : ¬cond2_0 i)
    (x0 : Vec F S1x1024x512 .bf16) (xo1 : Vec F S1x512x512 .f32) : Vec F S1x512x512 .f32 :=
  VO2_1.read (Elt F) (VO2_1.writes (Elt F) VO2_1.junk (kernelRun2_B c i arg2 harg2 arg3 harg3 hc0 x0 xo1).1)

/-! ## What the output buffer holds after each point -/

/-- The accumulation. What the output's staging buffer holds after the body at position `n`: at the first point of a
    batch the reset case on that point's rows block; at a later point the adding case on that point's rows block over
    what the point before left (the buffer is not written back between). -/
def outsAt2 (c : Dev nD) : (n : ℕ) → n < cfg2.N → Vec F S1x512x512 .f32
  | 0, hn => out2_A_1 c (grid2.coords ⟨0, hn⟩) (ms2_0 ⟨0, hn⟩) (hs2_0 ⟨0, hn⟩) (ms2_1 ⟨0, hn⟩) (hs2_1 ⟨0, hn⟩) ((hcond2_0 ⟨0, hn⟩).mpr (Nat.zero_mod _)) (iblk2 V c 0 ⟨0, hn⟩)
  | n + 1, hn =>
    if h0 : (n + 1) % 4 = 0 then
      out2_A_1 c (grid2.coords ⟨n + 1, hn⟩) (ms2_0 ⟨n + 1, hn⟩) (hs2_0 ⟨n + 1, hn⟩) (ms2_1 ⟨n + 1, hn⟩) (hs2_1 ⟨n + 1, hn⟩) ((hcond2_0 ⟨n + 1, hn⟩).mpr h0) (iblk2 V c 0 ⟨n + 1, hn⟩)
    else
      out2_B_1 c (grid2.coords ⟨n + 1, hn⟩) (ms2_0 ⟨n + 1, hn⟩) (hs2_0 ⟨n + 1, hn⟩) (ms2_1 ⟨n + 1, hn⟩) (hs2_1 ⟨n + 1, hn⟩) (fun h => h0 ((hcond2_0 ⟨n + 1, hn⟩).mp h)) (iblk2 V c 0 ⟨n + 1, hn⟩) (outsAt2 c n (Nat.lt_of_succ_lt hn))

/-- `outsAt2` at a first point of a batch: the reset case's contents. -/
theorem outsAt2_A (c : Dev nD) (t : Fin cfg2.N) (h0 : t.val % 4 = 0) :
    outsAt2 V c t.val t.isLt = out2_A_1 c (grid2.coords t) (ms2_0 t) (hs2_0 t) (ms2_1 t) (hs2_1 t) ((hcond2_0 t).mpr h0) (iblk2 V c 0 t) := by
  obtain ⟨n, hn⟩ := t
  cases n with
  | zero => exact rfl
  | succ n => exact (dif_pos h0).trans rfl

/-- `outsAt2` at a later point of a batch: the adding case's contents, over what the point before left. -/
theorem outsAt2_B (c : Dev nD) (t : Fin cfg2.N) (h0 : ¬t.val % 4 = 0) :
    outsAt2 V c t.val t.isLt = out2_B_1 c (grid2.coords t) (ms2_0 t) (hs2_0 t) (ms2_1 t) (hs2_1 t) (fun h => h0 ((hcond2_0 t).mp h)) (iblk2 V c 0 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region on core `c`: the arrays as the region finds them; after the body at point `t` the
    input's buffer at its block and the output's at the accumulation; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi2_first (c : Dev nD) : (dat2 V c).Φ 0 = Pipeline.ΦA spec2 c := rfl
theorem Phi2_last (c : Dev nD) : (dat2 V c).Φ (Fin.last cfg2.N) ⊢ (Pipeline.ΦA spec2 c : sProp 𝕄) := .rfl

theorem after2_0 (c : Dev nD) (t : Fin cfg2.N) : (dat2 V c).after 0 t = iblk2 V c 0 t := by dsimp only [dat2]
theorem after2_1 (c : Dev nD) (t : Fin cfg2.N) : (dat2 V c).after 1 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d

/-- At a later point of a batch the output's current staging buffer holds what the body left at the point before: the
    point is not the first, the buffer was not written back between, the window is live and uncut. -/
theorem before2_1_B (c : Dev nD) (t : Fin cfg2.N) (h0 : ¬t.val % 4 = 0) (d) :
    (dat2 V c).before 1 t d = outsAt2 V c (t.val - 1) (Nat.lt_of_le_of_lt (Nat.sub_le _ _) t.isLt) := by
  have hN : t.val < 16 := lt_of_lt_of_eq t.isLt (show cfg2.N = 16 from N_2)
  rw [Dat.before_out_kept _ 1 rfl t (by omega) (Bool.eq_false_iff.mpr fun h => by have := (flush2_1 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 1600000 in
/-- The body at any point: the input's buffer holds its block; the closed form says which case the point is in; in the
    adding case the output's buffer holds what the point before left; so that case's run applies; the invariant passes
    through unread; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 16 := lt_of_lt_of_eq t.isLt (show cfg2.N = 16 from N_2)
  by_cases h0 : t.val % 4 = 0
  · rw [outsAt2_A V c t h0]
    unfold out2_A_1
    iintro ⟨HΦ, Ho, ⟨%d0, H0⟩, ⟨%d1, H1⟩⟩
    iapply ((kernelRun2_A c (grid2.coords t) _ _ _ _ ((hcond2_0 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A_1 c _ _ _ _ _ _ _)
  · rw [outsAt2_B V c t h0]
    simp only [before2_1_B V c t h0]
    unfold out2_B_1
    iintro ⟨HΦ, Ho, ⟨%d0, H0⟩, ⟨%d1, H1⟩⟩
    iapply ((kernelRun2_B c (grid2.coords t) _ _ _ _ (fun h => h0 ((hcond2_0 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B_1 c _ _ _ _ _ _ _ _)

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Region3.lean ====
/-
  The channel-attention apply kernel (fourth region), at any float instance: one grid point (b, ni) takes the
  1024 x 512 block of rows of batch b of the flattened input and batch b's 512 x 512 Gram matrix, takes the
  softmax of the Gram matrix along its rows and leaves in its output block the product of the rows block with it.
  Stated here: what the output block holds after the body, the body's triple, and the pipeline's proof data over
  the buffer contents `V` the region is entered from.
-/
import proofs.«117280_j38989713113557_2_alg».proof.Proof.Gen.KernelIdeal.Launch
import proofs.«117280_j38989713113557_2_alg».proof.Proof.Gen.KernelIdeal.Skeleton
import proofs.«117280_j38989713113557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (the Gram matrix is
    fetched once per batch and its block index does not move within the batch). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rX3 : Rect S1x1024x512 := Rect.unit (s := S1x1024x512) ![0, 0, 0] S1x1024x512.size inb_S1x1024x512_S1x1024x512_0_0_0
abbrev rA3 : Rect S1x512x512 := Rect.unit (s := S1x512x512) ![0, 0, 0] S1x512x512.size inb_S1x512x512_S1x512x512_0_0_0

/-- The output block: the rows block times the row-softmax of the Gram matrix. -/
def out3_2 (x0 : Vec F S1x1024x512 .bf16) (x1 : Vec F S1x512x512 .f32) : Vec F S1x1024x512 .f32 :=
  View.canon [⟨rX3, k3_pay1 (View.ld x1 rA3) (View.ld x0 rX3)⟩]

theorem cover3_2 (p0 : Vec F S1x1024x512 .f32) (y : S1x1024x512.Idx) :
    ∃ pc ∈ ([⟨rX3, p0⟩] : List (View.Piece (Elt F) S1x1024x512 .f32)), y ∈ pc.1.set :=
  View.cover_of_tiled [⟨rX3, p0⟩] S1x1024x512.size (by rfl) y

set_option maxHeartbeats 4000000 in
/-- The body on whole staging buffers, the two inputs' at read contents and the output's at anything, runs to the
    continuation with the inputs as they were and the output at its product. -/
theorem sound_kernel3 (c : Dev nD) (E : Set ℕ) (i : grid3.Coords)
    (arg2 : Memref sig .tc .vmem S1x1024x512 .bf16) (harg2 : arg2.IsWhole) (arg3 : Memref sig .tc .vmem S1x512x512 .f32) (harg3 : arg3.IsWhole)
    (arg4 : Memref sig .tc .vmem S1x1024x512 .f32) (harg4 : arg4.IsWhole)
    (x0 : Vec F S1x1024x512 .bf16) (x1 : Vec F S1x512x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__cam_apply_kernel i arg2 harg2 arg3 harg3 arg4 harg4) K := by
  simp only [cc3__cam_apply_kernel_eq_skeleton]; unfold cc3__cam_apply_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region on core `c`: the arrays as the region finds them; after the body at point `t` each
    input's buffer at its block and the output's at its product; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Run.lean ====
/-
  The run of the whole program, at any float instance: the module's entry function is seven segments in a row — a
  stretch of host operations (a reshape and four conversions), the projection region, the position-attention region
  (entered straight from the first region's exit), a second host stretch, the channel-attention reduction region, the
  channel-attention application region, and a last host stretch. The buffer contents at every boundary are folded
  from the launch memory: a host stretch leaves what its operations compute, a region leaves its windows' arrays at
  what its pipeline writes back and every other buffer as entered. Over the thread state "every unscoped buffer at the
  boundary's contents, the generator register at some state, nothing owed", each region is a segment record built from
  its proof data, and the launch theorem for a list of segments gives one statement of the run: every execution
  terminates and every unscoped buffer ends at the last boundary's contents. The frame claim (each argument ends as
  launched) is read off that statement, since no host operation and no region writes an argument.
-/
import proofs.«117280_j38989713113557_2_alg».proof.Proof.KI.Region0
import proofs.«117280_j38989713113557_2_alg».proof.Proof.KI.Region1
import proofs.«117280_j38989713113557_2_alg».proof.Proof.KI.Region2
import proofs.«117280_j38989713113557_2_alg».proof.Proof.KI.Region3
import proofs.«117280_j38989713113557_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary: a fold through the entry function -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
/-- The same read at the TensorCore's references (what the projection region's proof data take). -/
abbrev V1 : (c : Dev nD) → (b : Ref sig .tc) → Buf (Elt F) ((c : Thread nD τ).loc b) := fun c b => W1 m c b

/-- At the projection region's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m c b
/-- At the projection region's exit each of its arrays holds what the pipeline leaves and every other buffer what it
    held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the position-attention region's exit: its arrays at what the pipeline leaves (the inputs as entered, each output's
    write-backs folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (the position-attention region's exit contents). -/
abbrev V3 : (c : Dev nD) → (b : Ref sig .tc) → Buf (Elt F) ((c : Thread nD τ).loc b) := fun c b => W3 m c b
/-- At the position-attention region's exit each of its arrays holds what the pipeline leaves and every other buffer what it
    held at entry. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch. -/
abbrev W4 : Dev nD → Valuation τ sig (Elt F) := fun c => StableHlo.after hostOps2 (W3 m c)
/-- The same read at the TensorCore's references. -/
abbrev V4 : (c : Dev nD) → (b : Ref sig .tc) → Buf (Elt F) ((c : Thread nD τ).loc b) := fun c b => W4 m c b

/-- At the channel-reduction region's exit: its arrays at what the pipeline leaves (the inputs as entered, each output's
    write-backs folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references (the channel-reduction region's exit contents). -/
abbrev V5 : (c : Dev nD) → (b : Ref sig .tc) → Buf (Elt F) ((c : Thread nD τ).loc b) := fun c b => W5 m c b
/-- At the channel-reduction region's exit each of its arrays holds what the pipeline leaves and every other buffer what it
    held at entry. -/
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- At the channel-application region's exit: its arrays at what the pipeline leaves (the inputs as entered, each output's
    write-backs folded), every other buffer as entered. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same read at the TensorCore's references (the channel-application region's exit contents). -/
abbrev V6 : (c : Dev nD) → (b : Ref sig .tc) → Buf (Elt F) ((c : Thread nD τ).loc b) := fun c b => W6 m c b
/-- At the channel-application region's exit each of its arrays holds what the pipeline leaves and every other buffer what it
    held at entry. -/
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-- After the last host stretch. -/
abbrev W7 : Dev nD → Valuation τ sig (Elt F) := fun c => StableHlo.after hostOps4 (W6 m c)

/-! ### The arguments end as launched: no host operation writes one and no region has one among its arrays, so the
    fold at an argument's buffer walks back to the launch memory -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps4 _ hostOps4_writes (by decide)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps4 _ hostOps4_writes (by decide)
    _ = W5 m c (Proc.devRef .tc main_arg1) := W6_of_ne m c main_arg1 (by decide)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps4 _ hostOps4_writes (by decide)
    _ = W5 m c (Proc.devRef .tc main_arg2) := W6_of_ne m c main_arg2 (by decide)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps4 _ hostOps4_writes (by decide)
    _ = W5 m c (Proc.devRef .tc main_arg3) := W6_of_ne m c main_arg3 (by decide)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps4 _ hostOps4_writes (by decide)
    _ = W5 m c (Proc.devRef .tc main_arg4) := W6_of_ne m c main_arg4 (by decide)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps4 _ hostOps4_writes (by decide)
    _ = W5 m c (Proc.devRef .tc main_arg5) := W6_of_ne m c main_arg5 (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at what the stretch's operations compute from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The projection region over the thread state: entered from every unscoped buffer at `W1`, left at `W2`. Its
    arrays are split out of the unscoped buffers at entry and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The position-attention region over the thread state: entered from every unscoped buffer at `W2`, left at `W3`. Its
    arrays are split out of the unscoped buffers at entry and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V2 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The channel-reduction region over the thread state: entered from every unscoped buffer at `W4`, left at `W5`. Its
    arrays are split out of the unscoped buffers at entry and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun w => A_eq2 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The channel-application region over the thread state: entered from every unscoped buffer at `W5`, left at `W6`. Its
    arrays are split out of the unscoped buffers at entry and put back at the exit contents; the generator register
    goes into the region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun w => A_eq3 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's seven segments in order: a host segment per stretch from its boundary's contents, a region
    per kernel call. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)) ]
/-- The entry function is the run of the segments. -/
theorem main_run (c : Dev nD) : main (F := F) c = Pipeline.Seg.run (segs m) :=
  main_segs adm (pdats m) () 𝒱₀ L lv _ _ _ (reg0 m) (reg1 m) (reg2 m) (reg3 m) rfl rfl rfl c

set_option backward.isDefEq.respectTransparency.types false in
/-- The run, with any consequence of its final buffer contents as the post: at the compiled mesh, from any memory with
    zero counters, every weakly fair execution of the entry function on the TensorCores terminates, nothing faulting,
    and every final state satisfies whatever follows from every unscoped buffer holding the last boundary's
    contents. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W7 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := hQ)

/-- THE RUN: every execution terminates and every unscoped buffer ends at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m c b) :=
  run_of m ρ fun _ h => h

/-- THE FRAME: every execution terminates and each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩

end Cert.KernelIdeal.Hand

end
-- ==== Proof.Spec.lean ====
/-
  The dual attention block as one explicit function of its six argument arrays.

  Arguments: the feature map `x : [4, 64, 64, 512]` (batch, row, column, channel), three channel maps
  `w1, w2 : [512, 64]` and `w3 : [512, 512]`, and two scalars `gp, gc : [1]`. A pixel is `n = h * 64 + w`, `n < 4096`.

  Position part. With `q = x·w1`, `k = x·w2`, `v = x·w3` over the pixel view of `x`, the score of pixels `i, j` is
  `Σ_k q(i,k) · k(j,k)`, each row of scores is turned into weights by the softmax
  `exp (s_j − m) / (0 + Σ_j exp (s_j − m))`, `m` the row maximum, and `pam (c, i) = Σ_n v(n,c) · weight(i,n)` is a
  `[512, 4096]` array per batch. That array is then read back as `[64, 64, 512]` by its row-major position alone: the
  element at `(h, w, c)` is the one at flat position `(h * 64 + w) * 512 + c`, that is at channel `flat / 4096` and
  pixel `flat % 4096`.

  Channel part. `aa (i, j) = Σ_n x(n,i) · x(n,j)` over pixels, each row softmaxed the same way, and
  `cam (n, j) = Σ_c x(n,c) · weight(c,j)`.

  Result: `(gp · pam + x) + (gc · cam + x)`.
-/
import Idealize.ShloMosaic.PureOps.Ideal
import Idealize.ShloMosaic.Lib.ValueIdx

noncomputable section

open scoped BigOperators

namespace Cert.DualAttn.Spec

open Idealize.ShloMosaic Idealize.ShloMosaic.ValueIdx

/-- A feature map `[4, 64, 64, 512]`. -/
abbrev Feat : Type := (⟨4, ![4, 64, 64, 512]⟩ : Shape).Idx → EReal
/-- A channel map `[512, K]`. -/
abbrev Wt (K : ℕ) : Type := (⟨2, ![512, K]⟩ : Shape).Idx → EReal
/-- A one-element array `[1]`. -/
abbrev Gam : Type := (⟨1, ![1]⟩ : Shape).Idx → EReal

/-- The pixel view `[4, 4096, 512]` of the feature map: pixel `n` is row `n / 64`, column `n % 64`. -/
def xf (x : Feat) (b : Fin 4) (n : Fin 4096) (c : Fin 512) : EReal :=
  x (ix4 b ⟨n.val / 64, by have := n.isLt; omega⟩ ⟨n.val % 64, by omega⟩ c)

/-- A channel map applied at a pixel: `Σ_c x(n,c) · w(c,k)`. -/
def proj {K : ℕ} (x : Feat) (w : Wt K) (b : Fin 4) (n : Fin 4096) (k : Fin K) : EReal :=
  ∑ c : Fin 512, xf x b n c * w (ix2 c k)

/-- The score of pixels `i`, `j`: `Σ_k q(i,k) · k(j,k)`. -/
def score (x : Feat) (w1 w2 : Wt 64) (b : Fin 4) (i j : Fin 4096) : EReal :=
  ∑ k : Fin 64, proj x w1 b i k * proj x w2 b j k

/-- The maximum of a row (with `⊥`, the maximum of nothing). -/
def rowmax {n : ℕ} (f : Fin n → EReal) : EReal := max ⊥ (Finset.univ.fold max ⊥ f)

/-- The unnormalised softmax weight `exp (f j − max f)`. -/
def wexp {n : ℕ} (f : Fin n → EReal) (j : Fin n) : EReal := Ideal.exp (f j - rowmax f)

/-- The softmax denominator, summed from zero. -/
def wsum {n : ℕ} (f : Fin n → EReal) : EReal := 0 + ∑ j, wexp f j

/-- The softmax of a row. -/
def soft {n : ℕ} (f : Fin n → EReal) (j : Fin n) : EReal := Ideal.div (wexp f j) (wsum f)

/-- The position part before its re-reading, `[4, 512, 4096]`: `Σ_n v(n,c) · weight(i,n)`. -/
def pam (x : Feat) (w1 w2 : Wt 64) (w3 : Wt 512) (b : Fin 4) (c : Fin 512) (i : Fin 4096) : EReal :=
  ∑ n : Fin 4096, proj x w3 b n c * soft (score x w1 w2 b i) n

/-- The channel Gram matrix `Σ_n x(n,i) · x(n,j)`. -/
def aa (x : Feat) (b : Fin 4) (i j : Fin 512) : EReal :=
  ∑ n : Fin 4096, xf x b n i * xf x b n j

/-- The channel part `[4, 4096, 512]`: `Σ_c x(n,c) · weight(c,j)`. -/
def cam (x : Feat) (b : Fin 4) (n : Fin 4096) (j : Fin 512) : EReal :=
  ∑ c : Fin 512, xf x b n c * soft (aa x b c) j

/-- The channel of the position part that lands on `(h, w, c)`: flat position over 4096. -/
def pamChan (h w : Fin 64) (c : Fin 512) : Fin 512 :=
  ⟨((h.val * 64 + w.val) * 512 + c.val) / 4096, by have := h.isLt; have := w.isLt; have := c.isLt; omega⟩

/-- The pixel of the position part that lands on `(h, w, c)`: flat position modulo 4096. -/
def pamPix (h w : Fin 64) (c : Fin 512) : Fin 4096 :=
  ⟨((h.val * 64 + w.val) * 512 + c.val) % 4096, by omega⟩

/-- The pixel `h * 64 + w`. -/
def pix (h w : Fin 64) : Fin 4096 := ⟨h.val * 64 + w.val, by have := h.isLt; have := w.isLt; omega⟩

/-- The result at `(b, h, w, c)`. -/
def out (x : Feat) (w1 w2 : Wt 64) (w3 : Wt 512) (gp gc : Gam) (b : Fin 4) (h w : Fin 64) (c : Fin 512) : EReal :=
  (gp (ix1 0) * pam x w1 w2 w3 b (pamChan h w c) (pamPix h w c) + x (ix4 b h w c))
    + (gc (ix1 0) * cam x b (pix h w) c + x (ix4 b h w c))

/-- The pixel view at the pixel `h * 64 + w` is the feature map at `(h, w)`. -/
theorem xf_pix (x : Feat) (b : Fin 4) (h w : Fin 64) (c : Fin 512) : xf x b (pix h w) c = x (ix4 b h w c) := by
  unfold xf pix
  congr 1
  funext a
  match a with
  | ⟨0, _⟩ => rfl
  | ⟨1, _⟩ => exact Fin.ext (by show (h.val * 64 + w.val) / 64 = h.val; have := w.isLt; omega)
  | ⟨2, _⟩ => exact Fin.ext (by show (h.val * 64 + w.val) % 64 = w.val; have := w.isLt; omega)
  | ⟨3, _⟩ => rfl

end Cert.DualAttn.Spec

end
-- ==== Proof.KI.HostValues.lean ====
import proofs.«117280_j38989713113557_2_alg».proof.Proof.KI.Run
import proofs.«117280_j38989713113557_2_alg».proof.Proof.Spec
import Idealize.ShloMosaic.Lib.ValueIdx
import Idealize.ShloMosaic.Lib.Pipeline.Value

/-!
  The host operations of the entry function, read at an index over the extended reals. Before the first region the
  feature map is re-read as `[4, 4096, 512]` (pixel `n` is row `n / 64`, column `n % 64`) and the four operands change
  format, which changes nothing here. After the position region its `[4, 512, 4096]` result is re-read as
  `[4, 64, 64, 512]` by row-major position, scaled by the first scalar and added to the feature map; after the channel
  regions their `[4, 4096, 512]` result is re-read likewise, scaled by the second scalar, added to the feature map, and
  the two parts are added. Between the stretches a buffer that is no output array of a region keeps its contents.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.DualAttn

variable (m : (ℓ : Loc nD τ sig) → Buf (Elt Ideal) ℓ)

/-- Product and sum of extended reals, written at the type itself (a buffer's element type only computes to it). -/
local notation:70 a:70 " ⊗ " b:71 => @HMul.hMul EReal EReal EReal instHMul a b
local notation:65 a:65 " ⊕ " b:66 => @HAdd.hAdd EReal EReal EReal instHAdd a b

/-! ## The first stretch -/

/-- The pixel view in the matrix unit's operand format, as a term of the launch contents. -/
theorem W1_v1_eq (c : Dev nD) :
    (W1 m c (Proc.devRef .tc main_v1) : S4x4096x512.Idx → EReal)
      = truncf (F := Ideal) .bf16
          (shapeCast S4x4096x512 (m ((c : Thread nD τ).loc main_arg0) : S4x64x64x512.Idx → Ideal .f32)
            shapeCasts_S4x64x64x512_S4x4096x512 : FVec Ideal S4x4096x512 .f32) bitsLt_bf16_f32 := by
  dsimp only [W1, hostOps0]
  after_results
  rfl

/-- At pixel `n` of batch `b` and channel `cc`: the feature map at row `n / 64`, column `n % 64`. -/
theorem W1_v1 (c : Dev nD) (b : Fin 4) (n : Fin 4096) (cc : Fin 512) :
    (W1 m c (Proc.devRef .tc main_v1) : S4x4096x512.Idx → EReal) (ix3 b n cc)
      = Spec.xf (m ((c : Thread nD τ).loc main_arg0)) b n cc := by
  rw [W1_v1_eq]
  show (shapeCast S4x4096x512 (m ((c : Thread nD τ).loc main_arg0) : S4x64x64x512.Idx → Ideal .f32)
    shapeCasts_S4x64x64x512_S4x4096x512 : FVec Ideal S4x4096x512 .f32) (ix3 b n cc) = _
  unfold Spec.xf
  refine shapeCast_apply _ shapeCasts_S4x64x64x512_S4x4096x512 _ _ ?_
  rw [Shape.rowMajor_val_four, Shape.rowMajor_val_three]
  have hb := b.isLt; have hn := n.isLt; have hc := cc.isLt
  show ((b.val * 64 + n.val / 64) * 64 + n.val % 64) * 512 + cc.val = (b.val * 4096 + n.val) * 512 + cc.val
  omega

/-- A change of format is the identity on extended reals: the three channel maps are the launch contents. -/
theorem W1_v2 (c : Dev nD) :
    (W1 m c (Proc.devRef .tc main_v2) : S512x64.Idx → EReal) = (m ((c : Thread nD τ).loc main_arg1) : S512x64.Idx → EReal) := by
  dsimp only [W1, hostOps0]
  after_results
  rfl

theorem W1_v3 (c : Dev nD) :
    (W1 m c (Proc.devRef .tc main_v3) : S512x64.Idx → EReal) = (m ((c : Thread nD τ).loc main_arg2) : S512x64.Idx → EReal) := by
  dsimp only [W1, hostOps0]
  after_results
  rfl

theorem W1_v4 (c : Dev nD) :
    (W1 m c (Proc.devRef .tc main_v4) : S512x512.Idx → EReal) = (m ((c : Thread nD τ).loc main_arg3) : S512x512.Idx → EReal) := by
  dsimp only [W1, hostOps0]
  after_results
  rfl

/-! ## What the regions leave alone -/

/-- The projection region only reads its four operands. -/
theorem W2_v1 (c : Dev nD) : W2 m c (Proc.devRef .tc main_v1) = W1 m c (Proc.devRef .tc main_v1) :=
  (W2_arr m c 0).trans (((dat0 (V1 m) c).arrAt_in 0 rfl _).trans (A_eq0 (V1 m) c 0))
theorem W2_v2 (c : Dev nD) : W2 m c (Proc.devRef .tc main_v2) = W1 m c (Proc.devRef .tc main_v2) :=
  (W2_arr m c 1).trans (((dat0 (V1 m) c).arrAt_in 1 rfl _).trans (A_eq0 (V1 m) c 1))
theorem W2_v3 (c : Dev nD) : W2 m c (Proc.devRef .tc main_v3) = W1 m c (Proc.devRef .tc main_v3) :=
  (W2_arr m c 2).trans (((dat0 (V1 m) c).arrAt_in 2 rfl _).trans (A_eq0 (V1 m) c 2))
theorem W2_v4 (c : Dev nD) : W2 m c (Proc.devRef .tc main_v4) = W1 m c (Proc.devRef .tc main_v4) :=
  (W2_arr m c 3).trans (((dat0 (V1 m) c).arrAt_in 3 rfl _).trans (A_eq0 (V1 m) c 3))

/-- The position region's arrays are the three projections and its result: it leaves the pixel view alone, and only
    reads the projections. -/
theorem W3_v1 (c : Dev nD) : W3 m c (Proc.devRef .tc main_v1) = W2 m c (Proc.devRef .tc main_v1) :=
  W3_of_ne m c main_v1 (by decide)
theorem W3_v5_0 (c : Dev nD) : W3 m c (Proc.devRef .tc main_v5_0) = W2 m c (Proc.devRef .tc main_v5_0) :=
  (W3_arr m c 0).trans (((dat1 (V2 m) c).arrAt_in 0 rfl _).trans (A_eq1 (V2 m) c 0))
theorem W3_v5_1 (c : Dev nD) : W3 m c (Proc.devRef .tc main_v5_1) = W2 m c (Proc.devRef .tc main_v5_1) :=
  (W3_arr m c 1).trans (((dat1 (V2 m) c).arrAt_in 1 rfl _).trans (A_eq1 (V2 m) c 1))
theorem W3_v5_2 (c : Dev nD) : W3 m c (Proc.devRef .tc main_v5_2) = W2 m c (Proc.devRef .tc main_v5_2) :=
  (W3_arr m c 2).trans (((dat1 (V2 m) c).arrAt_in 2 rfl _).trans (A_eq1 (V2 m) c 2))

/-- The second stretch writes none of the pixel view, -/
theorem W4_v1 (c : Dev nD) : W4 m c (Proc.devRef .tc main_v1) = W3 m c (Proc.devRef .tc main_v1) :=
  StableHlo.after_of_writes_sub hostOps2 _ hostOps2_writes (by decide)
/-- so the channel-reduction region reads the pixel view of the first stretch; -/
theorem V4_v1 (c : Dev nD) : W4 m c (Proc.devRef .tc main_v1) = W1 m c (Proc.devRef .tc main_v1) :=
  (W4_v1 m c).trans ((W3_v1 m c).trans (W2_v1 m c))
/-- it only reads it, -/
theorem W5_v1 (c : Dev nD) : W5 m c (Proc.devRef .tc main_v1) = W4 m c (Proc.devRef .tc main_v1) :=
  (W5_arr m c 0).trans (((dat2 (V4 m) c).arrAt_in 0 rfl _).trans (A_eq2 (V4 m) c 0))
/-- so the channel-application region reads the same; -/
theorem V5_v1 (c : Dev nD) : W5 m c (Proc.devRef .tc main_v1) = W1 m c (Proc.devRef .tc main_v1) :=
  (W5_v1 m c).trans (V4_v1 m c)
/-- it only reads it and the Gram matrix. -/
theorem W6_v1 (c : Dev nD) : W6 m c (Proc.devRef .tc main_v1) = W5 m c (Proc.devRef .tc main_v1) :=
  (W6_arr m c 0).trans (((dat3 (V5 m) c).arrAt_in 0 rfl _).trans (A_eq3 (V5 m) c 0))
theorem W6_v12 (c : Dev nD) : W6 m c (Proc.devRef .tc main_v12) = W5 m c (Proc.devRef .tc main_v12) :=
  (W6_arr m c 1).trans (((dat3 (V5 m) c).arrAt_in 1 rfl _).trans (A_eq3 (V5 m) c 1))

/-- The position part's sum is no array of the channel regions. -/
theorem W5_v11 (c : Dev nD) : W5 m c (Proc.devRef .tc main_v11) = W4 m c (Proc.devRef .tc main_v11) :=
  W5_of_ne m c main_v11 (by decide)
theorem W6_v11 (c : Dev nD) : W6 m c (Proc.devRef .tc main_v11) = W4 m c (Proc.devRef .tc main_v11) :=
  (W6_of_ne m c main_v11 (by decide)).trans (W5_v11 m c)

/-- The arguments as the second and the last stretch read them: the launch contents. -/
theorem W3_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W3_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W6_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := StableHlo.after_of_writes_sub hostOps2 _ hostOps2_writes (by decide)
    _ = m ((c : Thread nD τ).loc main_arg0) := W3_arg0 m c
theorem W6_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The second stretch -/

/-- The position part's sum as a term of the position region's result and the launch contents. -/
theorem W4_v11_eq (c : Dev nD) :
    (W4 m c (Proc.devRef .tc main_v11) : S4x64x64x512.Idx → EReal)
      = addf (F := Ideal) (φ := .f32)
          (mulf (F := Ideal) (φ := .f32)
            (broadcastInDim S4x64x64x512 ![0, 1, 2, 3] bcast_S1x1x1x1_S4x64x64x512_0_1_2_3
              (broadcastInDim S1x1x1x1 ![3] bcast_S1_S1x1x1x1_3 (m ((c : Thread nD τ).loc main_arg4) : S1.Idx → Ideal .f32)))
            (shapeCast S4x64x64x512 (W3 m c (Proc.devRef .tc main_v6) : S4x512x4096.Idx → Ideal .f32)
              shapeCasts_S4x512x4096_S4x64x64x512))
          (m ((c : Thread nD τ).loc main_arg0) : S4x64x64x512.Idx → Ideal .f32) := by
  rw [← W3_arg4 m c, ← W3_arg0 m c]
  dsimp only [W4, hostOps2]
  after_results
  rfl

/-- A one-element array broadcast to `[1, 1, 1, 1]` and then to the feature map's shape reads its one element. -/
theorem bcast_gamma_apply (g : S1.Idx → EReal) (j : S4x64x64x512.Idx) :
    broadcastInDim S4x64x64x512 ![0, 1, 2, 3] bcast_S1x1x1x1_S4x64x64x512_0_1_2_3
      (broadcastInDim S1x1x1x1 ![3] bcast_S1_S1x1x1x1_3 g) j = g (ix1 0) := by
  refine (broadcastInDim_apply _ bcast_S1x1x1x1_S4x64x64x512_0_1_2_3 _ j (ix4 0 0 0 0) (fun a => ?_)).trans ?_
  · match a with
    | ⟨0, _⟩ => show 0 = if (1 : Nat) = 1 then 0 else (j 0).val; rw [if_pos rfl]
    | ⟨1, _⟩ => show 0 = if (1 : Nat) = 1 then 0 else (j 1).val; rw [if_pos rfl]
    | ⟨2, _⟩ => show 0 = if (1 : Nat) = 1 then 0 else (j 2).val; rw [if_pos rfl]
    | ⟨3, _⟩ => show 0 = if (1 : Nat) = 1 then 0 else (j 3).val; rw [if_pos rfl]
  · refine broadcastInDim_apply _ bcast_S1_S1x1x1x1_3 g (ix4 0 0 0 0) (ix1 0) (fun a => ?_)
    match a with
    | ⟨0, _⟩ => show 0 = if (1 : Nat) = 1 then 0 else 0; rw [if_pos rfl]

/-- The position region's `[4, 512, 4096]` result re-read as `[4, 64, 64, 512]`: `(b, h, w, cc)` is flat position
    `((b · 64 + h) · 64 + w) · 512 + cc`, whose channel is `((h · 64 + w) · 512 + cc) / 4096` and pixel the remainder. -/
theorem reshape_pam_apply (y : S4x512x4096.Idx → EReal) (b : Fin 4) (h w : Fin 64) (cc : Fin 512) :
    shapeCast S4x64x64x512 y shapeCasts_S4x512x4096_S4x64x64x512 (ix4 b h w cc)
      = y (ix3 b (Spec.pamChan h w cc) (Spec.pamPix h w cc)) := by
  refine shapeCast_apply y shapeCasts_S4x512x4096_S4x64x64x512 _ _ ?_
  rw [Shape.rowMajor_val_three, Shape.rowMajor_val_four]
  have hb := b.isLt; have hh := h.isLt; have hw := w.isLt; have hc := cc.isLt
  show (b.val * 512 + ((h.val * 64 + w.val) * 512 + cc.val) / 4096) * 4096 + ((h.val * 64 + w.val) * 512 + cc.val) % 4096
    = ((b.val * 64 + h.val) * 64 + w.val) * 512 + cc.val
  omega

/-- The position part's sum at `(b, h, w, cc)`. -/
theorem W4_v11 (c : Dev nD) (b : Fin 4) (h w : Fin 64) (cc : Fin 512) :
    (W4 m c (Proc.devRef .tc main_v11) : S4x64x64x512.Idx → EReal) (ix4 b h w cc)
      = ((m ((c : Thread nD τ).loc main_arg4) : S1.Idx → EReal) (ix1 0)
          ⊗ (W3 m c (Proc.devRef .tc main_v6) : S4x512x4096.Idx → EReal) (ix3 b (Spec.pamChan h w cc) (Spec.pamPix h w cc)))
        ⊕ (m ((c : Thread nD τ).loc main_arg0) : S4x64x64x512.Idx → EReal) (ix4 b h w cc) := by
  rw [W4_v11_eq]
  refine (addf_apply _ _ _).trans ?_
  refine congrArg (· + _) ?_
  refine (mulf_apply _ _ _).trans ?_
  rw [bcast_gamma_apply, reshape_pam_apply]

/-! ## The last stretch -/

/-- The result as a term of the position part's sum, the channel region's result and the launch contents. -/
theorem W7_v19_eq (c : Dev nD) :
    (W7 m c (Proc.devRef .tc main_v19) : S4x64x64x512.Idx → EReal)
      = addf (F := Ideal) (φ := .f32)
          (W4 m c (Proc.devRef .tc main_v11) : S4x64x64x512.Idx → Ideal .f32)
          (addf (F := Ideal) (φ := .f32)
            (mulf (F := Ideal) (φ := .f32)
              (broadcastInDim S4x64x64x512 ![0, 1, 2, 3] bcast_S1x1x1x1_S4x64x64x512_0_1_2_3
                (broadcastInDim S1x1x1x1 ![3] bcast_S1_S1x1x1x1_3 (m ((c : Thread nD τ).loc main_arg5) : S1.Idx → Ideal .f32)))
              (shapeCast S4x64x64x512 (W6 m c (Proc.devRef .tc main_v13) : S4x4096x512.Idx → Ideal .f32)
                shapeCasts_S4x4096x512_S4x64x64x512))
            (m ((c : Thread nD τ).loc main_arg0) : S4x64x64x512.Idx → Ideal .f32)) := by
  rw [← W6_arg5 m c, ← W6_arg0 m c, ← W6_v11 m c]
  dsimp only [W7, hostOps4]
  after_results
  rfl

/-- The channel region's `[4, 4096, 512]` result re-read as `[4, 64, 64, 512]`: pixel `h · 64 + w`. -/
theorem reshape_cam_apply (y : S4x4096x512.Idx → EReal) (b : Fin 4) (h w : Fin 64) (cc : Fin 512) :
    shapeCast S4x64x64x512 y shapeCasts_S4x4096x512_S4x64x64x512 (ix4 b h w cc) = y (ix3 b (Spec.pix h w) cc) := by
  refine shapeCast_apply y shapeCasts_S4x4096x512_S4x64x64x512 _ _ ?_
  rw [Shape.rowMajor_val_three, Shape.rowMajor_val_four]
  show (b.val * 4096 + (h.val * 64 + w.val)) * 512 + cc.val = ((b.val * 64 + h.val) * 64 + w.val) * 512 + cc.val
  have hb := b.isLt; have hh := h.isLt; have hw := w.isLt; have hc := cc.isLt
  omega

/-- The result at `(b, h, w, cc)`. -/
theorem W7_v19 (c : Dev nD) (b : Fin 4) (h w : Fin 64) (cc : Fin 512) :
    (W7 m c (Proc.devRef .tc main_v19) : S4x64x64x512.Idx → EReal) (ix4 b h w cc)
      = (W4 m c (Proc.devRef .tc main_v11) : S4x64x64x512.Idx → EReal) (ix4 b h w cc)
        ⊕ (((m ((c : Thread nD τ).loc main_arg5) : S1.Idx → EReal) (ix1 0)
            ⊗ (W6 m c (Proc.devRef .tc main_v13) : S4x4096x512.Idx → EReal) (ix3 b (Spec.pix h w) cc))
          ⊕ (m ((c : Thread nD τ).loc main_arg0) : S4x64x64x512.Idx → EReal) (ix4 b h w cc)) := by
  rw [W7_v19_eq]
  refine (addf_apply _ _ _).trans ?_
  refine congrArg (@HAdd.hAdd EReal EReal EReal instHAdd _) ?_
  refine (addf_apply _ _ _).trans ?_
  refine congrArg (· + _) ?_
  refine (mulf_apply _ _ _).trans ?_
  rw [bcast_gamma_apply, reshape_cam_apply]

end Cert.KernelIdeal.Hand

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibMatmulTN.lean ====
/-
  A transposed matrix times a matrix, read at an index, over the extended reals.

  With the dimension numbers "contract axis 0 of the left operand against axis 0 of the right operand, no batch
  axis", the product of a [K, M] matrix `A` and a [K, N] matrix `B` is `Aᵀ · B`: its entry at `(a, b)` is
  `Σ_c A[c, a] · B[c, b]`. Stated for the matrix unit accumulating into any accumulator (the accumulator's entry plus
  the sum) and into zeros (the sum alone), for arbitrary extents and operand formats (a change of format is the
  identity here).
-/
import Idealize.ShloMosaic.PureOps.Ideal
import Idealize.ShloMosaic.PureOps.Ideal.Laws
import Idealize.ShloMosaic.Lib.ValueIdx

noncomputable section

open scoped BigOperators

namespace Idealize.ShloMosaic.MatmulTN

open Idealize.ShloMosaic Idealize.ShloMosaic.ValueIdx

variable {M K N : ℕ} {φ₁ φ₂ : FTy}

/-- The dimension numbers of `Aᵀ · B`. -/
abbrev dims (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

/-- The left operand of `Aᵀ · B` is read at `(c, a)` for the contraction position `c`, -/
theorem lhsIdx_eq (w : DotDims.WF ⟨2, ![K, M]⟩ ⟨2, ![K, N]⟩ ⟨2, ![M, N]⟩ [0] [0] [1] [1] [] []) (a : Fin M) (b : Fin N)
    (c : Fin K) :
    (dims w).lhsIdx (ix2 a b) ((contrEquiv1 (dims w) K rfl rfl).symm c) = ix2 c a := by
  funext ax
  apply Fin.ext
  match ax with
  | ⟨0, _⟩ =>
    refine ((dims w).lhsIdx_val_of_single (cl := 0) rfl (ix2 a b) _).trans ?_
    exact contrEquiv1_symm_val (dims w) K rfl rfl c
  | ⟨1, _⟩ => simp [DotDims.lhsIdx]; rfl

/-- and the right operand at `(c, b)`. -/
theorem rhsIdx_eq (w : DotDims.WF ⟨2, ![K, M]⟩ ⟨2, ![K, N]⟩ ⟨2, ![M, N]⟩ [0] [0] [1] [1] [] []) (a : Fin M) (b : Fin N)
    (c : Fin K) :
    (dims w).rhsIdx (ix2 a b) ((contrEquiv1 (dims w) K rfl rfl).symm c) = ix2 c b := by
  funext ax
  apply Fin.ext
  match ax with
  | ⟨0, _⟩ =>
    refine ((dims w).rhsIdx_val_of_single (cr := 0) rfl (ix2 a b) _).trans ?_
    exact contrEquiv1_symm_val (dims w) K rfl rfl c
  | ⟨1, _⟩ => simp [DotDims.rhsIdx]; rfl

/-- `Aᵀ · B` accumulated into `acc`, at `(a, b)`: the accumulator's entry plus `Σ_c A[c, a] · B[c, b]`. -/
theorem matmul_apply (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (acc : FVec Ideal ⟨2, ![M, N]⟩ .f32) (a : Fin M) (b : Fin N) :
    FloatOps.matmul (dims w) prec A B acc (ix2 a b) = acc (ix2 a b) + ∑ c : Fin K, A (ix2 c a) * B (ix2 c b) := by
  rw [Ideal.matmul_apply, ← Equiv.sum_comp (contrEquiv1 (dims w) K rfl rfl).symm]
  refine congrArg (acc (ix2 a b) + ·) (Finset.sum_congr rfl fun c _ => ?_)
  rw [lhsIdx_eq w a b c, rhsIdx_eq w a b c]

/-- `Aᵀ · B` into the zero accumulator, at `(a, b)`: `Σ_c A[c, a] · B[c, b]`. -/
theorem matmul_zero_apply (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (a : Fin M) (b : Fin N) :
    FloatOps.matmul (dims w) prec A B (constant ⟨2, ![M, N]⟩ .f32 0x00000000#32) (ix2 a b)
      = ∑ c : Fin K, A (ix2 c a) * B (ix2 c b) := by
  rw [matmul_apply]
  show Ideal.ofBits .f32 0x00000000#32 + _ = _
  rw [Ideal.ofBits_zero_f32, zero_add]

end Idealize.ShloMosaic.MatmulTN

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibOnlineSoftmax.lean ====
/-
  The online (tiled, running-maximum) softmax agrees with the plain softmax.

  A row of N = K * T scores is read in K tiles of T.  The online computation keeps a
  running maximum m, a running normaliser l = Σ exp (s - m) and a running weighted
  sum a = Σ exp (s - m) * d over the keys read so far; on a new tile it moves the
  maximum to m' = max m (max of the tile), rescales l and a by exp (m - m') and adds
  the tile's terms.  Since exp (m - m') * exp (x - m) = exp (x - m'), after n ≥ 1 tiles
  l and a are the sums over the first n tiles taken at the current maximum, and a / l
  does not depend on which real number is subtracted in the exponent: it is the
  softmax-weighted sum.
-/
import Mathlib
import Idealize.ShloMosaic.PureOps.Ideal

open Idealize.ShloMosaic
open scoped BigOperators

noncomputable section

namespace Cert.DualAttn.Online

/-- One step of the online softmax at one row: the running maximum m, the running normaliser l and
    the running weighted sum a, updated over a tile of T keys with scores s and values d. -/
def step {T : ℕ} (s d : Fin T → EReal) (st : EReal × EReal × EReal) : EReal × EReal × EReal :=
  let m' := max st.1 (Finset.univ.fold max ⊥ s)
  let α := Ideal.exp (st.1 - m')
  (m', α * st.2.1 + ∑ j, Ideal.exp (s j - m'), α * st.2.2 + ∑ j, Ideal.exp (s j - m') * d j)

/-- The state after the first n tiles, from the start state (⊥, 0, 0). -/
def run {K T : ℕ} (s d : Fin K → Fin T → EReal) : ℕ → EReal × EReal × EReal
  | 0 => (⊥, 0, 0)
  | n + 1 => if h : n < K then step (s ⟨n, h⟩) (d ⟨n, h⟩) (run s d n) else run s d n

/-! ### The recursion, spelled out -/

theorem step_fst {T : ℕ} (s d : Fin T → EReal) (st : EReal × EReal × EReal) :
    (step s d st).1 = max st.1 (Finset.univ.fold max ⊥ s) := rfl

theorem step_snd_fst {T : ℕ} (s d : Fin T → EReal) (st : EReal × EReal × EReal) :
    (step s d st).2.1
      = Ideal.exp (st.1 - max st.1 (Finset.univ.fold max ⊥ s)) * st.2.1
        + ∑ j, Ideal.exp (s j - max st.1 (Finset.univ.fold max ⊥ s)) := rfl

theorem run_zero {K T : ℕ} (s d : Fin K → Fin T → EReal) : run s d 0 = (⊥, 0, 0) := rfl

theorem run_succ {K T : ℕ} (s d : Fin K → Fin T → EReal) (n : ℕ) (h : n < K) :
    run s d (n + 1) = step (s ⟨n, h⟩) (d ⟨n, h⟩) (run s d n) := by
  show (if h : n < K then step (s ⟨n, h⟩) (d ⟨n, h⟩) (run s d n) else run s d n) = _
  rw [dif_pos h]

theorem run_succ_of_not_lt {K T : ℕ} (s d : Fin K → Fin T → EReal) (n : ℕ) (h : ¬ n < K) :
    run s d (n + 1) = run s d n := by
  show (if h : n < K then step (s ⟨n, h⟩) (d ⟨n, h⟩) (run s d n) else run s d n) = _
  rw [dif_neg h]

/-- The running maximum and the running normaliser do not depend on the values. -/
theorem run_m_indep {K T : ℕ} (s d d' : Fin K → Fin T → EReal) (n : ℕ) :
    (run s d n).1 = (run s d' n).1 ∧ (run s d n).2.1 = (run s d' n).2.1 := by
  induction n with
  | zero => exact ⟨rfl, rfl⟩
  | succ n ih =>
    by_cases h : n < K
    · rw [run_succ s d n h, run_succ s d' n h, step_fst, step_fst, step_snd_fst, step_snd_fst,
        ih.1, ih.2]
      exact ⟨rfl, rfl⟩
    · rw [run_succ_of_not_lt s d n h, run_succ_of_not_lt s d' n h]
      exact ih

/-! ### Tiles -/

/-- Key j of tile k is key k * T + j of the row. -/
theorem tile_bound {K T N : ℕ} (hN : N = K * T) (k : Fin K) (j : Fin T) : k.val * T + j.val < N := by
  subst hN
  have h1 : k.val + 1 ≤ K := k.isLt
  calc k.val * T + j.val < k.val * T + T := Nat.add_lt_add_left j.isLt _
    _ = (k.val + 1) * T := by ring
    _ ≤ K * T := Nat.mul_le_mul_right T h1

/-- The position in the row of key j of tile k. -/
def tile (K T N : ℕ) (hN : N = K * T) (k : Fin K) (j : Fin T) : Fin N :=
  ⟨k.val * T + j.val, tile_bound hN k j⟩

/-- A sum over the row is the sum over the tiles of the sums over each tile. -/
theorem sum_tile {K T : ℕ} (g : Fin (K * T) → ℝ) :
    ∑ n, g n = ∑ k : Fin K, ∑ j : Fin T, g (tile K T (K * T) rfl k j) := by
  rw [← Equiv.sum_comp finProdFinEquiv g, Fintype.sum_prod_type]
  refine Finset.sum_congr rfl fun k _ => Finset.sum_congr rfl fun j _ => ?_
  congr 1
  apply Fin.ext
  show j.val + T * k.val = k.val * T + j.val
  ring

/-! ### Coercions: finite real sums, and the fold of max over a nonempty family of reals -/

theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

theorem fold_max_coe {ι : Type*} (t : Finset ι) (ht : t.Nonempty) (f : ι → ℝ) :
    ∃ r : ℝ, t.fold max ⊥ (fun i => ((f i : ℝ) : EReal)) = (r : EReal) := by
  refine ⟨(t.fold max ⊥ (fun i => ((f i : ℝ) : EReal))).toReal, (EReal.coe_toReal ?_ ?_).symm⟩
  · exact ((Finset.fold_max_lt _).2 ⟨bot_lt_top, fun i _ => EReal.coe_lt_top _⟩).ne
  · obtain ⟨i, hi⟩ := ht
    exact ((Finset.lt_fold_max _).2 (Or.inr ⟨i, hi, EReal.bot_lt_coe _⟩)).ne'

/-! ### The sums over the first n tiles, taken at a real maximum M -/

/-- Σ over the first n tiles of exp (s - M). -/
def Lsum {K T : ℕ} (s : Fin K → Fin T → ℝ) (M : ℝ) (n : ℕ) : ℝ :=
  ∑ k ∈ Finset.range n, if h : k < K then ∑ j, Real.exp (s ⟨k, h⟩ j - M) else 0

/-- Σ over the first n tiles of exp (s - M) * d. -/
def Asum {K T : ℕ} (s d : Fin K → Fin T → ℝ) (M : ℝ) (n : ℕ) : ℝ :=
  ∑ k ∈ Finset.range n, if h : k < K then ∑ j, Real.exp (s ⟨k, h⟩ j - M) * d ⟨k, h⟩ j else 0

/-- Moving the maximum rescales the normaliser: exp (M - M') * exp (x - M) = exp (x - M'). -/
theorem Lsum_rescale {K T : ℕ} (s : Fin K → Fin T → ℝ) (M M' : ℝ) (n : ℕ) :
    Real.exp (M - M') * Lsum s M n = Lsum s M' n := by
  unfold Lsum
  rw [Finset.mul_sum]
  refine Finset.sum_congr rfl fun k _ => ?_
  split_ifs with h
  · rw [Finset.mul_sum]
    refine Finset.sum_congr rfl fun j _ => ?_
    rw [← Real.exp_add]
    congr 1
    ring
  · exact mul_zero _

theorem Asum_rescale {K T : ℕ} (s d : Fin K → Fin T → ℝ) (M M' : ℝ) (n : ℕ) :
    Real.exp (M - M') * Asum s d M n = Asum s d M' n := by
  unfold Asum
  rw [Finset.mul_sum]
  refine Finset.sum_congr rfl fun k _ => ?_
  split_ifs with h
  · rw [Finset.mul_sum]
    refine Finset.sum_congr rfl fun j _ => ?_
    rw [← mul_assoc, ← Real.exp_add]
    congr 2
    ring
  · exact mul_zero _

theorem Lsum_succ {K T : ℕ} (s : Fin K → Fin T → ℝ) (M : ℝ) (n : ℕ) (h : n < K) :
    Lsum s M (n + 1) = Lsum s M n + ∑ j, Real.exp (s ⟨n, h⟩ j - M) := by
  unfold Lsum
  rw [Finset.sum_range_succ, dif_pos h]

theorem Asum_succ {K T : ℕ} (s d : Fin K → Fin T → ℝ) (M : ℝ) (n : ℕ) (h : n < K) :
    Asum s d M (n + 1) = Asum s d M n + ∑ j, Real.exp (s ⟨n, h⟩ j - M) * d ⟨n, h⟩ j := by
  unfold Asum
  rw [Finset.sum_range_succ, dif_pos h]

theorem Lsum_pos {K T : ℕ} (hT : 0 < T) (s : Fin K → Fin T → ℝ) (M : ℝ) (n : ℕ) (h1 : 1 ≤ n)
    (hn : n ≤ K) : 0 < Lsum s M n := by
  unfold Lsum
  refine Finset.sum_pos (fun k hk => ?_) ⟨0, Finset.mem_range.2 h1⟩
  rw [dif_pos (lt_of_lt_of_le (Finset.mem_range.1 hk) hn)]
  exact Finset.sum_pos (fun j _ => Real.exp_pos _) ⟨⟨0, hT⟩, Finset.mem_univ _⟩

theorem Lsum_full {K T : ℕ} (s : Fin K → Fin T → ℝ) (M : ℝ) :
    Lsum s M K = ∑ k : Fin K, ∑ j, Real.exp (s k j - M) := by
  unfold Lsum
  rw [Finset.sum_range]
  refine Finset.sum_congr rfl fun k _ => ?_
  rw [dif_pos k.isLt]

theorem Asum_full {K T : ℕ} (s d : Fin K → Fin T → ℝ) (M : ℝ) :
    Asum s d M K = ∑ k : Fin K, ∑ j, Real.exp (s k j - M) * d k j := by
  unfold Asum
  rw [Finset.sum_range]
  refine Finset.sum_congr rfl fun k _ => ?_
  rw [dif_pos k.isLt]

/-! ### One step on a real state, and on the start state -/

theorem step_coe {T : ℕ} (hT : 0 < T) (s d : Fin T → ℝ) (M L A : ℝ) :
    ∃ M' : ℝ, step (fun j => ((s j : ℝ) : EReal)) (fun j => ((d j : ℝ) : EReal))
        ((M : EReal), (L : EReal), (A : EReal))
      = ((M' : EReal), ((Real.exp (M - M') * L + ∑ j, Real.exp (s j - M') : ℝ) : EReal),
          ((Real.exp (M - M') * A + ∑ j, Real.exp (s j - M') * d j : ℝ) : EReal)) := by
  obtain ⟨F, hF⟩ := fold_max_coe Finset.univ ⟨⟨0, hT⟩, Finset.mem_univ _⟩ s
  refine ⟨max M F, ?_⟩
  have hm : max (M : EReal) (Finset.univ.fold max ⊥ fun j => ((s j : ℝ) : EReal))
      = ((max M F : ℝ) : EReal) := by
    rw [hF]
    exact (EReal.coe_strictMono.monotone.map_max).symm
  simp only [step]
  rw [hm]
  simp only [← EReal.coe_sub, Ideal.exp_coe, ← EReal.coe_mul, ← coe_sum, ← EReal.coe_add]

theorem step_bot {T : ℕ} (hT : 0 < T) (s d : Fin T → ℝ) :
    ∃ M' : ℝ, step (fun j => ((s j : ℝ) : EReal)) (fun j => ((d j : ℝ) : EReal)) (⊥, 0, 0)
      = ((M' : EReal), ((∑ j, Real.exp (s j - M') : ℝ) : EReal),
          ((∑ j, Real.exp (s j - M') * d j : ℝ) : EReal)) := by
  obtain ⟨F, hF⟩ := fold_max_coe Finset.univ ⟨⟨0, hT⟩, Finset.mem_univ _⟩ s
  refine ⟨F, ?_⟩
  simp only [step]
  rw [hF, max_eq_right bot_le, EReal.bot_sub, Ideal.exp_bot, zero_mul, zero_add, zero_add]
  simp only [← EReal.coe_sub, Ideal.exp_coe, ← EReal.coe_mul, ← coe_sum]

/-! ### The invariant -/

/-- After n ≥ 1 tiles the state is (M, Σ exp (s - M), Σ exp (s - M) * d) over the first n tiles,
    for a real M. -/
theorem run_inv {K T : ℕ} (hT : 0 < T) (s d : Fin K → Fin T → ℝ) (n : ℕ) (h1 : 1 ≤ n) (hn : n ≤ K) :
    ∃ M : ℝ, run (fun k j => ((s k j : ℝ) : EReal)) (fun k j => ((d k j : ℝ) : EReal)) n
      = ((M : EReal), (Lsum s M n : EReal), (Asum s d M n : EReal)) := by
  induction n, h1 using Nat.le_induction with
  | base =>
    have h0 : 0 < K := hn
    obtain ⟨M', hM'⟩ := step_bot hT (s ⟨0, h0⟩) (d ⟨0, h0⟩)
    refine ⟨M', ?_⟩
    have e1 := run_succ (fun k j => ((s k j : ℝ) : EReal)) (fun k j => ((d k j : ℝ) : EReal)) 0 h0
    rw [run_zero] at e1
    refine e1.trans (hM'.trans ?_)
    rw [Lsum_succ s M' 0 h0, Asum_succ s d M' 0 h0]
    simp [Lsum, Asum]
  | succ n h1 ih =>
    have hK : n < K := hn
    obtain ⟨M, hM⟩ := ih (le_of_lt hK)
    obtain ⟨M', hM'⟩ := step_coe hT (s ⟨n, hK⟩) (d ⟨n, hK⟩) M (Lsum s M n) (Asum s d M n)
    refine ⟨M', ?_⟩
    have e1 := run_succ (fun k j => ((s k j : ℝ) : EReal)) (fun k j => ((d k j : ℝ) : EReal)) n hK
    rw [hM] at e1
    refine e1.trans (hM'.trans ?_)
    rw [Lsum_rescale, Asum_rescale, Lsum_succ s M' n hK, Asum_succ s d M' n hK]

/-- On real scores and values, after at least one tile the state is real and the normaliser positive. -/
theorem run_real {K T : ℕ} (hT : 0 < T) (s d : Fin K → Fin T → ℝ) (n : ℕ) (h1 : 1 ≤ n) (hn : n ≤ K) :
    ∃ m l a : ℝ, run (fun k j => ((s k j : ℝ) : EReal)) (fun k j => ((d k j : ℝ) : EReal)) n
        = ((m : EReal), (l : EReal), (a : EReal)) ∧ 0 < l := by
  obtain ⟨M, hM⟩ := run_inv hT s d n h1 hn
  exact ⟨M, Lsum s M n, Asum s d M n, hM, Lsum_pos hT s M n h1 hn⟩

/-! ### The main theorem -/

/-- The online result is the softmax-weighted sum (statement without local definitions). -/
theorem online_eq' (K T N : ℕ) (hK : 0 < K) (hT : 0 < T) (hN : N = K * T) (s d : Fin N → ℝ) :
    Ideal.div
        (run (fun k j => ((s (tile K T N hN k j) : ℝ) : EReal))
          (fun k j => ((d (tile K T N hN k j) : ℝ) : EReal)) K).2.2
        (run (fun k j => ((s (tile K T N hN k j) : ℝ) : EReal))
          (fun k j => ((d (tile K T N hN k j) : ℝ) : EReal)) K).2.1
      = ∑ n : Fin N, ((d n : ℝ) : EReal) *
          Ideal.div
            (Ideal.exp (((s n : ℝ) : EReal)
              - max ⊥ (Finset.univ.fold max ⊥ (fun n : Fin N => ((s n : ℝ) : EReal)))))
            (0 + ∑ n' : Fin N, Ideal.exp (((s n' : ℝ) : EReal)
              - max ⊥ (Finset.univ.fold max ⊥ (fun n : Fin N => ((s n : ℝ) : EReal))))) := by
  subst hN
  -- the reference's maximum is a real number R
  obtain ⟨R, hR⟩ := fold_max_coe Finset.univ ⟨⟨0, Nat.mul_pos hK hT⟩, Finset.mem_univ _⟩ s
  rw [hR, max_eq_right bot_le]
  -- the online state after all K tiles, at its own real maximum M
  obtain ⟨M, hM⟩ := run_inv hT (fun k j => s (tile K T (K * T) rfl k j))
    (fun k j => d (tile K T (K * T) rfl k j)) K hK le_rfl
  rw [hM]
  show Ideal.div ((Asum _ _ M K : ℝ) : EReal) ((Lsum _ M K : ℝ) : EReal) = _
  have hL : 0 < Lsum (fun k j => s (tile K T (K * T) rfl k j)) M K := Lsum_pos hT _ M K hK le_rfl
  have hS : 0 < ∑ n : Fin (K * T), Real.exp (s n - R) :=
    Finset.sum_pos (fun n _ => Real.exp_pos _) ⟨⟨0, Nat.mul_pos hK hT⟩, Finset.mem_univ _⟩
  -- both sides are coercions of reals
  rw [Ideal.div_coe hL.ne', ← EReal.coe_mul]
  simp only [← EReal.coe_sub, Ideal.exp_coe, ← coe_sum, zero_add, Ideal.div_coe hS.ne',
    ← EReal.coe_mul]
  congr 1
  -- the real identity: move the online sums to the maximum R, and regroup them over the row
  rw [← Lsum_rescale _ R M K, ← Asum_rescale _ _ R M K, Lsum_full, Asum_full,
    ← sum_tile (fun n => Real.exp (s n - R)), ← sum_tile (fun n => Real.exp (s n - R) * d n)]
  have hE : Real.exp (R - M) ≠ 0 := (Real.exp_pos _).ne'
  have hS' : (∑ n : Fin (K * T), Real.exp (s n - R)) ≠ 0 := hS.ne'
  rw [Finset.mul_sum, Finset.sum_mul]
  refine Finset.sum_congr rfl fun n _ => ?_
  field_simp

/-- MAIN THEOREM. For real scores and values over N = K * T keys cut into K tiles of T, key
    n = k * T + j: the online result a / l after all K tiles is the plain softmax-weighted sum, with
    the maximum, the normaliser and the weights in the shape the reference reads as. -/
theorem online_eq (K T N : ℕ) (hK : 0 < K) (hT : 0 < T) (hN : N = K * T) (s d : Fin N → ℝ) :
    let tile : Fin K → Fin T → Fin N := fun k j => ⟨k.val * T + j.val, tile_bound hN k j⟩
    let r := run (fun k j => ((s (tile k j) : ℝ) : EReal)) (fun k j => ((d (tile k j) : ℝ) : EReal)) K
    let M : EReal := max ⊥ (Finset.univ.fold max ⊥ (fun n : Fin N => ((s n : ℝ) : EReal)))
    Ideal.div r.2.2 r.2.1
      = ∑ n : Fin N, ((d n : ℝ) : EReal) *
          Ideal.div (Ideal.exp (((s n : ℝ) : EReal) - M))
            (0 + ∑ n' : Fin N, Ideal.exp (((s n' : ℝ) : EReal) - M)) := by
  intro tile r M
  exact online_eq' K T N hK hT hN s d

end Cert.DualAttn.Online

end
-- ==== Proof.KernelPayloads0.lean ====
import proofs.«117280_j38989713113557_2_alg».proof.Proof.Gen.KernelIdeal.Skeleton
import proofs.«117280_j38989713113557_2_alg».proof.Proof.LibMatmulPlain
import proofs.«117280_j38989713113557_2_alg».proof.Proof.LibMatmulTN
import proofs.«117280_j38989713113557_2_alg».proof.Proof.LibRowReduce
import proofs.«117280_j38989713113557_2_alg».proof.Proof.LibKeepdims
import proofs.«117280_j38989713113557_2_alg».proof.Proof.LibOnlineSoftmax
import proofs.«117280_j38989713113557_2_alg».proof.Proof.Spec
import Idealize.ShloMosaic.Lib.ValueLayout
import Idealize.ShloMosaic.Lib.Pipeline.Value

/-!
  The kernel's stored values read at an index, over the extended reals: the three projections of a block of pixels,
  the Gram matrix accumulated block by block, and the channel part of a block (a block of pixels times the
  row-softmaxed Gram matrix). Each store's value is the pure arithmetic of its body; here it is read at one entry,
  given by its coordinates, as a sum over the contracted axis.
-/

noncomputable section

open scoped BigOperators

namespace Cert.DualAttn.Pay

open Cert.KernelIdeal Cert.KernelIdeal.Gen Idealize.ShloMosaic Idealize.ShloMosaic.ValueIdx
open Cert.DualAttn

/-! ## The three projections -/

/-- A `[1024, 512]` block times a `[512, K]` channel map, stored as `[1, 1024, K]`: row `r`, column `k` is
    `Σ_c x(r,c) · w(c,k)`. -/
theorem k0_pay2_apply (v0 : Vec Ideal S1x1024x512 .bf16) (v2 : Vec Ideal S512x64 .bf16) (r : Fin 1024) (k : Fin 64) :
    k0_pay2 (F := Ideal) v0 v2 (ix3 0 r k) = ∑ c : Fin 512, v0 (ix3 0 r c) * v2 (ix2 c k) := by
  unfold k0_pay2 k0_pay1
  refine (shapeCast_ab_1ab_apply _ _ 0 r k).trans ?_
  refine (MatmulPlain.matmul_zero_apply none _ _ (ix2 r k)).trans ?_
  refine Finset.sum_congr rfl fun c _ => ?_
  congr 1
  · exact shapeCast_1ab_ab_apply v0 _ r c
  · exact congrFun (shapeCast_self v2 _) _

theorem k0_pay3_apply (v0 : Vec Ideal S1x1024x512 .bf16) (v9 : Vec Ideal S512x64 .bf16) (r : Fin 1024) (k : Fin 64) :
    k0_pay3 (F := Ideal) v0 v9 (ix3 0 r k) = ∑ c : Fin 512, v0 (ix3 0 r c) * v9 (ix2 c k) := by
  unfold k0_pay3 k0_pay1
  refine (shapeCast_ab_1ab_apply _ _ 0 r k).trans ?_
  refine (MatmulPlain.matmul_zero_apply none _ _ (ix2 r k)).trans ?_
  refine Finset.sum_congr rfl fun c _ => ?_
  congr 1
  · exact shapeCast_1ab_ab_apply v0 _ r c
  · exact congrFun (shapeCast_self v9 _) _

theorem k0_pay4_apply (v0 : Vec Ideal S1x1024x512 .bf16) (v16 : Vec Ideal S512x512 .bf16) (r : Fin 1024) (k : Fin 512) :
    k0_pay4 (F := Ideal) v0 v16 (ix3 0 r k) = ∑ c : Fin 512, v0 (ix3 0 r c) * v16 (ix2 c k) := by
  unfold k0_pay4 k0_pay1
  refine (shapeCast_ab_1ab_apply _ _ 0 r k).trans ?_
  refine (MatmulPlain.matmul_zero_apply none _ _ (ix2 r k)).trans ?_
  refine Finset.sum_congr rfl fun c _ => ?_
  congr 1
  · exact shapeCast_1ab_ab_apply v0 _ r c
  · exact congrFun (shapeCast_self v16 _) _

/-! ## The Gram matrix, accumulated over blocks of pixels -/

/-- The reset value of the Gram matrix accumulator. -/
theorem k2_pay1_apply (i j : Fin 512) : k2_pay1 (F := Ideal) (ix3 0 i j) = 0 := by
  unfold k2_pay1
  refine (shapeCast_ab_1ab_apply _ _ 0 i j).trans ?_
  exact Ideal.ofBits_zero_f32

/-- One block of 1024 pixels added to the accumulator: `acc(i,j) + Σ_n x(n,i) · x(n,j)`. -/
theorem k2_pay2_apply (v3 : Vec Ideal S1x1024x512 .bf16) (v5 : Vec Ideal S1x512x512 .f32) (i j : Fin 512) :
    k2_pay2 (F := Ideal) v3 v5 (ix3 0 i j) = v5 (ix3 0 i j) + ∑ n : Fin 1024, v3 (ix3 0 n i) * v3 (ix3 0 n j) := by
  unfold k2_pay2
  refine (shapeCast_ab_1ab_apply _ _ 0 i j).trans ?_
  refine (addf_apply _ _ _).trans ?_
  congr 1
  · exact shapeCast_1ab_ab_apply v5 _ i j
  · refine (MatmulTN.matmul_zero_apply _ none _ _ i j).trans ?_
    refine Finset.sum_congr rfl fun n _ => ?_
    congr 1
    · exact shapeCast_1ab_ab_apply v3 _ n i
    · exact shapeCast_1ab_ab_apply v3 _ n j

/-! ## The softmax of a matrix's rows, as the vector operations compute it -/

/-- The bit pattern of `-∞` reads as `⊥`. -/
theorem ofBits_neg_inf : Ideal.ofBits .f32 0xFF800000#32 = ⊥ := by simp [Ideal.ofBits, Ideal.ieee]

/-- For an `[a, b]` matrix: subtract each row's maximum (kept as a column and broadcast back), exponentiate, divide by
    each row's sum (kept and broadcast the same way). At `(i, j)` this is the softmax of row `i` at `j`; the row maximum
    taken from `⊥` and the row sum taken from nothing are the specification's `max ⊥ _` and `0 + _`. -/
theorem rowSoftmax_apply {a b : ℕ} (m : FVec Ideal ⟨2, ![a, b]⟩ .f32)
    (hr : (⟨2, ![a, b]⟩ : Shape).Reduces [1] ⟨1, ![a]⟩) (hφ : FKind.Formats .f32)
    (hmx : (0xFF800000#32 : BitVec FTy.f32.bits) = FKind.maximumf.neutral .f32 hφ)
    (hsm : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (i : Fin a) (j : Fin b) :
    divf
        (exp (subf m (broadcastTo ⟨2, ![a, b]⟩ (shapeCast ⟨2, ![a, 1]⟩
          (multiReduction .maximumf [1] ⟨1, ![a]⟩ m 0xFF800000#32 hr hφ hmx) hc) hb)))
        (broadcastTo ⟨2, ![a, b]⟩ (shapeCast ⟨2, ![a, 1]⟩
          (multiReduction .add [1] ⟨1, ![a]⟩
            (exp (subf m (broadcastTo ⟨2, ![a, b]⟩ (shapeCast ⟨2, ![a, 1]⟩
              (multiReduction .maximumf [1] ⟨1, ![a]⟩ m 0xFF800000#32 hr hφ hmx) hc) hb)))
            0x00000000#32 hr hφ hsm) hc) hb)
        (ix2 i j)
      = Spec.soft (fun k => m (ix2 i k)) j := by
  have hmax : ∀ j' : Fin b, broadcastTo ⟨2, ![a, b]⟩ (shapeCast ⟨2, ![a, 1]⟩
        (multiReduction .maximumf [1] ⟨1, ![a]⟩ m 0xFF800000#32 hr hφ hmx) hc) hb (ix2 i j')
      = Spec.rowmax (fun k => m (ix2 i k)) := by
    intro j'
    rw [Keepdims.broadcastTo_a1_ab_apply, Keepdims.shapeCast_a_a1_apply, RowReduce.rowMax_apply]
    unfold Spec.rowmax
    rw [ofBits_neg_inf, max_eq_right bot_le]
  have hexp : ∀ j' : Fin b, exp (subf m (broadcastTo ⟨2, ![a, b]⟩ (shapeCast ⟨2, ![a, 1]⟩
        (multiReduction .maximumf [1] ⟨1, ![a]⟩ m 0xFF800000#32 hr hφ hmx) hc) hb)) (ix2 i j')
      = Spec.wexp (fun k => m (ix2 i k)) j' := by
    intro j'
    show Ideal.exp (m (ix2 i j') - _) = _
    rw [hmax]
    rfl
  show Ideal.div _ _ = _
  rw [hexp, Keepdims.broadcastTo_a1_ab_apply, Keepdims.shapeCast_a_a1_apply, RowReduce.rowSum_apply]
  simp only [hexp]
  unfold Spec.soft Spec.wsum
  rw [zero_add]

/-! ## The channel part of one block of pixels -/

/-- Row `r` of the block times the row-softmaxed Gram matrix: `Σ_c x(r,c) · weight(c,j)`. -/
theorem k3_pay1_apply (v0 : Vec Ideal S1x512x512 .f32) (v12 : Vec Ideal S1x1024x512 .bf16) (r : Fin 1024) (j : Fin 512) :
    k3_pay1 (F := Ideal) v0 v12 (ix3 0 r j)
      = ∑ c : Fin 512, v12 (ix3 0 r c) * Spec.soft (fun j' : Fin 512 => v0 (ix3 0 c j')) j := by
  unfold k3_pay1
  refine (shapeCast_ab_1ab_apply _ _ 0 r j).trans ?_
  refine (MatmulPlain.matmul_zero_apply none _ _ (ix2 r j)).trans ?_
  refine Finset.sum_congr rfl fun c _ => ?_
  congr 1
  · exact shapeCast_1ab_ab_apply v12 _ r c
  · refine (rowSoftmax_apply _ _ _ _ _ _ _ c j).trans ?_
    congr 1
    funext k
    exact shapeCast_1ab_ab_apply v0 _ c k

end Cert.DualAttn.Pay

end
-- ==== Proof.KI.Final03.lean ====
/-
  From blocks to arrays for the two regions whose body is one pass over its blocks, over the extended reals: what the
  projection region's three output arrays and the channel-application region's output array hold at the region's exit,
  entry by entry, as a function of the buffer contents `V` the region is entered from. A grid point `t = 4·b + i`
  works on batch `b`, rows `1024·i … 1024·i + 1023`; its output block is the body's matrix product of the input
  blocks; the blocks of the sixteen points tile each output array, so the array ends holding, at `(b, n, k)`, the
  product's entry computed from row `n` of batch `b`.
-/
import proofs.«117280_j38989713113557_2_alg».proof.Proof.KI.Region0
import proofs.«117280_j38989713113557_2_alg».proof.Proof.KI.Region3
import proofs.«117280_j38989713113557_2_alg».proof.Proof.KernelPayloads0
import proofs.«117280_j38989713113557_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.DualAttn

section Final03

variable (V : (c : Dev nD) → (b : Ref sig .tc) → Buf (Elt Ideal) ((c : Thread nD τ).loc b))

theorem off3_zero : (![0, 0, 0] : Fin 3 → Nat) = fun _ => 0 := funext fun a => by fin_cases a <;> rfl
theorem off2_zero : (![0, 0] : Fin 2 → Nat) = fun _ => 0 := funext fun a => by fin_cases a <;> rfl

/-- A buffer's contents read as an array of extended reals over a literal shape. -/
abbrev asArr (S : Shape) (f : S.Idx → EReal) : S.Idx → EReal := f

/-- A rank-3 index whose first extent is one is `ix3 0` of its other two coordinates. -/
theorem eq_ix3_one {n1 n2 : Nat} (y : (⟨3, ![1, n1, n2]⟩ : Shape).Idx) : y = ix3 0 (y 1) (y 2) := by
  funext a
  match a with
  | ⟨0, _⟩ => apply Fin.ext; have h : (y 0).val < 1 := (y 0).isLt; show (y 0).val = 0; omega
  | ⟨1, _⟩ => rfl
  | ⟨2, _⟩ => rfl

/-! ## The projection region -/

/-- The block index maps of the projection region's windows, decided over the grid: the pixel block and the three
    output blocks sit at batch `t / 4`, row block `t % 4`; the weight blocks never move. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

/-- The pixel window's block at point `t` is rows `1024·(t % 4) …` of batch `t / 4` of the bf16 input. -/
theorem xblk0_apply (c : Dev nD) (t : Fin cfg0.N) (x : S1x1024x512.Idx) (k : S4x4096x512.Idx)
    (hk0 : (k 0).val = t.val / 4) (hk1 : (k 1).val = t.val % 4 * 1024 + (x 1).val) (hk2 : (k 2).val = (x 2).val) :
    (iblk0 V c 0 t : Vec Ideal S1x1024x512 .bf16) x = asArr S4x4096x512 (V c main_v1) k := by
  obtain ⟨e0, e1, e2, -⟩ := idx_facts0 t
  unfold iblk0
  rw [View.read_apply]
  show V c main_v1 _ = V c main_v1 _
  congr 1
  funext a
  apply Fin.ext
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 512 + 1 * (x 2).val = (k 2).val; omega
/-- The weight window 1's block is the whole matrix at every point. -/
theorem wblk0_1_apply (c : Dev nD) (t : Fin cfg0.N) (x : S512x64.Idx) :
    (iblk0 V c 1 t : Vec Ideal S512x64 .bf16) x = asArr S512x64 (V c main_v2) x := by
  obtain ⟨-, -, -, e10, e11, e20, e21, e30, e31, -⟩ := idx_facts0 t
  unfold iblk0
  rw [View.read_apply]
  show V c main_v2 _ = V c main_v2 _
  congr 1
  funext a
  apply Fin.ext
  match a with
  | ⟨0, _⟩ => show win0_1.index t (0 : Fin 2) * 512 + 1 * (x 0).val = (x 0).val; omega
  | ⟨1, _⟩ => show win0_1.index t (1 : Fin 2) * 64 + 1 * (x 1).val = (x 1).val; omega
/-- The weight window 2's block is the whole matrix at every point. -/
theorem wblk0_2_apply (c : Dev nD) (t : Fin cfg0.N) (x : S512x64.Idx) :
    (iblk0 V c 2 t : Vec Ideal S512x64 .bf16) x = asArr S512x64 (V c main_v3) x := by
  obtain ⟨-, -, -, e10, e11, e20, e21, e30, e31, -⟩ := idx_facts0 t
  unfold iblk0
  rw [View.read_apply]
  show V c main_v3 _ = V c main_v3 _
  congr 1
  funext a
  apply Fin.ext
  match a with
  | ⟨0, _⟩ => show win0_2.index t (0 : Fin 2) * 512 + 1 * (x 0).val = (x 0).val; omega
  | ⟨1, _⟩ => show win0_2.index t (1 : Fin 2) * 64 + 1 * (x 1).val = (x 1).val; omega
/-- The weight window 3's block is the whole matrix at every point. -/
theorem wblk0_3_apply (c : Dev nD) (t : Fin cfg0.N) (x : S512x512.Idx) :
    (iblk0 V c 3 t : Vec Ideal S512x512 .bf16) x = asArr S512x512 (V c main_v4) x := by
  obtain ⟨-, -, -, e10, e11, e20, e21, e30, e31, -⟩ := idx_facts0 t
  unfold iblk0
  rw [View.read_apply]
  show V c main_v4 _ = V c main_v4 _
  congr 1
  funext a
  apply Fin.ext
  match a with
  | ⟨0, _⟩ => show win0_3.index t (0 : Fin 2) * 512 + 1 * (x 0).val = (x 0).val; omega
  | ⟨1, _⟩ => show win0_3.index t (1 : Fin 2) * 512 + 1 * (x 1).val = (x 1).val; omega

/-- What the query array ends holding: at `(b, n, k)` the product of row `n` of batch `b` of the bf16 input with
    column `k` of the query weights. -/
def G0_4 (c : Dev nD) : S4x4096x64.Idx → EReal := fun i =>
  ∑ cc : Fin 512, asArr S4x4096x512 (V c main_v1) (ix3 (i 0 : Fin 4) (i 1 : Fin 4096) cc)
    * asArr S512x64 (V c main_v2) (ix2 cc (i 2 : Fin 64))

/-- The body's payload for the query block at an entry of the block, on variables of the blocks' literal types. -/
theorem pay0_4_at (x0 : Vec Ideal S1x1024x512 .bf16) (x1 : Vec Ideal S512x64 .bf16) (y : S1x1024x64.Idx) :
    k0_pay2 (F := Ideal) x0 x1 y = ∑ cc : Fin 512, x0 (ix3 0 (y 1 : Fin 1024) cc) * x1 (ix2 cc (y 2 : Fin 64)) :=
  (congrArg (k0_pay2 (F := Ideal) x0 x1) (eq_ix3_one y)).trans (Pay.k0_pay2_apply x0 x1 (y 1) (y 2))

/-- What point `t` writes back to the query array is block `t` of `G0_4`. -/
theorem flushed0_4_eq (c : Dev nD) (t : Fin cfg0.N) :
    (dat0 V c).flushed 4 t = ((cfg0.win 4).blk t).view.read (Elt Ideal) (G0_4 V c) := by
  show (cfg0.win 4).cut (grid0.coords t) ((dat0 V c).after 4 t) = _
  rw [after0_4]
  unfold out0_4
  rw [View.canon_unit_zero off3_zero]
  simp only [View.ld_unit_zero (S := S1x1024x512) off3_zero, View.ld_unit_zero (S := S512x64) off2_zero]
  obtain ⟨-, -, -, -, -, -, -, -, -, e40, e41, e42, e50, e51, e52, e60, e61, e62⟩ := idx_facts0 t
  funext j
  show k0_pay2 (F := Ideal) (iblk0 V c 0 t) (iblk0 V c 1 t) j = G0_4 V c (((cfg0.win 4).blk t).view.emb j)
  rw [pay0_4_at]
  unfold G0_4
  refine Finset.sum_congr rfl fun cc _ => ?_
  have hj0 : (j 0).val < 1 := (j 0).isLt
  congr 1
  · refine xblk0_apply V c t _ _ ?_ ?_ ?_
    · show win0_4.index t (0 : Fin 3) * 1 + 1 * (j 0).val = t.val / 4; omega
    · show win0_4.index t (1 : Fin 3) * 1024 + 1 * (j 1).val = t.val % 4 * 1024 + (j 1).val; omega
    · rfl
  · refine (wblk0_1_apply V c t _).trans ?_
    congr 1
    funext a
    match a with
    | ⟨0, _⟩ => rfl
    | ⟨1, _⟩ => apply Fin.ext; show (j 2).val = win0_4.index t (2 : Fin 3) * 64 + 1 * (j 2).val; omega

/-- An index of the query array is in point `t`'s block iff each coordinate is in the block's range on its axis. -/
theorem mem_blk0_4 (t : Fin cfg0.N) (i : S4x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v5_0).slice (win0_4.rect t)).set ↔ _
  rw [View.set_slice_whole, Rect.mem_set_unit]
  exact Iff.rfl

/-- Every entry of the query array is in the block of the point of its batch and row block. -/
theorem tile0_4 (i : S4x4096x64.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  have hN : cfg0.N = 16 := N_0
  let t : Fin cfg0.N := ⟨(i 0).val * 4 + (i 1).val / 1024, by omega⟩
  have ht : t.val = (i 0).val * 4 + (i 1).val / 1024 := rfl
  obtain ⟨-, -, -, -, -, -, -, -, -, e40, e41, e42, e50, e51, e52, e60, e61, e62⟩ := idx_facts0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- The query array at the region's exit. -/
theorem final0_4_arr (c : Dev nD) : (dat0 V c).arrAt 4 cfg0.N = G0_4 V c :=
  (dat0 V c).arrAt_eq_of_cover 4 (G0_4 V c) (fun t _ => flushed0_4_eq V c t) (tile0_4)

/-- The query array at the region's exit, entry by entry. -/
theorem final0_4 (c : Dev nD) (b : Fin 4) (n : Fin 4096) (k : Fin 64) :
    (dat0 V c).arrAt 4 cfg0.N (ix3 b n k)
      = ∑ cc : Fin 512, asArr S4x4096x512 (V c main_v1) (ix3 b n cc) * asArr S512x64 (V c main_v2) (ix2 cc k) := by
  rw [final0_4_arr V c]
  rfl

/-- What the key array ends holding: at `(b, n, k)` the product of row `n` of batch `b` of the bf16 input with
    column `k` of the key weights. -/
def G0_5 (c : Dev nD) : S4x4096x64.Idx → EReal := fun i =>
  ∑ cc : Fin 512, asArr S4x4096x512 (V c main_v1) (ix3 (i 0 : Fin 4) (i 1 : Fin 4096) cc)
    * asArr S512x64 (V c main_v3) (ix2 cc (i 2 : Fin 64))

/-- The body's payload for the key block at an entry of the block, on variables of the blocks' literal types. -/
theorem pay0_5_at (x0 : Vec Ideal S1x1024x512 .bf16) (x1 : Vec Ideal S512x64 .bf16) (y : S1x1024x64.Idx) :
    k0_pay3 (F := Ideal) x0 x1 y = ∑ cc : Fin 512, x0 (ix3 0 (y 1 : Fin 1024) cc) * x1 (ix2 cc (y 2 : Fin 64)) :=
  (congrArg (k0_pay3 (F := Ideal) x0 x1) (eq_ix3_one y)).trans (Pay.k0_pay3_apply x0 x1 (y 1) (y 2))

/-- What point `t` writes back to the key array is block `t` of `G0_5`. -/
theorem flushed0_5_eq (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  unfold out0_5
  rw [View.canon_unit_zero off3_zero]
  simp only [View.ld_unit_zero (S := S1x1024x512) off3_zero, View.ld_unit_zero (S := S512x64) off2_zero]
  obtain ⟨-, -, -, -, -, -, -, -, -, e40, e41, e42, e50, e51, e52, e60, e61, e62⟩ := idx_facts0 t
  funext j
  show k0_pay3 (F := Ideal) (iblk0 V c 0 t) (iblk0 V c 2 t) j = G0_5 V c (((cfg0.win 5).blk t).view.emb j)
  rw [pay0_5_at]
  unfold G0_5
  refine Finset.sum_congr rfl fun cc _ => ?_
  have hj0 : (j 0).val < 1 := (j 0).isLt
  congr 1
  · refine xblk0_apply V c t _ _ ?_ ?_ ?_
    · show win0_5.index t (0 : Fin 3) * 1 + 1 * (j 0).val = t.val / 4; omega
    · show win0_5.index t (1 : Fin 3) * 1024 + 1 * (j 1).val = t.val % 4 * 1024 + (j 1).val; omega
    · rfl
  · refine (wblk0_2_apply V c t _).trans ?_
    congr 1
    funext a
    match a with
    | ⟨0, _⟩ => rfl
    | ⟨1, _⟩ => apply Fin.ext; show (j 2).val = win0_5.index t (2 : Fin 3) * 64 + 1 * (j 2).val; omega

/-- An index of the key array is in point `t`'s block iff each coordinate is in the block's range on its axis. -/
theorem mem_blk0_5 (t : Fin cfg0.N) (i : S4x4096x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v5_1).slice (win0_5.rect t)).set ↔ _
  rw [View.set_slice_whole, Rect.mem_set_unit]
  exact Iff.rfl

/-- Every entry of the key array is in the block of the point of its batch and row block. -/
theorem tile0_5 (i : S4x4096x64.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  have hN : cfg0.N = 16 := N_0
  let t : Fin cfg0.N := ⟨(i 0).val * 4 + (i 1).val / 1024, by omega⟩
  have ht : t.val = (i 0).val * 4 + (i 1).val / 1024 := rfl
  obtain ⟨-, -, -, -, -, -, -, -, -, e40, e41, e42, e50, e51, e52, e60, e61, e62⟩ := idx_facts0 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-- The key array at the region's exit. -/
theorem final0_5_arr (c : Dev nD) : (dat0 V c).arrAt 5 cfg0.N = G0_5 V c :=
  (dat0 V c).arrAt_eq_of_cover 5 (G0_5 V c) (fun t _ => flushed0_5_eq V c t) (tile0_5)

/-- The key array at the region's exit, entry by entry. -/
theorem final0_5 (c : Dev nD) (b : Fin 4) (n : Fin 4096) (k : Fin 64) :
    (dat0 V c).arrAt 5 cfg0.N (ix3 b n k)
      = ∑ cc : Fin 512, asArr S4x4096x512 (V c main_v1) (ix3 b n cc) * asArr S512x64 (V c main_v3) (ix2 cc k) := by
  rw [final0_5_arr V c]
  rfl

/-- What the value array ends holding: at `(b, n, k)` the product of row `n` of batch `b` of the bf16 input with
    column `k` of the value weights. -/
def G0_6 (c : Dev nD) : S4x4096x512.Idx → EReal := fun i =>
  ∑ cc : Fin 512, asArr S4x4096x512 (V c main_v1) (ix3 (i 0 : Fin 4) (i 1 : Fin 4096) cc)
    * asArr S512x512 (V c main_v4) (ix2 cc (i 2 : Fin 512))

/-- The body's payload for the value block at an entry of the block, on variables of the blocks' literal types. -/
theorem pay0_6_at (x0 : Vec Ideal S1x1024x512 .bf16) (x1 : Vec Ideal S512x512 .bf16) (y : S1x1024x512.Idx) :
    k0_pay4 (F := Ideal) x0 x1 y = ∑ cc : Fin 512, x0 (ix3 0 (y 1 : Fin 1024) cc) * x1 (ix2 cc (y 2 : Fin 512)) :=
  (congrArg (k0_pay4 (F := Ideal) x0 x1) (eq_ix3_one y)).trans (Pay.k0_pay4_apply x0 x1 (y 1) (y 2))

/-- What point `t` writes back to the value array is block `t` of `G0_6`. -/
theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero off3_zero]
  simp only [View.ld_unit_zero (S := S1x1024x512) off3_zero, View.ld_unit_zero (S := S512x512) off2_zero]
  obtain ⟨-, -, -, -, -, -, -, -, -, e40, e41, e42, e50, e51, e52, e60, e61, e62⟩ := idx_facts0 t
  funext j
  show k0_pay4 (F := Ideal) (iblk0 V c 0 t) (iblk0 V c 3 t) j = G0_6 V c (((cfg0.win 6).blk t).view.emb j)
  rw [pay0_6_at]
  unfold G0_6
  refine Finset.sum_congr rfl fun cc _ => ?_
  have hj0 : (j 0).val < 1 := (j 0).isLt
  congr 1
  · refine xblk0_apply V c t _ _ ?_ ?_ ?_
    · show win0_6.index t (0 : Fin 3) * 1 + 1 * (j 0).val = t.val / 4; omega
    · show win0_6.index t (1 : Fin 3) * 1024 + 1 * (j 1).val = t.val % 4 * 1024 + (j 1).val; omega
    · rfl
  · refine (wblk0_3_apply V c t _).trans ?_
    congr 1
    funext a
    match a with
    | ⟨0, _⟩ => rfl
    | ⟨1, _⟩ => apply Fin.ext; show (j 2).val = win0_6.index t (2 : Fin 3) * 512 + 1 * (j 2).val; omega

/-- An index of the value array is in point `t`'s block iff each coordinate is in the block's range on its axis. -/
theorem mem_blk0_6 (t : Fin cfg0.N) (i : S4x4096x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v5_2).slice (win0_6.rect t)).set ↔ _
  rw [View.set_slice_whole, Rect.mem_set_unit]
  exact Iff.rfl

/-- Every entry of the value array is in the block of the point of its batch and row block. -/
theorem tile0_6 (i : S4x4096x512.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 512 := (i 2).isLt
  have hN : cfg0.N = 16 := N_0
  let t : Fin cfg0.N := ⟨(i 0).val * 4 + (i 1).val / 1024, by omega⟩
  have ht : t.val = (i 0).val * 4 + (i 1).val / 1024 := rfl
  obtain ⟨-, -, -, -, -, -, -, -, -, e40, e41, e42, e50, e51, e52, e60, e61, e62⟩ := idx_facts0 t
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 512 ≤ (i 2).val ∧ (i 2).val < win0_6.index t (2 : Fin 3) * 512 + 512; omega

/-- The value array at the region's exit. -/
theorem final0_6_arr (c : Dev nD) : (dat0 V c).arrAt 6 cfg0.N = G0_6 V c :=
  (dat0 V c).arrAt_eq_of_cover 6 (G0_6 V c) (fun t _ => flushed0_6_eq V c t) (tile0_6)

/-- The value array at the region's exit, entry by entry. -/
theorem final0_6 (c : Dev nD) (b : Fin 4) (n : Fin 4096) (k : Fin 512) :
    (dat0 V c).arrAt 6 cfg0.N (ix3 b n k)
      = ∑ cc : Fin 512, asArr S4x4096x512 (V c main_v1) (ix3 b n cc) * asArr S512x512 (V c main_v4) (ix2 cc k) := by
  rw [final0_6_arr V c]
  rfl

/-! ## The channel-application region -/

/-- The block index maps of the channel-application region's windows, decided over the grid: the pixel block and the
    output block sit at batch `t / 4`, row block `t % 4`; the Gram block at batch `t / 4`. -/
theorem idx_facts3 : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = t.val % 4 ∧ win3_2.index t (2 : Fin 3) = 0 :=
  (by decide +kernel : ∀ t : Fin grid3.N, _)

/-- The pixel window's block at point `t` is rows `1024·(t % 4) …` of batch `t / 4` of the bf16 input. -/
theorem xblk3_apply (c : Dev nD) (t : Fin cfg3.N) (x : S1x1024x512.Idx) (k : S4x4096x512.Idx)
    (hk0 : (k 0).val = t.val / 4) (hk1 : (k 1).val = t.val % 4 * 1024 + (x 1).val) (hk2 : (k 2).val = (x 2).val) :
    (iblk3 V c 0 t : Vec Ideal S1x1024x512 .bf16) x = asArr S4x4096x512 (V c main_v1) k := by
  obtain ⟨e0, e1, e2, -⟩ := idx_facts3 t
  unfold iblk3
  rw [View.read_apply]
  show V c main_v1 _ = V c main_v1 _
  congr 1
  funext a
  apply Fin.ext
  have hx0 : (x 0).val < 1 := (x 0).isLt
  match a with
  | ⟨0, _⟩ => show win3_0.index t (0 : Fin 3) * 1 + 1 * (x 0).val = (k 0).val; omega
  | ⟨1, _⟩ => show win3_0.index t (1 : Fin 3) * 1024 + 1 * (x 1).val = (k 1).val; omega
  | ⟨2, _⟩ => show win3_0.index t (2 : Fin 3) * 512 + 1 * (x 2).val = (k 2).val; omega

/-- The Gram window's block at point `t` is batch `t / 4` of the Gram array. -/
theorem gblk3_apply (c : Dev nD) (t : Fin cfg3.N) (x : S1x512x512.Idx) (k : S4x512x512.Idx)
    (hk0 : (k 0).val = t.val / 4) (hk1 : (k 1).val = (x 1).val) (hk2 : (k 2).val = (x 2).val) :
    (iblk3 V c 1 t : Vec Ideal S1x512x512 .f32) x = asArr S4x512x512 (V c main_v12) k := by
  obtain ⟨-, -, -, e0, e1, e2, -⟩ := idx_facts3 t
  unfold iblk3
  rw [View.read_apply]
  show V c main_v12 _ = V c main_v12 _
  congr 1
  funext a
  apply Fin.ext
  have hx0 : (x 0).val < 1 := (x 0).isLt
  match a with
  | ⟨0, _⟩ => show win3_1.index t (0 : Fin 3) * 1 + 1 * (x 0).val = (k 0).val; omega
  | ⟨1, _⟩ => show win3_1.index t (1 : Fin 3) * 512 + 1 * (x 1).val = (k 1).val; omega
  | ⟨2, _⟩ => show win3_1.index t (2 : Fin 3) * 512 + 1 * (x 2).val = (k 2).val; omega

/-- What the channel-part array ends holding: at `(b, n, j)` row `n` of batch `b` of the bf16 input times column `j`
    of the row-softmaxed Gram matrix of batch `b`. -/
def G3_2 (c : Dev nD) : S4x4096x512.Idx → EReal := fun i =>
  ∑ cc : Fin 512, asArr S4x4096x512 (V c main_v1) (ix3 (i 0 : Fin 4) (i 1 : Fin 4096) cc)
    * Spec.soft (fun j' : Fin 512 => asArr S4x512x512 (V c main_v12) (ix3 (i 0 : Fin 4) cc j')) (i 2 : Fin 512)

/-- The body's payload at an entry of the block, on variables of the blocks' literal types. -/
theorem pay3_2_at (x0 : Vec Ideal S1x1024x512 .bf16) (x1 : Vec Ideal S1x512x512 .f32) (y : S1x1024x512.Idx) :
    k3_pay1 (F := Ideal) x1 x0 y
      = ∑ cc : Fin 512, x0 (ix3 0 (y 1 : Fin 1024) cc) * Spec.soft (fun j' : Fin 512 => x1 (ix3 0 cc j')) (y 2 : Fin 512) :=
  (congrArg (k3_pay1 (F := Ideal) x1 x0) (eq_ix3_one y)).trans (Pay.k3_pay1_apply x1 x0 (y 1) (y 2))

/-- What point `t` writes back to the channel-part array is block `t` of `G3_2`. -/
theorem flushed3_2_eq (c : Dev nD) (t : Fin cfg3.N) :
    (dat3 V c).flushed 2 t = ((cfg3.win 2).blk t).view.read (Elt Ideal) (G3_2 V c) := by
  show (cfg3.win 2).cut (grid3.coords t) ((dat3 V c).after 2 t) = _
  rw [after3_2]
  unfold out3_2
  rw [View.canon_unit_zero off3_zero]
  simp only [View.ld_unit_zero (S := S1x1024x512) off3_zero, View.ld_unit_zero (S := S1x512x512) off3_zero]
  obtain ⟨-, -, -, -, -, -, e20, e21, e22⟩ := idx_facts3 t
  funext j
  show k3_pay1 (F := Ideal) (iblk3 V c 1 t) (iblk3 V c 0 t) j = G3_2 V c (((cfg3.win 2).blk t).view.emb j)
  rw [pay3_2_at]
  unfold G3_2
  refine Finset.sum_congr rfl fun cc _ => ?_
  have hj0 : (j 0).val < 1 := (j 0).isLt
  refine congrArg₂ (fun a b : EReal => a * b) ?_ ?_
  · refine xblk3_apply V c t _ _ ?_ ?_ ?_
    · show win3_2.index t (0 : Fin 3) * 1 + 1 * (j 0).val = t.val / 4; omega
    · show win3_2.index t (1 : Fin 3) * 1024 + 1 * (j 1).val = t.val % 4 * 1024 + (j 1).val; omega
    · rfl
  · refine congrArg₂ Spec.soft (funext fun j' => gblk3_apply V c t _ _ ?_ rfl rfl) (Fin.ext ?_)
    · show win3_2.index t (0 : Fin 3) * 1 + 1 * (j 0).val = t.val / 4; omega
    · show (j 2).val = win3_2.index t (2 : Fin 3) * 512 + 1 * (j 2).val; omega

/-- An index of the channel-part array is in point `t`'s block iff each coordinate is in the block's range on its axis. -/
theorem mem_blk3_2 (t : Fin cfg3.N) (i : S4x4096x512.Idx) :
    i ∈ ((cfg3.win 2).blk t).view.set ↔ ∀ a : Fin 3, win3_2.index t a * S1x1024x512.size a ≤ (i a).val ∧ (i a).val < win3_2.index t a * S1x1024x512.size a + S1x1024x512.size a := by
  show i ∈ ((View.whole main_v13).slice (win3_2.rect t)).set ↔ _
  rw [View.set_slice_whole, Rect.mem_set_unit]
  exact Iff.rfl

/-- Every entry of the channel-part array is in the block of the point of its batch and row block. -/
theorem tile3_2 (i : S4x4096x512.Idx) : ∃ t : Fin cfg3.N, (cfg3.win 2).flush t = true ∧ i ∈ ((cfg3.win 2).blk t).view.set := by
  have hi0 : (i 0).val < 4 := (i 0).isLt
  have hi1 : (i 1).val < 4096 := (i 1).isLt
  have hi2 : (i 2).val < 512 := (i 2).isLt
  have hN : cfg3.N = 16 := N_3
  let t : Fin cfg3.N := ⟨(i 0).val * 4 + (i 1).val / 1024, by omega⟩
  have ht : t.val = (i 0).val * 4 + (i 1).val / 1024 := rfl
  obtain ⟨-, -, -, -, -, -, e20, e21, e22⟩ := idx_facts3 t
  refine ⟨t, flush3_2 t, ?_⟩
  rw [mem_blk3_2]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 1024 ≤ (i 1).val ∧ (i 1).val < win3_2.index t (1 : Fin 3) * 1024 + 1024; omega
  | ⟨2, _⟩ => show win3_2.index t (2 : Fin 3) * 512 ≤ (i 2).val ∧ (i 2).val < win3_2.index t (2 : Fin 3) * 512 + 512; omega

/-- The channel-part array at the region's exit. -/
theorem final3_2_arr (c : Dev nD) : (dat3 V c).arrAt 2 cfg3.N = G3_2 V c :=
  (dat3 V c).arrAt_eq_of_cover 2 (G3_2 V c) (fun t _ => flushed3_2_eq V c t) (tile3_2)

/-- The channel-part array at the region's exit, entry by entry. -/
theorem final3_2 (c : Dev nD) (b : Fin 4) (n : Fin 4096) (j : Fin 512) :
    (dat3 V c).arrAt 2 cfg3.N (ix3 b n j)
      = ∑ cc : Fin 512, asArr S4x4096x512 (V c main_v1) (ix3 b n cc)
          * Spec.soft (fun j' : Fin 512 => asArr S4x512x512 (V c main_v12) (ix3 b cc j')) j := by
  rw [final3_2_arr V c]
  rfl

end Final03

end Cert.KernelIdeal.Hand

end
-- ==== Proof.KI.Region1Step.lean ====
/-
  One step of the online softmax of the position-attention kernel, at any float instance: from the carried triple
  (running row maximum, running normaliser, running weighted sum) and a point's query, key and value blocks to the next
  triple; and the triple a (batch, query tile) starts from (minus infinity, zero, zero).
-/
import proofs.«117280_j38989713113557_2_alg».proof.Proof.Gen.KernelIdeal.Skeleton

noncomputable section

namespace Cert.KernelIdeal.Hand

open Cert.KernelIdeal Cert.KernelIdeal.Gen
open Idealize.ShloMosaic Idealize.ShloMosaic.TcCoe

variable {F : FTy → Type} [FloatOps F]

/-- One step: from the carried triple (row maximum, normaliser, weighted sum) and the point's query, key and value
    blocks to the next triple. All three new values are computed from the OLD triple. -/
def stepV (x0 : Vec F S1x1024x64 .bf16) (x1 : Vec F S1x512x64 .bf16) (x2 : Vec F S1x512x512 .bf16)
    (s : Vec F S1024x1 .f32 × Vec F S1024x1 .f32 × Vec F S1024x512 .f32) :
    Vec F S1024x1 .f32 × Vec F S1024x1 .f32 × Vec F S1024x512 .f32 :=
  (k1_pay2 (k1_pay9 x0 x1 s.1), k1_pay12 x0 x1 s.1 s.2.1,
    k1_pay1 (k1_pay7 x2) (k1_pay13 x0 x1 s.1 s.2.2) (k1_pay14 x0 x1 s.1) (constant S1024x512 .f32 0x00000000#32))

/-- The reset triple: minus infinity, zero, zero. -/
def initV : Vec F S1024x1 .f32 × Vec F S1024x1 .f32 × Vec F S1024x512 .f32 :=
  (k1_pay4 (F := F), k1_pay5 (F := F), k1_pay6 (F := F))

end Cert.KernelIdeal.Hand

end
-- ==== Proof.KI.Region1Out.lean ====
/-
  The position-attention kernel's buffers in closed form, at any float instance. One step of the online softmax takes
  the query block, a key block and a value block and the carried triple (running row maximum, running normaliser,
  running weighted sum) to the next triple; the first point of a (batch, query tile) starts the step from the reset
  triple (minus infinity, zero, zero), a later point from what the point before left, and the last point also leaves
  the weighted sum divided by the normaliser, transposed, in the output block. Stated here with no staging buffer or
  scratch buffer left in the statement: each case's contents, and the recursion over the points.
-/
import proofs.«117280_j38989713113557_2_alg».proof.Proof.KI.Region1Main
import proofs.«117280_j38989713113557_2_alg».proof.Proof.KI.Region1Step
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Out

theorem hz2_r1 : (![0, 0] : Fin 2 → Nat) = fun _ => 0 := funext fun a => by fin_cases a <;> rfl
theorem hz3_r1 : (![0, 0, 0] : Fin 3 → Nat) = fun _ => 0 := funext fun a => by fin_cases a <;> rfl

/-! ## What each case leaves, as functions of the blocks and the carried triple -/

section Pieces

variable (c : Dev nD) (i : grid1.Coords) (a3 : Memref sig .tc .vmem S1x1024x64 .bf16) (h3 : a3.IsWhole)
  (a4 : Memref sig .tc .vmem S1x512x64 .bf16) (h4 : a4.IsWhole) (a5 : Memref sig .tc .vmem S1x512x512 .bf16) (h5 : a5.IsWhole)
  (a6 : Memref sig .tc .vmem S1x512x1024 .f32) (h6 : a6.IsWhole) (a7 : Memref sig .tc .vmem S1024x1 .f32) (h7 : a7.IsWhole)
  (a8 : Memref sig .tc .vmem S1024x1 .f32) (h8 : a8.IsWhole) (a9 : Memref sig .tc .vmem S1024x512 .f32) (h9 : a9.IsWhole)
  (x0 : Vec F S1x1024x64 .bf16) (x1 : Vec F S1x512x64 .bf16) (x2 : Vec F S1x512x512 .bf16)
  (xs0 xs1 : Vec F S1024x1 .f32) (xs2 : Vec F S1024x512 .f32)

/-- Middle case, the row maximum. -/
theorem sout1_B_0_eq (hc0 : ¬cond1_0 i) (hc1 : ¬cond1_1 i) :
    sout1_B_0 c i a3 h3 a4 h4 a5 h5 a6 h6 a7 h7 a8 h8 a9 h9 hc0 hc1 x0 x1 x2 xs0 xs1 xs2 = k1_pay2 (k1_pay9 x0 x1 xs0) := by
  unfold sout1_B_0
  rw [View.read_writes_eq_canon _ _ _ (scover1_B_0 c i a3 h3 a4 h4 a5 h5 a6 h6 a7 h7 a8 h8 a9 h9 hc0 hc1 x0 x1 x2 xs0 xs1 xs2)]
  unfold kernelRun1_B
  dsimp only
  sl_unfold_words
  rw [View.canon_cons_unit_zero (S := S1024x1) hz2_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1]

/-- Middle case, the normaliser. -/
theorem sout1_B_1_eq (hc0 : ¬cond1_0 i) (hc1 : ¬cond1_1 i) :
    sout1_B_1 c i a3 h3 a4 h4 a5 h5 a6 h6 a7 h7 a8 h8 a9 h9 hc0 hc1 x0 x1 x2 xs0 xs1 xs2 = k1_pay12 x0 x1 xs0 xs1 := by
  unfold sout1_B_1
  rw [View.read_writes_eq_canon _ _ _ (scover1_B_1 c i a3 h3 a4 h4 a5 h5 a6 h6 a7 h7 a8 h8 a9 h9 hc0 hc1 x0 x1 x2 xs0 xs1 xs2)]
  unfold kernelRun1_B
  dsimp only
  sl_unfold_words
  rw [View.canon_cons_unit_zero (S := S1024x1) hz2_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1]

/-- Middle case, the weighted sum. -/
theorem sout1_B_2_eq (hc0 : ¬cond1_0 i) (hc1 : ¬cond1_1 i) :
    sout1_B_2 c i a3 h3 a4 h4 a5 h5 a6 h6 a7 h7 a8 h8 a9 h9 hc0 hc1 x0 x1 x2 xs0 xs1 xs2
      = k1_pay1 (k1_pay7 x2) (k1_pay13 x0 x1 xs0 xs2) (k1_pay14 x0 x1 xs0) (constant S1024x512 .f32 0x00000000#32) := by
  unfold sout1_B_2
  rw [View.read_writes_eq_canon _ _ _ (scover1_B_2 c i a3 h3 a4 h4 a5 h5 a6 h6 a7 h7 a8 h8 a9 h9 hc0 hc1 x0 x1 x2 xs0 xs1 xs2)]
  unfold kernelRun1_B
  dsimp only
  sl_unfold_words
  rw [View.canon_cons_unit_zero (S := S1024x512) hz2_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1]

/-- Middle case: the three scratch buffers end at one step from the carried triple. -/
theorem sout1_B_eq (hc0 : ¬cond1_0 i) (hc1 : ¬cond1_1 i) :
    (sout1_B_0 c i a3 h3 a4 h4 a5 h5 a6 h6 a7 h7 a8 h8 a9 h9 hc0 hc1 x0 x1 x2 xs0 xs1 xs2, sout1_B_1 c i a3 h3 a4 h4 a5 h5 a6 h6 a7 h7 a8 h8 a9 h9 hc0 hc1 x0 x1 x2 xs0 xs1 xs2,
      sout1_B_2 c i a3 h3 a4 h4 a5 h5 a6 h6 a7 h7 a8 h8 a9 h9 hc0 hc1 x0 x1 x2 xs0 xs1 xs2) = stepV x0 x1 x2 (xs0, xs1, xs2) := by
  rw [sout1_B_0_eq c i a3 h3 a4 h4 a5 h5 a6 h6 a7 h7 a8 h8 a9 h9 x0 x1 x2 xs0 xs1 xs2 hc0 hc1, sout1_B_1_eq c i a3 h3 a4 h4 a5 h5 a6 h6 a7 h7 a8 h8 a9 h9 x0 x1 x2 xs0 xs1 xs2 hc0 hc1,
    sout1_B_2_eq c i a3 h3 a4 h4 a5 h5 a6 h6 a7 h7 a8 h8 a9 h9 x0 x1 x2 xs0 xs1 xs2 hc0 hc1]
  rfl

/-- Write-out case, the row maximum. -/
theorem sout1_C_0_eq (hc0 : ¬cond1_0 i) (hc1 : cond1_1 i) :
    sout1_C_0 c i a3 h3 a4 h4 a5 h5 a6 h6 a7 h7 a8 h8 a9 h9 hc0 hc1 x0 x1 x2 xs0 xs1 xs2 = k1_pay2 (k1_pay9 x0 x1 xs0) := by
  unfold sout1_C_0
  rw [View.read_writes_eq_canon _ _ _ (scover1_C_0 c i a3 h3 a4 h4 a5 h5 a6 h6 a7 h7 a8 h8 a9 h9 hc0 hc1 x0 x1 x2 xs0 xs1 xs2)]
  unfold kernelRun1_C
  dsimp only
  sl_unfold_words
  rw [View.canon_cons_unit_zero (S := S1024x1) hz2_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1]

/-- Write-out case, the normaliser. -/
theorem sout1_C_1_eq (hc0 : ¬cond1_0 i) (hc1 : cond1_1 i) :
    sout1_C_1 c i a3 h3 a4 h4 a5 h5 a6 h6 a7 h7 a8 h8 a9 h9 hc0 hc1 x0 x1 x2 xs0 xs1 xs2 = k1_pay12 x0 x1 xs0 xs1 := by
  unfold sout1_C_1
  rw [View.read_writes_eq_canon _ _ _ (scover1_C_1 c i a3 h3 a4 h4 a5 h5 a6 h6 a7 h7 a8 h8 a9 h9 hc0 hc1 x0 x1 x2 xs0 xs1 xs2)]
  unfold kernelRun1_C
  dsimp only
  sl_unfold_words
  rw [View.canon_cons_unit_zero (S := S1024x1) hz2_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1]

/-- Write-out case, the weighted sum. -/
theorem sout1_C_2_eq (hc0 : ¬cond1_0 i) (hc1 : cond1_1 i) :
    sout1_C_2 c i a3 h3 a4 h4 a5 h5 a6 h6 a7 h7 a8 h8 a9 h9 hc0 hc1 x0 x1 x2 xs0 xs1 xs2
      = k1_pay1 (k1_pay7 x2) (k1_pay13 x0 x1 xs0 xs2) (k1_pay14 x0 x1 xs0) (constant S1024x512 .f32 0x00000000#32) := by
  unfold sout1_C_2
  rw [View.read_writes_eq_canon _ _ _ (scover1_C_2 c i a3 h3 a4 h4 a5 h5 a6 h6 a7 h7 a8 h8 a9 h9 hc0 hc1 x0 x1 x2 xs0 xs1 xs2)]
  unfold kernelRun1_C
  dsimp only
  sl_unfold_words
  rw [View.canon_cons_unit_zero (S := S1024x512) hz2_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1]

/-- Write-out case: the three scratch buffers end at one step from the carried triple. -/
theorem sout1_C_eq (hc0 : ¬cond1_0 i) (hc1 : cond1_1 i) :
    (sout1_C_0 c i a3 h3 a4 h4 a5 h5 a6 h6 a7 h7 a8 h8 a9 h9 hc0 hc1 x0 x1 x2 xs0 xs1 xs2, sout1_C_1 c i a3 h3 a4 h4 a5 h5 a6 h6 a7 h7 a8 h8 a9 h9 hc0 hc1 x0 x1 x2 xs0 xs1 xs2,
      sout1_C_2 c i a3 h3 a4 h4 a5 h5 a6 h6 a7 h7 a8 h8 a9 h9 hc0 hc1 x0 x1 x2 xs0 xs1 xs2) = stepV x0 x1 x2 (xs0, xs1, xs2) := by
  rw [sout1_C_0_eq c i a3 h3 a4 h4 a5 h5 a6 h6 a7 h7 a8 h8 a9 h9 x0 x1 x2 xs0 xs1 xs2 hc0 hc1, sout1_C_1_eq c i a3 h3 a4 h4 a5 h5 a6 h6 a7 h7 a8 h8 a9 h9 x0 x1 x2 xs0 xs1 xs2 hc0 hc1,
    sout1_C_2_eq c i a3 h3 a4 h4 a5 h5 a6 h6 a7 h7 a8 h8 a9 h9 x0 x1 x2 xs0 xs1 xs2 hc0 hc1]
  rfl

/-- Write-out case, the output block: the new weighted sum over the new normaliser, transposed. -/
theorem out1_C_3_eq (hc0 : ¬cond1_0 i) (hc1 : cond1_1 i) :
    out1_C_3 c i a3 h3 a4 h4 a5 h5 a6 h6 a7 h7 a8 h8 a9 h9 hc0 hc1 x0 x1 x2 xs0 xs1 xs2
      = k1_pay3 (stepV x0 x1 x2 (xs0, xs1, xs2)).2.2 (stepV x0 x1 x2 (xs0, xs1, xs2)).2.1 := by
  unfold out1_C_3
  rw [View.read_writes_eq_canon _ _ _ (cover1_C_3 c i a3 h3 a4 h4 a5 h5 a6 h6 a7 h7 a8 h8 a9 h9 hc0 hc1 x0 x1 x2 xs0 xs1 xs2)]
  unfold kernelRun1_C
  dsimp only
  sl_unfold_words
  rw [View.canon_cons_unit_zero (S := S1x512x1024) hz3_r1]
  simp only [View.readAt_eq_ld, h3.read_unread, h4.read_unread, h5.read_unread, h7.read_unread, h8.read_unread, h9.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1, View.readCov_unit_zero (S := S1024x1) _ hz2_r1, View.readCov_unit_zero (S := S1024x512) _ hz2_r1]
  rfl

/-- Reset case, the row maximum. -/
theorem sout1_A_0_eq (hc0 : cond1_0 i) (hc1 : ¬cond1_1 i) :
    sout1_A_0 c i a3 h3 a4 h4 a5 h5 a6 h6 a7 h7 a8 h8 a9 h9 hc0 hc1 x0 x1 x2 = k1_pay2 (k1_pay9 x0 x1 (k1_pay4 (F := F))) := by
  unfold sout1_A_0
  rw [View.read_writes_eq_canon _ _ _ (scover1_A_0 c i a3 h3 a4 h4 a5 h5 a6 h6 a7 h7 a8 h8 a9 h9 hc0 hc1 x0 x1 x2)]
  unfold kernelRun1_A
  dsimp only
  sl_unfold_words
  rw [View.canon_cons_unit_zero (S := S1024x1) hz2_r1]
  simp only [View.readAt_eq_ld, h3.read_unread, h4.read_unread, h5.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1, View.readCov_unit_zero (S := S1024x1) _ hz2_r1, View.readCov_unit_zero (S := S1024x512) _ hz2_r1]

/-- Reset case, the normaliser. -/
theorem sout1_A_1_eq (hc0 : cond1_0 i) (hc1 : ¬cond1_1 i) :
    sout1_A_1 c i a3 h3 a4 h4 a5 h5 a6 h6 a7 h7 a8 h8 a9 h9 hc0 hc1 x0 x1 x2 = k1_pay12 x0 x1 (k1_pay4 (F := F)) (k1_pay5 (F := F)) := by
  unfold sout1_A_1
  rw [View.read_writes_eq_canon _ _ _ (scover1_A_1 c i a3 h3 a4 h4 a5 h5 a6 h6 a7 h7 a8 h8 a9 h9 hc0 hc1 x0 x1 x2)]
  unfold kernelRun1_A
  dsimp only
  sl_unfold_words
  rw [View.canon_cons_unit_zero (S := S1024x1) hz2_r1]
  simp only [View.readAt_eq_ld, h3.read_unread, h4.read_unread, h5.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1, View.readCov_unit_zero (S := S1024x1) _ hz2_r1, View.readCov_unit_zero (S := S1024x512) _ hz2_r1]

/-- Reset case, the weighted sum. -/
theorem sout1_A_2_eq (hc0 : cond1_0 i) (hc1 : ¬cond1_1 i) :
    sout1_A_2 c i a3 h3 a4 h4 a5 h5 a6 h6 a7 h7 a8 h8 a9 h9 hc0 hc1 x0 x1 x2
      = k1_pay1 (k1_pay7 x2) (k1_pay13 x0 x1 (k1_pay4 (F := F)) (k1_pay6 (F := F))) (k1_pay14 x0 x1 (k1_pay4 (F := F))) (constant S1024x512 .f32 0x00000000#32) := by
  unfold sout1_A_2
  rw [View.read_writes_eq_canon _ _ _ (scover1_A_2 c i a3 h3 a4 h4 a5 h5 a6 h6 a7 h7 a8 h8 a9 h9 hc0 hc1 x0 x1 x2)]
  unfold kernelRun1_A
  dsimp only
  sl_unfold_words
  rw [View.canon_cons_unit_zero (S := S1024x512) hz2_r1]
  simp only [View.readAt_eq_ld, h3.read_unread, h4.read_unread, h5.read_unread, View.ld_unit_zero (S := S1x1024x64) hz3_r1, View.ld_unit_zero (S := S1x512x64) hz3_r1, View.ld_unit_zero (S := S1x512x512) hz3_r1, View.ld_unit_zero (S := S1024x1) hz2_r1, View.ld_unit_zero (S := S1024x512) hz2_r1, View.readCov_unit_zero (S := S1024x1) _ hz2_r1, View.readCov_unit_zero (S := S1024x512) _ hz2_r1]

/-- Reset case: the three scratch buffers end at one step from the reset triple. -/
theorem sout1_A_eq (hc0 : cond1_0 i) (hc1 : ¬cond1_1 i) :
    (sout1_A_0 c i a3 h3 a4 h4 a5 h5 a6 h6 a7 h7 a8 h8 a9 h9 hc0 hc1 x0 x1 x2, sout1_A_1 c i a3 h3 a4 h4 a5 h5 a6 h6 a7 h7 a8 h8 a9 h9 hc0 hc1 x0 x1 x2, sout1_A_2 c i a3 h3 a4 h4 a5 h5 a6 h6 a7 h7 a8 h8 a9 h9 hc0 hc1 x0 x1 x2)
      = stepV x0 x1 x2 (initV (F := F)) := by
  rw [sout1_A_0_eq c i a3 h3 a4 h4 a5 h5 a6 h6 a7 h7 a8 h8 a9 h9 x0 x1 x2 hc0 hc1, sout1_A_1_eq c i a3 h3 a4 h4 a5 h5 a6 h6 a7 h7 a8 h8 a9 h9 x0 x1 x2 hc0 hc1, sout1_A_2_eq c i a3 h3 a4 h4 a5 h5 a6 h6 a7 h7 a8 h8 a9 h9 x0 x1 x2 hc0 hc1]
  rfl

end Pieces

/-! ## The recursion over the points in closed form -/

variable (V : (c : Dev nD) → (b : Ref sig .tc) → Buf (Elt F) ((c : Thread nD τ).loc b))

/-- At the first point of a (batch, query tile) the carried triple ends at one step from the reset triple. -/
theorem outsAt1_closed_A (c : Dev nD) (t : Fin cfg1.N) (h0 : t.val % 8 = 0) :
    (outsAt1 V c t.val t.isLt).2 = stepV (iblk1 V c 0 t) (iblk1 V c 1 t) (iblk1 V c 2 t) (initV (F := F)) := by
  have h1 : ¬t.val % 8 = 7 := by omega
  rw [outsAt1_A V c t h0 h1]
  exact sout1_A_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (fun h => h1 ((hcond1_1 t).mp h))

/-- At a later point it ends at one step from what the point before left. -/
theorem outsAt1_closed_BC (c : Dev nD) (t : Fin cfg1.N) (h0 : ¬t.val % 8 = 0) :
    (outsAt1 V c t.val t.isLt).2 = stepV (iblk1 V c 0 t) (iblk1 V c 1 t) (iblk1 V c 2 t) (outsAt1 V c (t.val - 1) (Nat.lt_of_le_of_lt (Nat.sub_le _ _) t.isLt)).2 := by
  by_cases h1 : t.val % 8 = 7
  · rw [outsAt1_C V c t h0 h1]
    exact sout1_C_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)
  · rw [outsAt1_B V c t h0 h1]
    exact sout1_B_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h))

/-- At the last point of a (batch, query tile) the output block holds the point's weighted sum over the point's
    normaliser, transposed. -/
theorem outsAt1_out (c : Dev nD) (t : Fin cfg1.N) (h1 : t.val % 8 = 7) :
    (outsAt1 V c t.val t.isLt).1 = k1_pay3 (outsAt1 V c t.val t.isLt).2.2.2 (outsAt1 V c t.val t.isLt).2.2.1 := by
  have h0 : ¬t.val % 8 = 0 := by omega
  rw [outsAt1_C V c t h0 h1]
  dsimp only
  rw [out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1),
    sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1),
    sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)]
  rfl

end Region1Out

end Cert.KernelIdeal.Hand

end
-- ==== Proof.KernelPayloads1.lean ====
import proofs.«117280_j38989713113557_2_alg».proof.Proof.Gen.KernelIdeal.Skeleton
import proofs.«117280_j38989713113557_2_alg».proof.Proof.LibMatmulPlain
import proofs.«117280_j38989713113557_2_alg».proof.Proof.LibMatmulTN
import proofs.«117280_j38989713113557_2_alg».proof.Proof.LibRowReduce
import proofs.«117280_j38989713113557_2_alg».proof.Proof.LibKeepdims
import proofs.«117280_j38989713113557_2_alg».proof.Proof.LibOnlineSoftmax
import proofs.«117280_j38989713113557_2_alg».proof.Proof.Spec
import Idealize.ShloMosaic.Lib.ValueLayout
import Idealize.ShloMosaic.Lib.Pipeline.Value

/-!
  The position kernel's stored values read at an index, over the extended reals. One grid step reads a block of 1024
  queries, a tile of 512 keys and values, and a running state per query (maximum, normaliser, weighted sum per value
  column), and stores the state after the tile: one step of the online softmax. On the last tile it stores the
  weighted sum over the normaliser, transposed.
-/

noncomputable section

open scoped BigOperators

namespace Cert.DualAttn.Pay

open Cert.KernelIdeal Cert.KernelIdeal.Gen Idealize.ShloMosaic Idealize.ShloMosaic.ValueIdx
open Cert.DualAttn

/-! ## The scores of a block of queries against a tile of keys -/

/-- Row `r` of the query block against key `j` of the tile: `Σ_k q(r,k) · k(j,k)`. -/
theorem k1_pay8_apply (v3 : Vec Ideal S1x1024x64 .bf16) (v5 : Vec Ideal S1x512x64 .bf16) (r : Fin 1024) (j : Fin 512) :
    k1_pay8 (F := Ideal) v3 v5 (ix2 r j) = ∑ k : Fin 64, v3 (ix3 0 r k) * v5 (ix3 0 j k) := by
  unfold k1_pay8
  refine (MatmulPlain.matmul_zero_apply none _ _ (ix2 r j)).trans ?_
  refine Finset.sum_congr rfl fun k _ => ?_
  congr 1
  · exact shapeCast_1ab_ab_apply v3 _ r k
  · refine (transpose_ix2_apply _ _ k j).trans ?_
    exact shapeCast_1ab_ab_apply v5 _ j k

/-! ## One step of the running softmax, piece by piece -/

private theorem ofBits_neg_inf' : Ideal.ofBits .f32 0xFF800000#32 = ⊥ := by simp [Ideal.ofBits, Ideal.ieee]

/-- The new running maximum: the old one against the tile's row maximum. -/
theorem k1_pay9_apply (v3 : Vec Ideal S1x1024x64 .bf16) (v5 : Vec Ideal S1x512x64 .bf16) (v11 : Vec Ideal S1024x1 .f32)
    (r : Fin 1024) :
    k1_pay9 (F := Ideal) v3 v5 v11 (ix2 r (0 : Fin 1))
      = max (v11 (ix2 r (0 : Fin 1))) (Finset.univ.fold max ⊥ (fun j : Fin 512 => k1_pay8 (F := Ideal) v3 v5 (ix2 r j))) := by
  unfold k1_pay9
  refine (maximumf_apply _ _ _).trans ?_
  refine congrArg (max (v11 (ix2 r (0 : Fin 1)))) ?_
  refine (Keepdims.shapeCast_a_a1_apply _ _ r 0).trans ?_
  refine (RowReduce.rowMax_apply _ _ _ _ _ r).trans ?_
  rw [ofBits_neg_inf']

/-- The rescaling factor `exp (m − m')`. -/
theorem k1_pay10_apply (v3 : Vec Ideal S1x1024x64 .bf16) (v5 : Vec Ideal S1x512x64 .bf16) (v11 : Vec Ideal S1024x1 .f32)
    (r : Fin 1024) :
    k1_pay10 (F := Ideal) v3 v5 v11 (ix2 r (0 : Fin 1))
      = Ideal.exp (v11 (ix2 r (0 : Fin 1)) - k1_pay9 (F := Ideal) v3 v5 v11 (ix2 r (0 : Fin 1))) := rfl

/-- The tile's weights `exp (s(r,j) − m')`. -/
theorem k1_pay11_apply (v3 : Vec Ideal S1x1024x64 .bf16) (v5 : Vec Ideal S1x512x64 .bf16) (v11 : Vec Ideal S1024x1 .f32)
    (r : Fin 1024) (j : Fin 512) :
    k1_pay11 (F := Ideal) v3 v5 v11 (ix2 r j)
      = Ideal.exp (k1_pay8 (F := Ideal) v3 v5 (ix2 r j) - k1_pay9 (F := Ideal) v3 v5 v11 (ix2 r (0 : Fin 1))) := by
  unfold k1_pay11
  show Ideal.exp (k1_pay8 (F := Ideal) v3 v5 (ix2 r j) - _) = _
  rw [Keepdims.broadcastTo_a1_ab_apply]

/-- The new running normaliser `exp (m − m') · l + Σ_j exp (s(r,j) − m')`. -/
theorem k1_pay12_apply (v3 : Vec Ideal S1x1024x64 .bf16) (v5 : Vec Ideal S1x512x64 .bf16) (v11 v20 : Vec Ideal S1024x1 .f32)
    (r : Fin 1024) :
    k1_pay12 (F := Ideal) v3 v5 v11 v20 (ix2 r (0 : Fin 1))
      = Ideal.exp (v11 (ix2 r (0 : Fin 1)) - k1_pay9 (F := Ideal) v3 v5 v11 (ix2 r (0 : Fin 1))) * v20 (ix2 r (0 : Fin 1))
        + ∑ j : Fin 512, Ideal.exp (k1_pay8 (F := Ideal) v3 v5 (ix2 r j) - k1_pay9 (F := Ideal) v3 v5 v11 (ix2 r (0 : Fin 1))) := by
  unfold k1_pay12
  refine (congrFun (shapeCast_self _ _) _).trans ?_
  refine (addf_apply _ _ _).trans ?_
  congr 1
  refine (Keepdims.shapeCast_a_a1_apply _ _ r 0).trans ?_
  refine (RowReduce.rowSum_apply _ _ _ _ _ r).trans ?_
  exact Finset.sum_congr rfl fun j _ => k1_pay11_apply v3 v5 v11 r j

/-- The rescaled running weighted sum `exp (m − m') · acc(r,c)`. -/
theorem k1_pay13_apply (v3 : Vec Ideal S1x1024x64 .bf16) (v5 : Vec Ideal S1x512x64 .bf16) (v11 : Vec Ideal S1024x1 .f32)
    (v28 : Vec Ideal S1024x512 .f32) (r : Fin 1024) (c : Fin 512) :
    k1_pay13 (F := Ideal) v3 v5 v11 v28 (ix2 r c)
      = Ideal.exp (v11 (ix2 r (0 : Fin 1)) - k1_pay9 (F := Ideal) v3 v5 v11 (ix2 r (0 : Fin 1))) * v28 (ix2 r c) := by
  unfold k1_pay13
  refine (mulf_apply _ _ _).trans ?_
  congr 1
  exact Keepdims.broadcastTo_a1_ab_apply _ _ r c

/-- The weights again, in the matrix unit's operand format. -/
theorem k1_pay14_apply (v3 : Vec Ideal S1x1024x64 .bf16) (v5 : Vec Ideal S1x512x64 .bf16) (v11 : Vec Ideal S1024x1 .f32)
    (r : Fin 1024) (j : Fin 512) :
    k1_pay14 (F := Ideal) v3 v5 v11 (ix2 r j) = k1_pay11 (F := Ideal) v3 v5 v11 (ix2 r j) := rfl

/-- The value tile as a matrix. -/
theorem k1_pay7_apply (v7 : Vec Ideal S1x512x512 .bf16) (j c : Fin 512) :
    k1_pay7 (F := Ideal) v7 (ix2 j c) = v7 (ix3 0 j c) := by
  unfold k1_pay7
  exact shapeCast_1ab_ab_apply v7 _ j c

/-- The accumulation `acc + w · v` into any accumulator of the matrix unit. -/
theorem k1_pay1_apply (v8 : FVec Ideal S512x512 .bf16) (v30 : FVec Ideal S1024x512 .f32) (v31 : FVec Ideal S1024x512 .bf16)
    (cst : FVec Ideal S1024x512 .f32) (r : Fin 1024) (c : Fin 512) :
    k1_pay1 (F := Ideal) v8 v30 v31 cst (ix2 r c)
      = v30 (ix2 r c) + (cst (ix2 r c) + ∑ j : Fin 512, v31 (ix2 r j) * v8 (ix2 j c)) := by
  unfold k1_pay1
  refine (congrFun (shapeCast_self _ _) _).trans ?_
  refine (addf_apply _ _ _).trans ?_
  congr 1
  exact MatmulPlain.matmul_apply none v31 v8 cst (ix2 r c)

/-- With the zero accumulator. -/
theorem k1_pay1_zero_apply (v8 : FVec Ideal S512x512 .bf16) (v30 : FVec Ideal S1024x512 .f32) (v31 : FVec Ideal S1024x512 .bf16)
    (r : Fin 1024) (c : Fin 512) :
    k1_pay1 (F := Ideal) v8 v30 v31 (constant S1024x512 .f32 0x00000000#32) (ix2 r c)
      = v30 (ix2 r c) + ∑ j : Fin 512, v31 (ix2 r j) * v8 (ix2 j c) := by
  rw [k1_pay1_apply]
  show _ + (Ideal.ofBits .f32 0x00000000#32 + _) = _
  rw [Ideal.ofBits_zero_f32, zero_add]

/-- The new running weighted sum `exp (m − m') · acc(r,c) + Σ_j exp (s(r,j) − m') · v(j,c)`. -/
theorem k1_pay1_step_apply (v3 : Vec Ideal S1x1024x64 .bf16) (v5 : Vec Ideal S1x512x64 .bf16) (v7 : Vec Ideal S1x512x512 .bf16)
    (v11 : Vec Ideal S1024x1 .f32) (v28 : Vec Ideal S1024x512 .f32) (r : Fin 1024) (c : Fin 512) :
    k1_pay1 (F := Ideal) (k1_pay7 v7) (k1_pay13 v3 v5 v11 v28) (k1_pay14 v3 v5 v11) (constant S1024x512 .f32 0x00000000#32) (ix2 r c)
      = Ideal.exp (v11 (ix2 r (0 : Fin 1)) - k1_pay9 (F := Ideal) v3 v5 v11 (ix2 r (0 : Fin 1))) * v28 (ix2 r c)
        + ∑ j : Fin 512, Ideal.exp (k1_pay8 (F := Ideal) v3 v5 (ix2 r j) - k1_pay9 (F := Ideal) v3 v5 v11 (ix2 r (0 : Fin 1)))
            * v7 (ix3 0 j c) := by
  rw [k1_pay1_zero_apply, k1_pay13_apply]
  congr 1
  refine Finset.sum_congr rfl fun j _ => ?_
  rw [k1_pay14_apply, k1_pay11_apply, k1_pay7_apply]

/-- The store of the running maximum is a cast to the same shape. -/
theorem k1_pay2_apply (v14 : FVec Ideal S1024x1 .f32) (j : S1024x1.Idx) : k1_pay2 (F := Ideal) v14 j = v14 j := by
  unfold k1_pay2
  exact congrFun (shapeCast_self _ _) _

/-! ## The reset values and the write-out -/

theorem k1_pay4_apply (j : S1024x1.Idx) : k1_pay4 (F := Ideal) j = ⊥ := by
  unfold k1_pay4
  refine (congrFun (shapeCast_self _ _) _).trans ?_
  exact ofBits_neg_inf'

theorem k1_pay5_apply (j : S1024x1.Idx) : k1_pay5 (F := Ideal) j = 0 := by
  unfold k1_pay5
  refine (congrFun (shapeCast_self _ _) _).trans ?_
  exact Ideal.ofBits_zero_f32

theorem k1_pay6_apply (j : S1024x512.Idx) : k1_pay6 (F := Ideal) j = 0 := by
  unfold k1_pay6
  refine (congrFun (shapeCast_self _ _) _).trans ?_
  exact Ideal.ofBits_zero_f32

/-- The write-out: the weighted sum over the normaliser, transposed to channel-major. -/
theorem k1_pay3_apply (v43 : Vec Ideal S1024x512 .f32) (v44 : Vec Ideal S1024x1 .f32) (c : Fin 512) (r : Fin 1024) :
    k1_pay3 (F := Ideal) v43 v44 (ix3 0 c r) = Ideal.div (v43 (ix2 r c)) (v44 (ix2 r (0 : Fin 1))) := by
  unfold k1_pay3
  refine (shapeCast_ab_1ab_apply _ _ 0 c r).trans ?_
  refine (transpose_ix2_apply _ _ c r).trans ?_
  refine (divf_apply _ _ _).trans ?_
  congr 1
  exact Keepdims.broadcastTo_a1_ab_apply _ _ r c

/-! ## The step as a whole -/

/-- ONE STEP AT ROW `r` AND VALUE COLUMN `c`: the three stored values are the online softmax's step on the tile's scores
    and values from the state read before it. -/
theorem step_row (v3 : Vec Ideal S1x1024x64 .bf16) (v5 : Vec Ideal S1x512x64 .bf16) (v7 : Vec Ideal S1x512x512 .bf16)
    (v11 v20 : Vec Ideal S1024x1 .f32) (v28 : Vec Ideal S1024x512 .f32) (r : Fin 1024) (c : Fin 512) :
    (k1_pay9 (F := Ideal) v3 v5 v11 (ix2 r (0 : Fin 1)),
      k1_pay12 (F := Ideal) v3 v5 v11 v20 (ix2 r (0 : Fin 1)),
      k1_pay1 (F := Ideal) (k1_pay7 v7) (k1_pay13 v3 v5 v11 v28) (k1_pay14 v3 v5 v11) (constant S1024x512 .f32 0x00000000#32) (ix2 r c))
      = Online.step (fun j : Fin 512 => ∑ k : Fin 64, v3 (ix3 0 r k) * v5 (ix3 0 j k)) (fun j : Fin 512 => v7 (ix3 0 j c))
          (v11 (ix2 r (0 : Fin 1)), v20 (ix2 r (0 : Fin 1)), v28 (ix2 r c)) := by
  rw [k1_pay12_apply, k1_pay1_step_apply, k1_pay9_apply]
  simp only [k1_pay8_apply]
  rfl

end Cert.DualAttn.Pay

end
-- ==== Proof.KI.Fold1.lean ====
/-
  The position-attention kernel's carried triple at one query row and one value column: one vector-level step is one
  step of the online softmax on that row's scores against the tile's keys and that column's values, from the triple's
  entries; the reset triple is (minus infinity, 0, 0) there.
-/
import proofs.«117280_j38989713113557_2_alg».proof.Proof.KI.Region1Step
import proofs.«117280_j38989713113557_2_alg».proof.Proof.KernelPayloads1
import proofs.«117280_j38989713113557_2_alg».proof.Proof.LibOnlineSoftmax

noncomputable section

open scoped BigOperators

namespace Cert.KernelIdeal.Hand

open Cert.KernelIdeal Cert.KernelIdeal.Gen Idealize.ShloMosaic Idealize.ShloMosaic.ValueIdx
open Cert.DualAttn

/-- The entries of a carried triple at query row `r` and value column `ch`. -/
def rowOf (s : Vec Ideal S1024x1 .f32 × Vec Ideal S1024x1 .f32 × Vec Ideal S1024x512 .f32) (r : Fin 1024) (ch : Fin 512) :
    EReal × EReal × EReal :=
  (s.1 (ix2 r (0 : Fin 1)), s.2.1 (ix2 r (0 : Fin 1)), s.2.2 (ix2 r ch))

/-- One vector-level step, read at a row and a column, is the online softmax's step there. -/
theorem stepV_row (x0 : Vec Ideal S1x1024x64 .bf16) (x1 : Vec Ideal S1x512x64 .bf16) (x2 : Vec Ideal S1x512x512 .bf16)
    (s : Vec Ideal S1024x1 .f32 × Vec Ideal S1024x1 .f32 × Vec Ideal S1024x512 .f32) (r : Fin 1024) (ch : Fin 512) :
    rowOf (stepV (F := Ideal) x0 x1 x2 s) r ch
      = Online.step (fun j : Fin 512 => ∑ k : Fin 64, x0 (ix3 0 r k) * x1 (ix3 0 j k)) (fun j : Fin 512 => x2 (ix3 0 j ch))
          (rowOf s r ch) := by
  unfold rowOf stepV
  dsimp only
  rw [Pay.k1_pay2_apply]
  exact Pay.step_row x0 x1 x2 s.1 s.2.1 s.2.2 r ch

/-- The reset triple at a row and a column. -/
theorem initV_row (r : Fin 1024) (ch : Fin 512) : rowOf (initV (F := Ideal)) r ch = ((⊥ : EReal), (0 : EReal), (0 : EReal)) := by
  unfold rowOf initV
  dsimp only
  rw [Pay.k1_pay4_apply, Pay.k1_pay5_apply, Pay.k1_pay6_apply]

end Cert.KernelIdeal.Hand

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.Glue.lean ====
/-
  Pure mathematics between the online softmax and the specification of the dual attention block.

  * `pam_row`: on a row of 4096 real scores and 4096 real values, read in 8 tiles of 512, the
    online softmax's quotient a / l is the sum of the values weighted by the specification's softmax.
  * `gram_tiles`, `accT_three`: a sum over 4096 terms accumulated from zero in four runs of 1024
    is the whole sum (addition of extended reals is commutative and associative, infinities included).
  * `proj_real`, `score_real`, `aa_real`: from real inputs the specification's projections, scores
    and Gram matrix are real (finite sums of products of reals).
-/
import proofs.«117280_j38989713113557_2_alg».proof.Proof.Spec
import proofs.«117280_j38989713113557_2_alg».proof.Proof.LibOnlineSoftmax
import proofs.«117280_j38989713113557_2_alg».proof.Proof.LibFinite
import proofs.«117280_j38989713113557_2_alg».proof.Proof.LibSumRegroup

open Idealize.ShloMosaic
open scoped BigOperators

noncomputable section

namespace Cert.DualAttn.Glue

/-! ### The online softmax of a row against the specification's softmax -/

/-- A row of 4096 real scores `s` and real values `d`, read in 8 tiles of 512: the online quotient
    a / l is `Σ_n d n * soft s n`. -/
theorem pam_row (s d : Fin 4096 → EReal) (hs : ∀ n, ∃ r : ℝ, s n = (r : EReal))
    (hd : ∀ n, ∃ r : ℝ, d n = (r : EReal)) :
    Ideal.div
        (Online.run (fun (k : Fin 8) (j : Fin 512) => s (Online.tile 8 512 4096 (by norm_num) k j))
          (fun k j => d (Online.tile 8 512 4096 (by norm_num) k j)) 8).2.2
        (Online.run (fun (k : Fin 8) (j : Fin 512) => s (Online.tile 8 512 4096 (by norm_num) k j))
          (fun k j => d (Online.tile 8 512 4096 (by norm_num) k j)) 8).2.1
      = ∑ n : Fin 4096, d n * Spec.soft s n := by
  choose sr hsr using hs
  choose dr hdr using hd
  obtain rfl : s = fun n => ((sr n : ℝ) : EReal) := funext hsr
  obtain rfl : d = fun n => ((dr n : ℝ) : EReal) := funext hdr
  exact Online.online_eq' 8 512 4096 (by norm_num) (by norm_num) (by norm_num) sr dr

/-! ### A sum of 4096 terms accumulated in four runs of 1024 -/

/-- A sum over a row of N = K * T terms is the sum over the K runs of the sums over each run of T. -/
theorem sum_tile_gen {M : Type*} [AddCommMonoid M] {K T N : ℕ} (hN : N = K * T) (g : Fin N → M) :
    ∑ n, g n = ∑ k : Fin K, ∑ j : Fin T, g (Online.tile K T N hN k j) := by
  subst hN
  rw [← Equiv.sum_comp finProdFinEquiv g, Fintype.sum_prod_type]
  refine Finset.sum_congr rfl fun k _ => Finset.sum_congr rfl fun j _ => ?_
  congr 1
  apply Fin.ext
  show j.val + T * k.val = k.val * T + j.val
  ring

/-- The sum of `f` over the k-th run of 1024 terms, k < 4. -/
def tileSum (f : Fin 4096 → EReal) (k : ℕ) (hk : k < 4) : EReal :=
  ∑ n : Fin 1024, f ⟨k * 1024 + n.val, by have := n.isLt; omega⟩

/-- The four runs, accumulated from zero in order, are the whole sum. -/
theorem gram_tiles (f : Fin 4096 → EReal) :
    (((0 + tileSum f 0 (by norm_num)) + tileSum f 1 (by norm_num)) + tileSum f 2 (by norm_num))
        + tileSum f 3 (by norm_num)
      = ∑ n : Fin 4096, f n := by
  rw [sum_tile_gen (show 4096 = 4 * 1024 by norm_num) f, Fin.sum_univ_four, zero_add]
  rfl

/-- The k-th run's sum for any natural k: zero past the fourth run. -/
def tileSumN (f : Fin 4096 → EReal) (k : ℕ) : EReal :=
  if h : k < 4 then tileSum f k h else 0

theorem tileSumN_of_lt (f : Fin 4096 → EReal) (k : ℕ) (h : k < 4) : tileSumN f k = tileSum f k h := by
  unfold tileSumN
  rw [dif_pos h]

/-- The accumulator after run k: it starts as zero plus the first run, and each further run is added. -/
def accT (f : Fin 4096 → EReal) : ℕ → EReal
  | 0 => 0 + tileSumN f 0
  | k + 1 => accT f k + tileSumN f (k + 1)

/-- After the fourth run the accumulator is the whole sum. -/
theorem accT_three (f : Fin 4096 → EReal) : accT f 3 = ∑ n : Fin 4096, f n := by
  rw [← gram_tiles f]
  show ((0 + tileSumN f 0 + tileSumN f 1) + tileSumN f 2) + tileSumN f 3 = _
  rw [tileSumN_of_lt f 0 (by norm_num), tileSumN_of_lt f 1 (by norm_num),
    tileSumN_of_lt f 2 (by norm_num), tileSumN_of_lt f 3 (by norm_num)]

/-! ### Real inputs give real projections, scores and Gram matrix -/

theorem xf_real (x : Spec.Feat) (hx : ∀ i, ∃ r : ℝ, x i = (r : EReal)) (b : Fin 4) (n : Fin 4096)
    (c : Fin 512) : ∃ r : ℝ, Spec.xf x b n c = (r : EReal) := by
  unfold Spec.xf
  exact hx _

theorem proj_real {K : ℕ} (x : Spec.Feat) (w : Spec.Wt K) (hx : ∀ i, ∃ r : ℝ, x i = (r : EReal))
    (hw : ∀ i, ∃ r : ℝ, w i = (r : EReal)) (b : Fin 4) (n : Fin 4096) (k : Fin K) :
    ∃ r : ℝ, Spec.proj x w b n k = (r : EReal) := by
  unfold Spec.proj
  exact LibFinite.IsFin.sum _ _ fun c _ => LibFinite.IsFin.mul (xf_real x hx b n c) (hw _)

theorem score_real (x : Spec.Feat) (w1 w2 : Spec.Wt 64) (hx : ∀ i, ∃ r : ℝ, x i = (r : EReal))
    (hw1 : ∀ i, ∃ r : ℝ, w1 i = (r : EReal)) (hw2 : ∀ i, ∃ r : ℝ, w2 i = (r : EReal)) (b : Fin 4)
    (i j : Fin 4096) : ∃ r : ℝ, Spec.score x w1 w2 b i j = (r : EReal) := by
  unfold Spec.score
  exact LibFinite.IsFin.sum _ _ fun k _ =>
    LibFinite.IsFin.mul (proj_real x w1 hx hw1 b i k) (proj_real x w2 hx hw2 b j k)

theorem aa_real (x : Spec.Feat) (hx : ∀ i, ∃ r : ℝ, x i = (r : EReal)) (b : Fin 4) (i j : Fin 512) :
    ∃ r : ℝ, Spec.aa x b i j = (r : EReal) := by
  unfold Spec.aa
  exact LibFinite.IsFin.sum _ _ fun n _ => LibFinite.IsFin.mul (xf_real x hx b n i) (xf_real x hx b n j)

end Cert.DualAttn.Glue

end
-- ==== Proof.KI.Final1.lean ====
/-
  From blocks to the array for the position-attention region, over the extended reals. A grid point
  `t = 32·b + 8·qi + ki` works on batch `b`, the block of 1024 queries `qi` and the tile of 512 keys `ki`; between the
  eight key tiles of a query block the kernel carries, per query row, a running maximum, a running normaliser and a
  running weighted sum of the values. Read at one query row and one value column, one point's update of that triple is
  one step of the online softmax over the tile's scores and values, so after the eighth tile the triple is the online
  softmax's state over all 4096 keys. The block written back at `ki = 7` divides the weighted sum by the normaliser,
  which for real scores and values is the sum of the values weighted by the softmax of the scores; the write-backs of
  the sixteen query blocks tile the output array.
-/
import proofs.«117280_j38989713113557_2_alg».proof.Proof.KI.Region1
import proofs.«117280_j38989713113557_2_alg».proof.Proof.KI.Region1Out
import proofs.«117280_j38989713113557_2_alg».proof.Proof.KI.Fold1
import proofs.«117280_j38989713113557_2_alg».proof.Proof.KI.Final03
import proofs.«117280_j38989713113557_2_alg».proof.Proof.KernelPayloads1
import proofs.«117280_j38989713113557_2_alg».proof.Proof.LibOnlineSoftmax
import proofs.«117280_j38989713113557_2_alg».proof.Proof.Glue
import proofs.«117280_j38989713113557_2_alg».proof.Proof.LibFinite
import proofs.«117280_j38989713113557_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.DualAttn

variable (V : (c : Dev nD) → (b : Ref sig .tc) → Buf (Elt Ideal) ((c : Thread nD τ).loc b))

/-- The block index maps of the position-attention region's windows, decided over the grid: batch `t / 32`; the
    query block and the output block at query block `t / 8 % 4`; the key and value tiles at tile `t % 8`. -/
theorem idx_facts1 : ∀ t : Fin cfg1.N,
    win1_0.index t (0 : Fin 3) = t.val / 32 ∧ win1_0.index t (1 : Fin 3) = t.val / 8 % 4 ∧ win1_0.index t (2 : Fin 3) = 0
    ∧ win1_1.index t (0 : Fin 3) = t.val / 32 ∧ win1_1.index t (1 : Fin 3) = t.val % 8 ∧ win1_1.index t (2 : Fin 3) = 0
    ∧ win1_2.index t (0 : Fin 3) = t.val / 32 ∧ win1_2.index t (1 : Fin 3) = t.val % 8 ∧ win1_2.index t (2 : Fin 3) = 0
    ∧ win1_3.index t (0 : Fin 3) = t.val / 32 ∧ win1_3.index t (1 : Fin 3) = 0 ∧ win1_3.index t (2 : Fin 3) = t.val / 8 % 4 :=
  (by decide +kernel : ∀ t : Fin grid1.N, _)

/-- The query window's block at point `t`. -/
theorem qblk1_apply (c : Dev nD) (t : Fin cfg1.N) (x : S1x1024x64.Idx) (k : S4x4096x64.Idx)
    (hk0 : (k 0).val = t.val / 32) (hk1 : (k 1).val = t.val / 8 % 4 * 1024 + (x 1).val) (hk2 : (k 2).val = (x 2).val) :
    (iblk1 V c 0 t : Vec Ideal S1x1024x64 .bf16) x = asArr S4x4096x64 (V c main_v5_0) k := by
  obtain ⟨e00, e01, e02, e10, e11, e12, e20, e21, e22, -⟩ := idx_facts1 t
  unfold iblk1
  rw [View.read_apply]
  show V c main_v5_0 _ = V c main_v5_0 _
  congr 1
  funext a
  apply Fin.ext
  have hx0 : (x 0).val < 1 := (x 0).isLt
  match a with
  | ⟨0, _⟩ => show win1_0.index t (0 : Fin 3) * 1 + 1 * (x 0).val = (k 0).val; omega
  | ⟨1, _⟩ => show win1_0.index t (1 : Fin 3) * 1024 + 1 * (x 1).val = (k 1).val; omega
  | ⟨2, _⟩ => show win1_0.index t (2 : Fin 3) * 64 + 1 * (x 2).val = (k 2).val; omega

/-- The key window's block at point `t`. -/
theorem kblk1_apply (c : Dev nD) (t : Fin cfg1.N) (x : S1x512x64.Idx) (k : S4x4096x64.Idx)
    (hk0 : (k 0).val = t.val / 32) (hk1 : (k 1).val = t.val % 8 * 512 + (x 1).val) (hk2 : (k 2).val = (x 2).val) :
    (iblk1 V c 1 t : Vec Ideal S1x512x64 .bf16) x = asArr S4x4096x64 (V c main_v5_1) k := by
  obtain ⟨e00, e01, e02, e10, e11, e12, e20, e21, e22, -⟩ := idx_facts1 t
  unfold iblk1
  rw [View.read_apply]
  show V c main_v5_1 _ = V c main_v5_1 _
  congr 1
  funext a
  apply Fin.ext
  have hx0 : (x 0).val < 1 := (x 0).isLt
  match a with
  | ⟨0, _⟩ => show win1_1.index t (0 : Fin 3) * 1 + 1 * (x 0).val = (k 0).val; omega
  | ⟨1, _⟩ => show win1_1.index t (1 : Fin 3) * 512 + 1 * (x 1).val = (k 1).val; omega
  | ⟨2, _⟩ => show win1_1.index t (2 : Fin 3) * 64 + 1 * (x 2).val = (k 2).val; omega

/-- The value window's block at point `t`. -/
theorem vblk1_apply (c : Dev nD) (t : Fin cfg1.N) (x : S1x512x512.Idx) (k : S4x4096x512.Idx)
    (hk0 : (k 0).val = t.val / 32) (hk1 : (k 1).val = t.val % 8 * 512 + (x 1).val) (hk2 : (k 2).val = (x 2).val) :
    (iblk1 V c 2 t : Vec Ideal S1x512x512 .bf16) x = asArr S4x4096x512 (V c main_v5_2) k := by
  obtain ⟨e00, e01, e02, e10, e11, e12, e20, e21, e22, -⟩ := idx_facts1 t
  unfold iblk1
  rw [View.read_apply]
  show V c main_v5_2 _ = V c main_v5_2 _
  congr 1
  funext a
  apply Fin.ext
  have hx0 : (x 0).val < 1 := (x 0).isLt
  match a with
  | ⟨0, _⟩ => show win1_2.index t (0 : Fin 3) * 1 + 1 * (x 0).val = (k 0).val; omega
  | ⟨1, _⟩ => show win1_2.index t (1 : Fin 3) * 512 + 1 * (x 1).val = (k 1).val; omega
  | ⟨2, _⟩ => show win1_2.index t (2 : Fin 3) * 512 + 1 * (x 2).val = (k 2).val; omega

/-! ## One query row and one value column -/

theorem tile8 : 4096 = 8 * 512 := by norm_num

/-- The scores of query `i` of batch `b` against every key. -/
def scoreF (c : Dev nD) (b : Fin 4) (i : Fin 4096) : Fin 4096 → EReal := fun n =>
  ∑ k : Fin 64, asArr S4x4096x64 (V c main_v5_0) (ix3 b i k) * asArr S4x4096x64 (V c main_v5_1) (ix3 b n k)
/-- Column `ch` of the values of batch `b`. -/
def valF (c : Dev nD) (b : Fin 4) (ch : Fin 512) : Fin 4096 → EReal := fun n =>
  asArr S4x4096x512 (V c main_v5_2) (ix3 b n ch)
/-- A row of 4096 entries read as eight tiles of 512. -/
abbrev tiled (f : Fin 4096 → EReal) : Fin 8 → Fin 512 → EReal := fun k j => f (Online.tile 8 512 4096 tile8 k j)
/-- Query `r` of query block `qi`. -/
def qrow (qi : Fin 4) (r : Fin 1024) : Fin 4096 := ⟨qi.val * 1024 + r.val, by have := qi.isLt; have := r.isLt; omega⟩

/-- The two arguments of a point's step at a row and a column are the point's tile of the scores and of the values. -/
theorem step_args (c : Dev nD) (b qi : Fin 4) (r : Fin 1024) (ch : Fin 512) (t : Fin cfg1.N)
    (hb : t.val / 32 = b.val) (hq : t.val / 8 % 4 = qi.val) (ki : Fin 8) (hk : t.val % 8 = ki.val)
    (x0 : Vec Ideal S1x1024x64 .bf16) (x1 : Vec Ideal S1x512x64 .bf16) (x2 : Vec Ideal S1x512x512 .bf16)
    (h0 : x0 = iblk1 V c 0 t) (h1 : x1 = iblk1 V c 1 t) (h2 : x2 = iblk1 V c 2 t) :
    (fun j : Fin 512 => ∑ k : Fin 64, x0 (ix3 0 r k) * x1 (ix3 0 j k)) = tiled (scoreF V c b (qrow qi r)) ki
    ∧ (fun j : Fin 512 => x2 (ix3 0 j ch)) = tiled (valF V c b ch) ki := by
  subst h0 h1 h2
  refine ⟨funext fun j => ?_, funext fun j => ?_⟩
  · unfold scoreF
    refine Finset.sum_congr rfl fun k _ => ?_
    refine congrArg₂ (fun a b : EReal => a * b) ?_ ?_
    · refine qblk1_apply V c t _ _ hb.symm ?_ rfl
      show qi.val * 1024 + r.val = t.val / 8 % 4 * 1024 + r.val
      rw [hq]
    · refine kblk1_apply V c t _ _ hb.symm ?_ rfl
      show ki.val * 512 + j.val = t.val % 8 * 512 + j.val
      rw [hk]
  · unfold valF
    refine vblk1_apply V c t _ _ hb.symm ?_ rfl
    show ki.val * 512 + j.val = t.val % 8 * 512 + j.val
    rw [hk]

/-- The carried triple after the point at tile `ki` of query block `qi` of batch `b`, read at query row `r` and value
    column `ch`, is the online softmax's state after the tiles `0 … ki`. -/
theorem row_run (c : Dev nD) (b qi : Fin 4) (r : Fin 1024) (ch : Fin 512) : ∀ (ki : ℕ) (t : Fin cfg1.N),
    t.val / 32 = b.val → t.val / 8 % 4 = qi.val → t.val % 8 = ki →
    rowOf (outsAt1 V c t.val t.isLt).2 r ch
      = Online.run (tiled (scoreF V c b (qrow qi r))) (tiled (valF V c b ch)) (ki + 1)
  | 0, t, hb, hq, hk => by
    obtain ⟨e1, e2⟩ := step_args V c b qi r ch t hb hq ⟨0, by norm_num⟩ hk (iblk1 V c 0 t) (iblk1 V c 1 t) (iblk1 V c 2 t) rfl rfl rfl
    refine (congrArg (fun s => rowOf s r ch) (outsAt1_closed_A V c t hk)).trans ?_
    refine (stepV_row _ _ _ _ r ch).trans ?_
    refine (congrArg₂ (fun s d => Online.step s d (rowOf (initV (F := Ideal)) r ch)) e1 e2).trans ?_
    rw [initV_row, Online.run_succ _ _ 0 (by norm_num), Online.run_zero]
  | ki + 1, t, hb, hq, hk => by
    have h0 : ¬ t.val % 8 = 0 := by omega
    have hk8 : ki + 1 < 8 := by have := Nat.mod_lt t.val (show 0 < 8 by norm_num); omega
    have hlt : t.val - 1 < cfg1.N := Nat.lt_of_le_of_lt (Nat.sub_le _ _) t.isLt
    obtain ⟨e1, e2⟩ := step_args V c b qi r ch t hb hq ⟨ki + 1, hk8⟩ hk (iblk1 V c 0 t) (iblk1 V c 1 t) (iblk1 V c 2 t) rfl rfl rfl
    have ih := row_run c b qi r ch ki ⟨t.val - 1, hlt⟩ (by show (t.val - 1) / 32 = b.val; omega)
      (by show (t.val - 1) / 8 % 4 = qi.val; omega) (by show (t.val - 1) % 8 = ki; omega)
    refine (congrArg (fun s => rowOf s r ch) (outsAt1_closed_BC V c t h0)).trans ?_
    refine (stepV_row _ _ _ _ r ch).trans ?_
    rw [show rowOf (outsAt1 V c (t.val - 1) _).2 r ch = _ from ih]
    refine (congrArg₂ (fun s d => Online.step s d _) e1 e2).trans ?_
    exact (Online.run_succ _ _ (ki + 1) hk8).symm

/-! ## The output array -/

/-- Entry `(b, ch, i)`: the values of column `ch` weighted by the softmax of query `i`'s scores. -/
def entry1 (c : Dev nD) (b : Fin 4) (ch : Fin 512) (i : Fin 4096) : EReal :=
  ∑ n : Fin 4096, valF V c b ch n * Spec.soft (scoreF V c b i) n

theorem entry1_congr (c : Dev nD) {b b' : Fin 4} {ch ch' : Fin 512} {i i' : Fin 4096} (hb : b = b') (hc : ch = ch') (hi : i = i') :
    entry1 V c b ch i = entry1 V c b' ch' i' := by subst hb hc hi; rfl

/-- What the output array ends holding. -/
def G1_3 (c : Dev nD) : S4x512x4096.Idx → EReal := fun p => entry1 V c (p 0 : Fin 4) (p 1 : Fin 512) (p 2 : Fin 4096)

section Real

variable (c : Dev nD)
  (hq : ∀ i, ∃ r : ℝ, asArr S4x4096x64 (V c main_v5_0) i = (r : EReal))
  (hk : ∀ i, ∃ r : ℝ, asArr S4x4096x64 (V c main_v5_1) i = (r : EReal))
  (hv : ∀ i, ∃ r : ℝ, asArr S4x4096x512 (V c main_v5_2) i = (r : EReal))

include hq hk hv

/-- The block written back at the last key tile of query block `qi` of batch `b`, at an entry: with real queries, keys
    and values the weighted sum over the normaliser is the softmax-weighted sum of the values. -/
theorem out_blk_at (b qi : Fin 4) (t : Fin cfg1.N) (hb : t.val / 32 = b.val) (hqi : t.val / 8 % 4 = qi.val) (h7 : t.val % 8 = 7)
    (y : S1x512x1024.Idx) :
    ((outsAt1 V c t.val t.isLt).1 : Vec Ideal S1x512x1024 .f32) y = entry1 V c b (y 1 : Fin 512) (qrow qi (y 2 : Fin 1024)) := by
  refine (congrArg ((outsAt1 V c t.val t.isLt).1 : Vec Ideal S1x512x1024 .f32) (eq_ix3_one y)).trans ?_
  refine (congrFun (outsAt1_out V c t h7) _).trans ?_
  refine (Pay.k1_pay3_apply _ _ (y 1) (y 2)).trans ?_
  have hrow := row_run V c b qi (y 2) (y 1) 7 t hb hqi h7
  show Ideal.div (rowOf (outsAt1 V c t.val t.isLt).2 (y 2) (y 1)).2.2 (rowOf (outsAt1 V c t.val t.isLt).2 (y 2) (y 1)).2.1 = _
  rw [hrow]
  exact Glue.pam_row (scoreF V c b (qrow qi (y 2))) (valF V c b (y 1))
    (fun n => LibFinite.IsFin.sum _ _ fun k _ => LibFinite.IsFin.mul (hq _) (hk _)) (fun n => hv _)

/-- What a writing point `t` writes back to the output array is block `t` of `G1_3`. -/
theorem flushed1_3_eq (t : Fin cfg1.N) (hf : (cfg1.win 3).flush t = true) :
    (dat1 V c).flushed 3 t = ((cfg1.win 3).blk t).view.read (Elt Ideal) (G1_3 V c) := by
  have h7 : t.val % 8 = 7 := (flush1_3 t).mp hf
  have hN : cfg1.N = 128 := N_1
  have htl : t.val < cfg1.N := t.isLt
  obtain ⟨-, -, -, -, -, -, -, -, -, e30, e31, e32⟩ := idx_facts1 t
  show (cfg1.win 3).cut (grid1.coords t) ((dat1 V c).after 3 t) = _
  rw [after1_3]
  funext y
  show ((outsAt1 V c t.val t.isLt).1 : Vec Ideal S1x512x1024 .f32) y = G1_3 V c (((cfg1.win 3).blk t).view.emb y)
  rw [out_blk_at V c hq hk hv ⟨t.val / 32, by omega⟩ ⟨t.val / 8 % 4, by omega⟩ t rfl rfl h7 y]
  have hy0 : (y 0).val < 1 := (y 0).isLt
  unfold G1_3
  refine entry1_congr V c (Fin.ext ?_) (Fin.ext ?_) (Fin.ext ?_)
  · show t.val / 32 = win1_3.index t (0 : Fin 3) * 1 + 1 * (y 0).val; omega
  · show (y 1).val = win1_3.index t (1 : Fin 3) * 512 + 1 * (y 1).val; omega
  · show t.val / 8 % 4 * 1024 + (y 2).val = win1_3.index t (2 : Fin 3) * 1024 + 1 * (y 2).val; omega

omit hq hk hv in
/-- An index of the output array is in point `t`'s block iff each coordinate is in the block's range on its axis. -/
theorem mem_blk1_3 (t : Fin cfg1.N) (p : S4x512x4096.Idx) :
    p ∈ ((cfg1.win 3).blk t).view.set ↔ ∀ a : Fin 3, win1_3.index t a * S1x512x1024.size a ≤ (p a).val ∧ (p a).val < win1_3.index t a * S1x512x1024.size a + S1x512x1024.size a := by
  show p ∈ ((View.whole main_v6).slice (win1_3.rect t)).set ↔ _
  rw [View.set_slice_whole, Rect.mem_set_unit]
  exact Iff.rfl

omit hq hk hv in
/-- Every entry of the output array is in the block written back at the last key tile of its batch and query block. -/
theorem tile1_3 (p : S4x512x4096.Idx) : ∃ t : Fin cfg1.N, (cfg1.win 3).flush t = true ∧ p ∈ ((cfg1.win 3).blk t).view.set := by
  have hp0 : (p 0).val < 4 := (p 0).isLt
  have hp1 : (p 1).val < 512 := (p 1).isLt
  have hp2 : (p 2).val < 4096 := (p 2).isLt
  have hN : cfg1.N = 128 := N_1
  let t : Fin cfg1.N := ⟨(p 0).val * 32 + (p 2).val / 1024 * 8 + 7, by omega⟩
  have ht : t.val = (p 0).val * 32 + (p 2).val / 1024 * 8 + 7 := rfl
  obtain ⟨-, -, -, -, -, -, -, -, -, e30, e31, e32⟩ := idx_facts1 t
  refine ⟨t, (flush1_3 t).mpr (by omega), ?_⟩
  rw [mem_blk1_3]
  intro a
  match a with
  | ⟨0, _⟩ => show win1_3.index t (0 : Fin 3) * 1 ≤ (p 0).val ∧ (p 0).val < win1_3.index t (0 : Fin 3) * 1 + 1; omega
  | ⟨1, _⟩ => show win1_3.index t (1 : Fin 3) * 512 ≤ (p 1).val ∧ (p 1).val < win1_3.index t (1 : Fin 3) * 512 + 512; omega
  | ⟨2, _⟩ => show win1_3.index t (2 : Fin 3) * 1024 ≤ (p 2).val ∧ (p 2).val < win1_3.index t (2 : Fin 3) * 1024 + 1024; omega

/-- The output array at the region's exit. -/
theorem final1_3_arr : (dat1 V c).arrAt 3 cfg1.N = G1_3 V c :=
  (dat1 V c).arrAt_eq_of_cover 3 (G1_3 V c) (fun t hf => flushed1_3_eq V c hq hk hv t hf) tile1_3

end Real

/-- With real queries, keys and values, entry (b, ch, i) of the region's output array is the softmax-weighted sum over
    all 4096 keys n of value (n, ch), the weights the softmax over n of the scores of query i against key n. -/
theorem final1_3 (c : Dev nD)
    (hq : ∀ i, ∃ r : ℝ, asArr S4x4096x64 (V c main_v5_0) i = (r : EReal))
    (hk : ∀ i, ∃ r : ℝ, asArr S4x4096x64 (V c main_v5_1) i = (r : EReal))
    (hv : ∀ i, ∃ r : ℝ, asArr S4x4096x512 (V c main_v5_2) i = (r : EReal))
    (b : Fin 4) (ch : Fin 512) (i : Fin 4096) :
    (dat1 V c).arrAt 3 cfg1.N (ix3 b ch i)
      = ∑ n : Fin 4096, asArr S4x4096x512 (V c main_v5_2) (ix3 b n ch)
          * Spec.soft (fun n' : Fin 4096 => ∑ k : Fin 64, asArr S4x4096x64 (V c main_v5_0) (ix3 b i k) * asArr S4x4096x64 (V c main_v5_1) (ix3 b n' k)) n := by
  rw [final1_3_arr V c hq hk hv]
  rfl

end Cert.KernelIdeal.Hand

end
-- ==== Proof.KI.Region2Out.lean ====
/-
  The Gram-matrix reduction kernel's output block in closed form, at any float instance: the reset case leaves the zero
  block plus the Gram product of the point's rows block, the adding case what the point before left plus that product;
  so the block after each point is given by that recursion on the point within its batch, with no staging buffer left
  in the statement.
-/
import proofs.«117280_j38989713113557_2_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2Out

variable (V : (c : Dev nD) → (b : Ref sig .tc) → Buf (Elt F) ((c : Thread nD τ).loc b))

/-! ## The two cases' contents as functions of the blocks -/

theorem hz3 : (![0, 0, 0] : Fin 3 → Nat) = fun _ => 0 := funext fun a => by fin_cases a <;> rfl

/-- The adding case leaves, in the output's buffer holding `xo`, the sum of `xo` and the Gram product of the rows block
    `x`: its one covering store's payload, whose loads read the whole buffers. -/
theorem out2_B_1_eq (c : Dev nD) (i : grid2.Coords) (a2 : Memref sig .tc .vmem S1x1024x512 .bf16) (h2 : a2.IsWhole)
    (a3 : Memref sig .tc .vmem S1x512x512 .f32) (h3 : a3.IsWhole) (hc : ¬cond2_0 i)
    (x : Vec F S1x1024x512 .bf16) (xo : Vec F S1x512x512 .f32) :
    out2_B_1 c i a2 h2 a3 h3 hc x xo = k2_pay2 x xo := by
  unfold out2_B_1
  rw [View.read_writes_eq_canon _ _ _ (cover2_B_1 c i a2 h2 a3 h3 hc x xo)]
  unfold kernelRun2_B
  dsimp only
  rw [View.canon_unit_zero hz3]
  simp only [View.readAt_eq_ld, h2.read_unread, h3.read_unread, View.ld_unit_zero (S := S1x1024x512) hz3, View.ld_unit_zero (S := S1x512x512) hz3]

/-- The reset case leaves the sum of the zero block and the Gram product of the rows block `x`: the zero block is stored,
    read back, and the sum stored over it. -/
theorem out2_A_1_eq (c : Dev nD) (i : grid2.Coords) (a2 : Memref sig .tc .vmem S1x1024x512 .bf16) (h2 : a2.IsWhole)
    (a3 : Memref sig .tc .vmem S1x512x512 .f32) (h3 : a3.IsWhole) (hc : cond2_0 i)
    (x : Vec F S1x1024x512 .bf16) :
    out2_A_1 c i a2 h2 a3 h3 hc x = k2_pay2 x (k2_pay1 (F := F)) := by
  unfold out2_A_1
  rw [View.read_writes_eq_canon _ _ _ (cover2_A_1 c i a2 h2 a3 h3 hc x)]
  unfold kernelRun2_A
  dsimp only
  sl_unfold_words
  rw [View.canon_cons_unit_zero (S := S1x512x512) hz3, View.readCov_unit_zero (S := S1x512x512) _ hz3]
  simp only [View.readAt_eq_ld, h2.read_unread, View.ld_unit_zero (S := S1x1024x512) hz3]

/-! ## The accumulation in closed form -/

/-- At the first point of a batch the output's buffer ends at the zero block plus the point's Gram product. -/
theorem outsAt2_closed_A (c : Dev nD) (t : Fin cfg2.N) (h0 : t.val % 4 = 0) :
    outsAt2 V c t.val t.isLt = k2_pay2 (iblk2 V c 0 t) (k2_pay1 (F := F)) :=
  (outsAt2_A V c t h0).trans (out2_A_1_eq c (grid2.coords t) (ms2_0 t) (hs2_0 t) (ms2_1 t) (hs2_1 t) ((hcond2_0 t).mpr h0) (iblk2 V c 0 t))

/-- At a later point of a batch it ends at what the point before left plus the point's Gram product. -/
theorem outsAt2_closed_B (c : Dev nD) (t : Fin cfg2.N) (h0 : ¬t.val % 4 = 0) :
    outsAt2 V c t.val t.isLt = k2_pay2 (iblk2 V c 0 t) (outsAt2 V c (t.val - 1) (Nat.lt_of_le_of_lt (Nat.sub_le _ _) t.isLt)) :=
  (outsAt2_B V c t h0).trans (out2_B_1_eq c (grid2.coords t) (ms2_0 t) (hs2_0 t) (ms2_1 t) (hs2_1 t) (fun h => h0 ((hcond2_0 t).mp h)) (iblk2 V c 0 t) _)

/-- Both at once. -/
theorem outsAt2_closed (c : Dev nD) (t : Fin cfg2.N) :
    outsAt2 V c t.val t.isLt =
      if t.val % 4 = 0 then k2_pay2 (iblk2 V c 0 t) (k2_pay1 (F := F))
      else k2_pay2 (iblk2 V c 0 t) (outsAt2 V c (t.val - 1) (Nat.lt_of_le_of_lt (Nat.sub_le _ _) t.isLt)) := by
  by_cases h0 : t.val % 4 = 0
  · rw [if_pos h0]; exact outsAt2_closed_A V c t h0
  · rw [if_neg h0]; exact outsAt2_closed_B V c t h0

end Region2Out

end Cert.KernelIdeal.Hand

end
-- ==== Proof.KI.Final2.lean ====
/-
  From blocks to the array for the Gram-matrix reduction region, over the extended reals. A grid point `t = 4·b + r`
  adds to the output block the Gram product of rows `1024·r … 1024·r + 1023` of batch `b` of the bf16 input; the block
  starts from zero at `r = 0` and is written back only at `r = 3`. Unfolding the four steps, the block written back at
  `t = 4·b + 3` holds at `(i, j)` the four runs of 1024 products accumulated from zero in order, which is the sum over
  all 4096 rows; the four write-backs tile the Gram array, so it ends holding at `(b, i, j)` the sum over the rows `n`
  of batch `b` of the products of the entries at channels `i` and `j`.
-/
import proofs.«117280_j38989713113557_2_alg».proof.Proof.KI.Region2Out
import proofs.«117280_j38989713113557_2_alg».proof.Proof.KI.Final03
import proofs.«117280_j38989713113557_2_alg».proof.Proof.KernelPayloads0
import proofs.«117280_j38989713113557_2_alg».proof.Proof.Glue
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.DualAttn

section Final2

variable (V : (c : Dev nD) → (b : Ref sig .tc) → Buf (Elt Ideal) ((c : Thread nD τ).loc b))

/-- The block index maps of the reduction region's windows, decided over the grid: the pixel block sits at batch
    `t / 4`, row block `t % 4`; the Gram block at batch `t / 4`. -/
theorem idx_facts2 : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0 :=
  (by decide +kernel : ∀ t : Fin grid2.N, _)

/-- The pixel window's block at point `t` is rows `1024·(t % 4) …` of batch `t / 4` of the bf16 input. -/
theorem xblk2_apply (c : Dev nD) (t : Fin cfg2.N) (x : S1x1024x512.Idx) (k : S4x4096x512.Idx)
    (hk0 : (k 0).val = t.val / 4) (hk1 : (k 1).val = t.val % 4 * 1024 + (x 1).val) (hk2 : (k 2).val = (x 2).val) :
    (iblk2 V c 0 t : Vec Ideal S1x1024x512 .bf16) x = asArr S4x4096x512 (V c main_v1) k := by
  obtain ⟨e0, e1, e2, -⟩ := idx_facts2 t
  unfold iblk2
  rw [View.read_apply]
  show V c main_v1 _ = V c main_v1 _
  congr 1
  funext a
  apply Fin.ext
  have hx0 : (x 0).val < 1 := (x 0).isLt
  match a with
  | ⟨0, _⟩ => show win2_0.index t (0 : Fin 3) * 1 + 1 * (x 0).val = (k 0).val; omega
  | ⟨1, _⟩ => show win2_0.index t (1 : Fin 3) * 1024 + 1 * (x 1).val = (k 1).val; omega
  | ⟨2, _⟩ => show win2_0.index t (2 : Fin 3) * 512 + 1 * (x 2).val = (k 2).val; omega

/-- The products summed into entry `(i, j)` of batch `b`'s Gram matrix, one per row `n`. -/
def gramF (c : Dev nD) (b : Fin 4) (i j : Fin 512) : Fin 4096 → EReal := fun n =>
  asArr S4x4096x512 (V c main_v1) (ix3 b n i) * asArr S4x4096x512 (V c main_v1) (ix3 b n j)

/-- The Gram product of point `t`'s rows block at `(i, j)` is the run `t % 4` of batch `t / 4`'s products. -/
theorem gram_run (c : Dev nD) (b : Fin 4) (i j : Fin 512) (t : Fin cfg2.N) (hb : t.val / 4 = b.val)
    (x : Vec Ideal S1x1024x512 .bf16) (hx : x = iblk2 V c 0 t) :
    ∑ n : Fin 1024, x (ix3 0 n i) * x (ix3 0 n j) = Glue.tileSumN (gramF V c b i j) (t.val % 4) := by
  subst hx
  have hr : t.val % 4 < 4 := Nat.mod_lt _ (by norm_num)
  rw [Glue.tileSumN_of_lt _ _ hr]
  unfold Glue.tileSum gramF
  refine Finset.sum_congr rfl fun n _ => ?_
  refine congrArg₂ (fun a b : EReal => a * b) ?_ ?_
  · exact xblk2_apply V c t _ _ hb.symm rfl rfl
  · exact xblk2_apply V c t _ _ hb.symm rfl rfl

/-- The output block after the point at run `r` of batch `b`, at `(i, j)`: the runs `0 … r` accumulated from zero. -/
theorem acc2_at (c : Dev nD) (b : Fin 4) (i j : Fin 512) : ∀ (r : ℕ) (t : Fin cfg2.N), t.val / 4 = b.val → t.val % 4 = r →
    (outsAt2 V c t.val t.isLt : Vec Ideal S1x512x512 .f32) (ix3 0 i j) = Glue.accT (gramF V c b i j) r
  | 0, t, hb, hr => by
    refine (congrFun (outsAt2_closed_A V c t hr) _).trans ?_
    refine (Pay.k2_pay2_apply _ _ i j).trans ?_
    rw [Pay.k2_pay1_apply, gram_run V c b i j t hb _ rfl, hr]
    rfl
  | r + 1, t, hb, hr => by
    have h0 : ¬ t.val % 4 = 0 := by omega
    have hlt : t.val - 1 < cfg2.N := Nat.lt_of_le_of_lt (Nat.sub_le _ _) t.isLt
    refine (congrFun (outsAt2_closed_B V c t h0) _).trans ?_
    refine (Pay.k2_pay2_apply _ _ i j).trans ?_
    rw [gram_run V c b i j t hb _ rfl, hr]
    have ih := acc2_at c b i j r ⟨t.val - 1, hlt⟩ (by show (t.val - 1) / 4 = b.val; omega) (by show (t.val - 1) % 4 = r; omega)
    rw [show (outsAt2 V c (t.val - 1) _ : Vec Ideal S1x512x512 .f32) (ix3 0 i j) = Glue.accT (gramF V c b i j) r from ih]
    rfl

/-- What the Gram array ends holding: at `(b, i, j)` the sum over the rows `n` of batch `b` of the bf16 input of the
    products of the entries at channels `i` and `j`. -/
def G2_1 (c : Dev nD) : S4x512x512.Idx → EReal := fun q =>
  ∑ n : Fin 4096, asArr S4x4096x512 (V c main_v1) (ix3 (q 0 : Fin 4) n (q 1 : Fin 512))
    * asArr S4x4096x512 (V c main_v1) (ix3 (q 0 : Fin 4) n (q 2 : Fin 512))

/-- The block written back at the last point of batch `b`, at an entry, is the whole sum. -/
theorem gram_blk_at (c : Dev nD) (b : Fin 4) (t : Fin cfg2.N) (hb : t.val / 4 = b.val) (h3 : t.val % 4 = 3) (y : S1x512x512.Idx) :
    (outsAt2 V c t.val t.isLt : Vec Ideal S1x512x512 .f32) y = ∑ n : Fin 4096, gramF V c b (y 1 : Fin 512) (y 2 : Fin 512) n :=
  (congrArg (outsAt2 V c t.val t.isLt : Vec Ideal S1x512x512 .f32) (eq_ix3_one y)).trans
    ((acc2_at V c b (y 1) (y 2) 3 t hb h3).trans (Glue.accT_three _))

/-- What a writing point `t` writes back to the Gram array is block `t` of `G2_1`. -/
theorem flushed2_1_eq (c : Dev nD) (t : Fin cfg2.N) (hf : (cfg2.win 1).flush t = true) :
    (dat2 V c).flushed 1 t = ((cfg2.win 1).blk t).view.read (Elt Ideal) (G2_1 V c) := by
  have h3 : t.val % 4 = 3 := (flush2_1 t).mp hf
  have hN : cfg2.N = 16 := N_2
  have htl : t.val < cfg2.N := t.isLt
  obtain ⟨-, -, -, e10, e11, e12⟩ := idx_facts2 t
  show (cfg2.win 1).cut (grid2.coords t) ((dat2 V c).after 1 t) = _
  rw [after2_1]
  funext y
  show (outsAt2 V c t.val t.isLt : Vec Ideal S1x512x512 .f32) y = G2_1 V c (((cfg2.win 1).blk t).view.emb y)
  rw [gram_blk_at V c ⟨t.val / 4, by omega⟩ t rfl h3 y]
  unfold G2_1 gramF
  have hy0 : (y 0).val < 1 := (y 0).isLt
  refine Finset.sum_congr rfl fun n _ => ?_
  refine congrArg₂ (fun a b : EReal => a * b) ?_ ?_
  · refine congrArg (asArr S4x4096x512 (V c main_v1)) (funext fun a => ?_)
    match a with
    | ⟨0, _⟩ => apply Fin.ext; show t.val / 4 = win2_1.index t (0 : Fin 3) * 1 + 1 * (y 0).val; omega
    | ⟨1, _⟩ => rfl
    | ⟨2, _⟩ => apply Fin.ext; show (y 1).val = win2_1.index t (1 : Fin 3) * 512 + 1 * (y 1).val; omega
  · refine congrArg (asArr S4x4096x512 (V c main_v1)) (funext fun a => ?_)
    match a with
    | ⟨0, _⟩ => apply Fin.ext; show t.val / 4 = win2_1.index t (0 : Fin 3) * 1 + 1 * (y 0).val; omega
    | ⟨1, _⟩ => rfl
    | ⟨2, _⟩ => apply Fin.ext; show (y 2).val = win2_1.index t (2 : Fin 3) * 512 + 1 * (y 2).val; omega

/-- An index of the Gram array is in point `t`'s block iff each coordinate is in the block's range on its axis. -/
theorem mem_blk2_1 (t : Fin cfg2.N) (q : S4x512x512.Idx) :
    q ∈ ((cfg2.win 1).blk t).view.set ↔ ∀ a : Fin 3, win2_1.index t a * S1x512x512.size a ≤ (q a).val ∧ (q a).val < win2_1.index t a * S1x512x512.size a + S1x512x512.size a := by
  show q ∈ ((View.whole main_v12).slice (win2_1.rect t)).set ↔ _
  rw [View.set_slice_whole, Rect.mem_set_unit]
  exact Iff.rfl

/-- Every entry of the Gram array is in the block written back at the last point of its batch. -/
theorem tile2_1 (q : S4x512x512.Idx) : ∃ t : Fin cfg2.N, (cfg2.win 1).flush t = true ∧ q ∈ ((cfg2.win 1).blk t).view.set := by
  have hq0 : (q 0).val < 4 := (q 0).isLt
  have hq1 : (q 1).val < 512 := (q 1).isLt
  have hq2 : (q 2).val < 512 := (q 2).isLt
  have hN : cfg2.N = 16 := N_2
  let t : Fin cfg2.N := ⟨(q 0).val * 4 + 3, by omega⟩
  have ht : t.val = (q 0).val * 4 + 3 := rfl
  obtain ⟨-, -, -, e10, e11, e12⟩ := idx_facts2 t
  refine ⟨t, (flush2_1 t).mpr (by omega), ?_⟩
  rw [mem_blk2_1]
  intro a
  match a with
  | ⟨0, _⟩ => show win2_1.index t (0 : Fin 3) * 1 ≤ (q 0).val ∧ (q 0).val < win2_1.index t (0 : Fin 3) * 1 + 1; omega
  | ⟨1, _⟩ => show win2_1.index t (1 : Fin 3) * 512 ≤ (q 1).val ∧ (q 1).val < win2_1.index t (1 : Fin 3) * 512 + 512; omega
  | ⟨2, _⟩ => show win2_1.index t (2 : Fin 3) * 512 ≤ (q 2).val ∧ (q 2).val < win2_1.index t (2 : Fin 3) * 512 + 512; omega

/-- The Gram array at the region's exit. -/
theorem final2_1_arr (c : Dev nD) : (dat2 V c).arrAt 1 cfg2.N = G2_1 V c :=
  (dat2 V c).arrAt_eq_of_cover 1 (G2_1 V c) (fun t hf => flushed2_1_eq V c t hf) (tile2_1)

/-- The Gram array at the region's exit, entry by entry. -/
theorem final2_1 (c : Dev nD) (b : Fin 4) (i j : Fin 512) :
    (dat2 V c).arrAt 1 cfg2.N (ix3 b i j)
      = ∑ n : Fin 4096, asArr S4x4096x512 (V c main_v1) (ix3 b n i) * asArr S4x4096x512 (V c main_v1) (ix3 b n j) := by
  rw [final2_1_arr V c]
  rfl

end Final2

end Cert.KernelIdeal.Hand

end
-- ==== Proof.KI.Value.lean ====
import proofs.«117280_j38989713113557_2_alg».proof.Proof.KI.HostValues
import proofs.«117280_j38989713113557_2_alg».proof.Proof.KI.Final03
import proofs.«117280_j38989713113557_2_alg».proof.Proof.KI.Final1
import proofs.«117280_j38989713113557_2_alg».proof.Proof.KI.Final2
import proofs.«117280_j38989713113557_2_alg».proof.Proof.Glue
import proofs.«117280_j38989713113557_2_alg».proof.Proof.Spec

/-!
  The kernel's result array is the specification of the six argument arrays, index by index.

  The result is the last host stretch's sum of the position part and the channel part. Walking back through the
  buffer contents at the region boundaries: the channel part is the channel-application region's output, a block of
  pixels times the row-softmaxed Gram matrix, the Gram matrix is the channel-reduction region's output, the sum over
  all 4096 pixels, and both read the pixel view the first stretch left; the position part is the position region's
  output, the softmax-weighted sum of the values over all 4096 keys, of the three projections the projection region
  left, which are the channel maps applied to the pixel view. Every piece is then the specification's piece of the
  same name.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.DualAttn

variable (m : (ℓ : Loc nD τ sig) → Buf (Elt Ideal) ℓ)

/-! ## The pixel view, as each region reads it -/

theorem V1_xf (c : Dev nD) (b : Fin 4) (n : Fin 4096) (cc : Fin 512) :
    asArr S4x4096x512 (V1 m c main_v1) (ix3 b n cc) = Spec.xf (m ((c : Thread nD τ).loc main_arg0)) b n cc :=
  W1_v1 m c b n cc

theorem V4_xf (c : Dev nD) (b : Fin 4) (n : Fin 4096) (cc : Fin 512) :
    asArr S4x4096x512 (V4 m c main_v1) (ix3 b n cc) = Spec.xf (m ((c : Thread nD τ).loc main_arg0)) b n cc :=
  (congrFun (V4_v1 m c) (ix3 b n cc)).trans (W1_v1 m c b n cc)

theorem V5_xf (c : Dev nD) (b : Fin 4) (n : Fin 4096) (cc : Fin 512) :
    asArr S4x4096x512 (V5 m c main_v1) (ix3 b n cc) = Spec.xf (m ((c : Thread nD τ).loc main_arg0)) b n cc :=
  (congrFun (V5_v1 m c) (ix3 b n cc)).trans (W1_v1 m c b n cc)

/-! ## The three projections the projection region leaves -/

theorem V2_q (c : Dev nD) (b : Fin 4) (n : Fin 4096) (k : Fin 64) :
    asArr S4x4096x64 (V2 m c main_v5_0) (ix3 b n k)
      = Spec.proj (m ((c : Thread nD τ).loc main_arg0)) (m ((c : Thread nD τ).loc main_arg1)) b n k := by
  refine (congrFun (W2_arr m c 4) (ix3 b n k)).trans ?_
  refine (final0_4 (V1 m) c b n k).trans ?_
  show @Eq EReal _ _
  unfold Spec.proj
  refine Finset.sum_congr rfl fun cc _ => ?_
  refine congrArg₂ (@HMul.hMul EReal EReal EReal instHMul) (V1_xf m c b n cc) ?_
  exact congrFun (W1_v2 m c) (ix2 cc k)

theorem V2_k (c : Dev nD) (b : Fin 4) (n : Fin 4096) (k : Fin 64) :
    asArr S4x4096x64 (V2 m c main_v5_1) (ix3 b n k)
      = Spec.proj (m ((c : Thread nD τ).loc main_arg0)) (m ((c : Thread nD τ).loc main_arg2)) b n k := by
  refine (congrFun (W2_arr m c 5) (ix3 b n k)).trans ?_
  refine (final0_5 (V1 m) c b n k).trans ?_
  show @Eq EReal _ _
  unfold Spec.proj
  refine Finset.sum_congr rfl fun cc _ => ?_
  refine congrArg₂ (@HMul.hMul EReal EReal EReal instHMul) (V1_xf m c b n cc) ?_
  exact congrFun (W1_v3 m c) (ix2 cc k)

theorem V2_v (c : Dev nD) (b : Fin 4) (n : Fin 4096) (k : Fin 512) :
    asArr S4x4096x512 (V2 m c main_v5_2) (ix3 b n k)
      = Spec.proj (m ((c : Thread nD τ).loc main_arg0)) (m ((c : Thread nD τ).loc main_arg3)) b n k := by
  refine (congrFun (W2_arr m c 6) (ix3 b n k)).trans ?_
  refine (final0_6 (V1 m) c b n k).trans ?_
  show @Eq EReal _ _
  unfold Spec.proj
  refine Finset.sum_congr rfl fun cc _ => ?_
  refine congrArg₂ (@HMul.hMul EReal EReal EReal instHMul) (V1_xf m c b n cc) ?_
  exact congrFun (W1_v4 m c) (ix2 cc k)

/-! ## The position part -/

/-- With real arguments the position region's output is the specification's position part. -/
theorem W3_pam (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal))
    (b : Fin 4) (ch : Fin 512) (i : Fin 4096) :
    asArr S4x512x4096 (W3 m c (Proc.devRef .tc main_v6)) (ix3 b ch i)
      = Spec.pam (m ((c : Thread nD τ).loc main_arg0)) (m ((c : Thread nD τ).loc main_arg1)) (m ((c : Thread nD τ).loc main_arg2))
          (m ((c : Thread nD τ).loc main_arg3)) b ch i := by
  have hq : ∀ y, ∃ r : ℝ, asArr S4x4096x64 (V2 m c main_v5_0) y = (r : EReal) := fun y => by
    obtain ⟨b', n', k', rfl⟩ : ∃ (b' : Fin 4) (n' : Fin 4096) (k' : Fin 64), y = ix3 b' n' k' := ⟨y 0, y 1, y 2, eq_ix3 y⟩
    rw [V2_q]
    exact Glue.proj_real _ _ h0 h1 b' n' k'
  have hk : ∀ y, ∃ r : ℝ, asArr S4x4096x64 (V2 m c main_v5_1) y = (r : EReal) := fun y => by
    obtain ⟨b', n', k', rfl⟩ : ∃ (b' : Fin 4) (n' : Fin 4096) (k' : Fin 64), y = ix3 b' n' k' := ⟨y 0, y 1, y 2, eq_ix3 y⟩
    rw [V2_k]
    exact Glue.proj_real _ _ h0 h2 b' n' k'
  have hv : ∀ y, ∃ r : ℝ, asArr S4x4096x512 (V2 m c main_v5_2) y = (r : EReal) := fun y => by
    obtain ⟨b', n', k', rfl⟩ : ∃ (b' : Fin 4) (n' : Fin 4096) (k' : Fin 512), y = ix3 b' n' k' := ⟨y 0, y 1, y 2, eq_ix3 y⟩
    rw [V2_v]
    exact Glue.proj_real _ _ h0 h3 b' n' k'
  refine (congrFun (W3_arr m c 3) (ix3 b ch i)).trans ?_
  refine (final1_3 (V2 m) c hq hk hv b ch i).trans ?_
  show @Eq EReal _ _
  unfold Spec.pam
  refine Finset.sum_congr rfl fun n _ => ?_
  refine congrArg₂ (@HMul.hMul EReal EReal EReal instHMul) (V2_v m c b n ch) ?_
  refine congrArg (fun f : Fin 4096 → EReal => Spec.soft f n) (funext fun n' => ?_)
  unfold Spec.score
  refine Finset.sum_congr rfl fun k _ => ?_
  exact congrArg₂ (@HMul.hMul EReal EReal EReal instHMul) (V2_q m c b i k) (V2_k m c b n' k)

/-! ## The channel part -/

/-- The channel-reduction region's output is the Gram matrix over all pixels. -/
theorem V5_aa (c : Dev nD) (b : Fin 4) (i j : Fin 512) :
    asArr S4x512x512 (V5 m c main_v12) (ix3 b i j) = Spec.aa (m ((c : Thread nD τ).loc main_arg0)) b i j := by
  refine (congrFun (W5_arr m c 1) (ix3 b i j)).trans ?_
  refine (final2_1 (V4 m) c b i j).trans ?_
  show @Eq EReal _ _
  unfold Spec.aa
  refine Finset.sum_congr rfl fun n _ => ?_
  exact congrArg₂ (@HMul.hMul EReal EReal EReal instHMul) (V4_xf m c b n i) (V4_xf m c b n j)

/-- The channel-application region's output is the specification's channel part. -/
theorem W6_cam (c : Dev nD) (b : Fin 4) (n : Fin 4096) (j : Fin 512) :
    asArr S4x4096x512 (W6 m c (Proc.devRef .tc main_v13)) (ix3 b n j) = Spec.cam (m ((c : Thread nD τ).loc main_arg0)) b n j := by
  refine (congrFun (W6_arr m c 2) (ix3 b n j)).trans ?_
  refine (final3_2 (V5 m) c b n j).trans ?_
  show @Eq EReal _ _
  unfold Spec.cam
  refine Finset.sum_congr rfl fun cc _ => ?_
  refine congrArg₂ (@HMul.hMul EReal EReal EReal instHMul) (V5_xf m c b n cc) ?_
  exact congrArg (fun f : Fin 512 → EReal => Spec.soft f j) (funext fun j' => V5_aa m c b cc j')

/-! ## The result -/

/-- With every entry of the six argument arrays a real number, the kernel's result array is the specification of
    the six argument arrays, index by index. -/
theorem kernel_value (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal))
    (h4 : ∀ i, ∃ r : ℝ, m ((c : Thread nD τ).loc main_arg4) i = (r : EReal))
    (h5 : ∀ i, ∃ r : ℝ, m ((c : Thread nD τ).loc main_arg5) i = (r : EReal))
    (j : S4x64x64x512.Idx) :
    W7 m c (Proc.devRef .tc main_v19) j
      = Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (j 0) (j 1) (j 2) (j 3) := by
  obtain ⟨b, h, w, cc, rfl⟩ : ∃ (b : Fin 4) (h w : Fin 64) (cc : Fin 512), j = ix4 b h w cc := ⟨j 0, j 1, j 2, j 3, eq_ix4 j⟩
  refine (W7_v19 m c b h w cc).trans ?_
  unfold Spec.out
  refine congrArg₂ (@HAdd.hAdd EReal EReal EReal instHAdd) ?_ ?_
  · refine (W4_v11 m c b h w cc).trans ?_
    refine congrArg (fun t : EReal => @HAdd.hAdd EReal EReal EReal instHAdd t _) ?_
    exact congrArg (@HMul.hMul EReal EReal EReal instHMul _) (W3_pam m c h0 h1 h2 h3 b (Spec.pamChan h w cc) (Spec.pamPix h w cc))
  · refine congrArg (fun t : EReal => @HAdd.hAdd EReal EReal EReal instHAdd t _) ?_
    exact congrArg (@HMul.hMul EReal EReal EReal instHMul _) (W6_cam m c b (Spec.pix h w) cc)

end Cert.KernelIdeal.Hand

end
-- ==== Proof.LibHostLastAxis.lean ====
/-
  The host's reduce along the last axis of a rank-3 array, read at an index.

  For an `[n, a, b]` array `x` reduced along its last axis by a commutative and associative operation `f`, the result at
  `(p, i)` is the fold of `f` from the initial value over `x (p, i, k)`, `k < b` — a softmax's row maximum over a batch of
  matrices, for instance. Arbitrary extents, any element type. (The library states it over the reduced shape's own
  index `h.lift j k`; here the index is spelt by its three coordinates.)
-/
import Idealize.ShloMosaic.PureOps.Reduce
import Idealize.ShloMosaic.Lib.ValueIdx

noncomputable section

namespace Idealize.ShloMosaic.HostLastAxis

open Idealize.ShloMosaic Idealize.ShloMosaic.ValueIdx

variable {α : Type} {n a b : ℕ} {u : Shape}

/-- The reduce along the last axis at `(p, i)`: the fold over the last coordinate. -/
theorem reduce_apply (f : α → α → α) [Std.Commutative f] [Std.Associative f] (x : (⟨3, ![n, a, b]⟩ : Shape).Idx → α)
    (init : u.Idx → α) (h' : (⟨3, ![n, a, b]⟩ : Shape).ReducesTo [2] ⟨2, ![n, a]⟩)
    (h : (⟨3, ![n, a, b]⟩ : Shape).Reduces [2] ⟨2, ![n, a]⟩) (hu : 0 < u.numel) (p : Fin n) (i : Fin a) :
    Host.reduce f x init h' hu (ix2 p i)
      = (Finset.univ : Finset (Fin b)).fold f (init (Shape.Idx.first hu)) (fun k => x (ix3 p i k)) := by
  refine (Host.reduce_eq_fold_single f x init h' h hu (ix2 p i)).trans ?_
  refine congrArg (Finset.fold f (init (Shape.Idx.first hu)) · (Finset.univ : Finset (Fin b))) (funext fun k => ?_)
  exact congrArg x (funext fun c => Fin.ext (by match c with | ⟨0, _⟩ => rfl | ⟨1, _⟩ => rfl | ⟨2, _⟩ => rfl))

end Idealize.ShloMosaic.HostLastAxis

end
-- ==== Proof.RefValue.lean ====
import proofs.«117280_j38989713113557_2_alg».proof.Proof.Gen.ReferenceIdeal.Read
import proofs.«117280_j38989713113557_2_alg».proof.Proof.Spec
import proofs.«117280_j38989713113557_2_alg».proof.Proof.LibHostLastAxis

/-!
  The reference program's result read at an index is the explicit function `Spec.out`.

  One lemma per named piece of the specification, in the order the program computes them: the three channel maps at a
  pixel, the scores, the softmax of a row of scores (row maximum, exponentials, denominator, quotient), the position
  part; the pixel view of the feature map, the channel Gram matrix, its softmax, the channel part; and the result. Each
  reads the generated module's stage at an index given by its coordinates, rewrites the layout operations' index maps to
  coordinates, and folds the operands back into the pieces already read.
-/

noncomputable section

open scoped BigOperators

namespace Cert.DualAttn.RefValue

open Cert.ReferenceIdeal Cert.ReferenceIdeal.Gen Cert.ReferenceIdeal.Read Idealize.ShloMosaic Idealize.ShloMosaic.ValueIdx
open Cert.DualAttn

/-! ## Index equations: the layout operations' index maps at an index given by its coordinates -/

/-- A pixel-view index `(b, n, k)` of a `[4, 4096, K]` array is `(b, n / 64, n % 64, k)` of the `[4, 64, 64, K]` one. -/
theorem idx_v1_eq (b : Fin 4) (n : Fin 4096) (k : Fin 64) :
    idx_main_v1 (ix3 b n k) = ix4 b ⟨n.val / 64, by have := n.isLt; omega⟩ ⟨n.val % 64, by omega⟩ k := by
  funext a
  have hb := b.isLt; have hn := n.isLt; have hk := k.isLt
  match a with
  | ⟨0, _⟩ => exact Fin.ext (by show ((b.val * 4096 + n.val) * 64 + k.val) / 262144 = b.val; omega)
  | ⟨1, _⟩ => exact Fin.ext (by show ((b.val * 4096 + n.val) * 64 + k.val) / 4096 % 64 = n.val / 64; omega)
  | ⟨2, _⟩ => exact Fin.ext (by show ((b.val * 4096 + n.val) * 64 + k.val) / 64 % 64 = n.val % 64; omega)
  | ⟨3, _⟩ => exact Fin.ext (by show ((b.val * 4096 + n.val) * 64 + k.val) % 64 = k.val; omega)

theorem idx_v3_eq (b : Fin 4) (n : Fin 4096) (k : Fin 64) :
    idx_main_v3 (ix3 b n k) = ix4 b ⟨n.val / 64, by have := n.isLt; omega⟩ ⟨n.val % 64, by omega⟩ k :=
  idx_v1_eq b n k

theorem idx_v5_eq (b : Fin 4) (n : Fin 4096) (c : Fin 512) :
    idx_main_v5 (ix3 b n c) = ix4 b ⟨n.val / 64, by have := n.isLt; omega⟩ ⟨n.val % 64, by omega⟩ c := by
  funext a
  have hb := b.isLt; have hn := n.isLt; have hc := c.isLt
  match a with
  | ⟨0, _⟩ => exact Fin.ext (by show ((b.val * 4096 + n.val) * 512 + c.val) / 2097152 = b.val; omega)
  | ⟨1, _⟩ => exact Fin.ext (by show ((b.val * 4096 + n.val) * 512 + c.val) / 32768 % 64 = n.val / 64; omega)
  | ⟨2, _⟩ => exact Fin.ext (by show ((b.val * 4096 + n.val) * 512 + c.val) / 512 % 64 = n.val % 64; omega)
  | ⟨3, _⟩ => exact Fin.ext (by show ((b.val * 4096 + n.val) * 512 + c.val) % 512 = c.val; omega)

theorem idx_v24_eq (b : Fin 4) (n : Fin 4096) (c : Fin 512) :
    idx_main_v24 (ix3 b n c) = ix4 b ⟨n.val / 64, by have := n.isLt; omega⟩ ⟨n.val % 64, by omega⟩ c :=
  idx_v5_eq b n c

/-! ## The three channel maps at a pixel -/

theorem q_apply (x0 : (⟨S4x64x64x512, .f32⟩ : BufTy).Contents (Elt Ideal)) (x1 : (⟨S512x64, .f32⟩ : BufTy).Contents (Elt Ideal))
    (b : Fin 4) (n : Fin 4096) (k : Fin 64) :
    val_main_v1 (F := Ideal) x0 x1 (ix3 b n k) = Spec.proj x0 x1 b n k := by
  rw [val_main_v1_apply, idx_v1_eq, val_main_v0_apply]
  unfold Spec.proj Spec.xf
  refine Finset.sum_congr rfl fun c _ => ?_
  congr 2
  · funext a; match a with | ⟨0, _⟩ => rfl | ⟨1, _⟩ => rfl | ⟨2, _⟩ => rfl | ⟨3, _⟩ => rfl
  · funext a; match a with | ⟨0, _⟩ => rfl | ⟨1, _⟩ => rfl

theorem k_apply (x0 : (⟨S4x64x64x512, .f32⟩ : BufTy).Contents (Elt Ideal)) (x2 : (⟨S512x64, .f32⟩ : BufTy).Contents (Elt Ideal))
    (b : Fin 4) (n : Fin 4096) (k : Fin 64) :
    val_main_v3 (F := Ideal) x0 x2 (ix3 b n k) = Spec.proj x0 x2 b n k := by
  rw [val_main_v3_apply, idx_v3_eq, val_main_v2_apply]
  unfold Spec.proj Spec.xf
  refine Finset.sum_congr rfl fun c _ => ?_
  congr 2
  · funext a; match a with | ⟨0, _⟩ => rfl | ⟨1, _⟩ => rfl | ⟨2, _⟩ => rfl | ⟨3, _⟩ => rfl
  · funext a; match a with | ⟨0, _⟩ => rfl | ⟨1, _⟩ => rfl

theorem v_apply (x0 : (⟨S4x64x64x512, .f32⟩ : BufTy).Contents (Elt Ideal)) (x3 : (⟨S512x512, .f32⟩ : BufTy).Contents (Elt Ideal))
    (b : Fin 4) (n : Fin 4096) (c : Fin 512) :
    val_main_v5 (F := Ideal) x0 x3 (ix3 b n c) = Spec.proj x0 x3 b n c := by
  rw [val_main_v5_apply, idx_v5_eq, val_main_v4_apply]
  unfold Spec.proj Spec.xf
  refine Finset.sum_congr rfl fun k _ => ?_
  congr 2
  · funext a; match a with | ⟨0, _⟩ => rfl | ⟨1, _⟩ => rfl | ⟨2, _⟩ => rfl | ⟨3, _⟩ => rfl
  · funext a; match a with | ⟨0, _⟩ => rfl | ⟨1, _⟩ => rfl

/-- The pixel view of the feature map itself. -/
theorem xf_apply (x0 : (⟨S4x64x64x512, .f32⟩ : BufTy).Contents (Elt Ideal)) (b : Fin 4) (n : Fin 4096) (c : Fin 512) :
    val_main_v24 (F := Ideal) x0 (ix3 b n c) = Spec.xf x0 b n c := by
  rw [val_main_v24_apply, idx_v24_eq]
  rfl

/-! ## The scores -/

theorem score_apply (x0 : (⟨S4x64x64x512, .f32⟩ : BufTy).Contents (Elt Ideal)) (x1 x2 : (⟨S512x64, .f32⟩ : BufTy).Contents (Elt Ideal))
    (b : Fin 4) (i j : Fin 4096) :
    val_main_v6 (F := Ideal) x0 x1 x2 (ix3 b i j) = Spec.score x0 x1 x2 b i j := by
  rw [val_main_v6_apply]
  unfold Spec.score
  refine Finset.sum_congr rfl fun k _ => ?_
  rw [← q_apply, ← k_apply]
  congr 2
  · funext a; match a with | ⟨0, _⟩ => rfl | ⟨1, _⟩ => rfl | ⟨2, _⟩ => rfl
  · funext a; match a with | ⟨0, _⟩ => rfl | ⟨1, _⟩ => rfl | ⟨2, _⟩ => rfl

/-! ## The softmax of a row of scores -/

/-- The bit pattern of `-∞` reads as `⊥`. -/
theorem ofBits_neg_inf : Ideal.ofBits .f32 0xFF800000#32 = ⊥ := by simp [Ideal.ofBits, Ideal.ieee]

theorem rowmax_apply (x0 : (⟨S4x64x64x512, .f32⟩ : BufTy).Contents (Elt Ideal)) (x1 x2 : (⟨S512x64, .f32⟩ : BufTy).Contents (Elt Ideal))
    (b : Fin 4) (i : Fin 4096) :
    val_main_v9 (F := Ideal) x0 x1 x2 (ix2 b i) = Spec.rowmax (Spec.score x0 x1 x2 b i) := by
  rw [val_main_v9_apply, val_main_v8_apply, val_main_cst_0_apply]
  unfold val_main_v7
  rw [HostLastAxis.reduce_apply (FloatOps.maximumf (F := Ideal) (φ := .f32)) _ _ reducesTo_S4x4096x4096_S4x4096_d2 (by decide) h_S_ b i,
    val_main_cst_apply]
  simp only [score_apply, Ideal.ofBits_def, ofBits_neg_inf, Ideal.maximumf_def]
  rfl

/-- A keepdims column broadcast back along the row: `(b, i, j) ↦ (b, i, 0) ↦ (b, i)`. -/
theorem idx_v10_v11_eq (b : Fin 4) (i j : Fin 4096) : idx_main_v10 (idx_main_v11 (ix3 b i j)) = ix2 b i := by
  funext a; match a with | ⟨0, _⟩ => rfl | ⟨1, _⟩ => rfl

theorem idx_v15_v16_eq (b : Fin 4) (i j : Fin 4096) : idx_main_v15 (idx_main_v16 (ix3 b i j)) = ix2 b i := by
  funext a; match a with | ⟨0, _⟩ => rfl | ⟨1, _⟩ => rfl

theorem idx_v14_eq (b : Fin 4) (i k : Fin 4096) : idx_main_v14 (ix2 b i) k = ix3 b i k := by
  funext a; match a with | ⟨0, _⟩ => rfl | ⟨1, _⟩ => rfl | ⟨2, _⟩ => rfl

theorem wexp_apply (x0 : (⟨S4x64x64x512, .f32⟩ : BufTy).Contents (Elt Ideal)) (x1 x2 : (⟨S512x64, .f32⟩ : BufTy).Contents (Elt Ideal))
    (b : Fin 4) (i j : Fin 4096) :
    val_main_v13 (F := Ideal) x0 x1 x2 (ix3 b i j) = Spec.wexp (Spec.score x0 x1 x2 b i) j := by
  rw [val_main_v13_apply, val_main_v12_apply, val_main_v11_apply, val_main_v10_apply, idx_v10_v11_eq, score_apply, rowmax_apply]
  rfl

theorem wsum_apply (x0 : (⟨S4x64x64x512, .f32⟩ : BufTy).Contents (Elt Ideal)) (x1 x2 : (⟨S512x64, .f32⟩ : BufTy).Contents (Elt Ideal))
    (b : Fin 4) (i : Fin 4096) :
    val_main_v14 (F := Ideal) x0 x1 x2 (ix2 b i) = Spec.wsum (Spec.score x0 x1 x2 b i) := by
  rw [val_main_v14_apply, val_main_cst_1_apply]
  simp only [idx_v14_eq, wexp_apply, Ideal.ofBits_def, Ideal.ofBits_zero_f32]
  rfl

theorem soft_apply (x0 : (⟨S4x64x64x512, .f32⟩ : BufTy).Contents (Elt Ideal)) (x1 x2 : (⟨S512x64, .f32⟩ : BufTy).Contents (Elt Ideal))
    (b : Fin 4) (i j : Fin 4096) :
    val_main_v17 (F := Ideal) x0 x1 x2 (ix3 b i j) = Spec.soft (Spec.score x0 x1 x2 b i) j := by
  rw [val_main_v17_apply, val_main_v16_apply, val_main_v15_apply, idx_v15_v16_eq, wexp_apply, wsum_apply]
  rfl

/-! ## The position part -/

theorem lidx_v18_eq (b : Fin 4) (c : Fin 512) (i n : Fin 4096) : lidx_main_v18 (ix3 b c i) n = ix3 b n c := by
  funext a; match a with | ⟨0, _⟩ => rfl | ⟨1, _⟩ => rfl | ⟨2, _⟩ => rfl

theorem ridx_v18_eq (b : Fin 4) (c : Fin 512) (i n : Fin 4096) : ridx_main_v18 (ix3 b c i) n = ix3 b i n := by
  funext a; match a with | ⟨0, _⟩ => rfl | ⟨1, _⟩ => rfl | ⟨2, _⟩ => rfl

theorem pam_apply (x0 : (⟨S4x64x64x512, .f32⟩ : BufTy).Contents (Elt Ideal)) (x1 x2 : (⟨S512x64, .f32⟩ : BufTy).Contents (Elt Ideal))
    (x3 : (⟨S512x512, .f32⟩ : BufTy).Contents (Elt Ideal)) (b : Fin 4) (c : Fin 512) (i : Fin 4096) :
    val_main_v18 (F := Ideal) x0 x1 x2 x3 (ix3 b c i) = Spec.pam x0 x1 x2 x3 b c i := by
  rw [val_main_v18_apply]
  simp only [lidx_v18_eq, ridx_v18_eq, v_apply, soft_apply]
  rfl

/-! ## The channel Gram matrix and its softmax -/

theorem lidx_v25_eq (b : Fin 4) (i j : Fin 512) (n : Fin 4096) : lidx_main_v25 (ix3 b i j) n = ix3 b n i := by
  funext a; match a with | ⟨0, _⟩ => rfl | ⟨1, _⟩ => rfl | ⟨2, _⟩ => rfl

theorem ridx_v25_eq (b : Fin 4) (i j : Fin 512) (n : Fin 4096) : ridx_main_v25 (ix3 b i j) n = ix3 b n j := by
  funext a; match a with | ⟨0, _⟩ => rfl | ⟨1, _⟩ => rfl | ⟨2, _⟩ => rfl

theorem aa_apply (x0 : (⟨S4x64x64x512, .f32⟩ : BufTy).Contents (Elt Ideal)) (b : Fin 4) (i j : Fin 512) :
    val_main_v25 (F := Ideal) x0 (ix3 b i j) = Spec.aa x0 b i j := by
  rw [val_main_v25_apply]
  simp only [lidx_v25_eq, ridx_v25_eq, xf_apply]
  rfl

theorem rowmax_aa_apply (x0 : (⟨S4x64x64x512, .f32⟩ : BufTy).Contents (Elt Ideal)) (b : Fin 4) (i : Fin 512) :
    val_main_v28 (F := Ideal) x0 (ix2 b i) = Spec.rowmax (Spec.aa x0 b i) := by
  rw [val_main_v28_apply, val_main_v27_apply, val_main_cst_3_apply]
  unfold val_main_v26
  rw [HostLastAxis.reduce_apply (FloatOps.maximumf (F := Ideal) (φ := .f32)) _ _ reducesTo_S4x512x512_S4x512_d2 (by decide) h_S_ b i,
    val_main_cst_2_apply]
  simp only [aa_apply, Ideal.ofBits_def, ofBits_neg_inf, Ideal.maximumf_def]
  rfl

theorem idx_v29_v30_eq (b : Fin 4) (i j : Fin 512) : idx_main_v29 (idx_main_v30 (ix3 b i j)) = ix2 b i := by
  funext a; match a with | ⟨0, _⟩ => rfl | ⟨1, _⟩ => rfl

theorem idx_v34_v35_eq (b : Fin 4) (i j : Fin 512) : idx_main_v34 (idx_main_v35 (ix3 b i j)) = ix2 b i := by
  funext a; match a with | ⟨0, _⟩ => rfl | ⟨1, _⟩ => rfl

theorem idx_v33_eq (b : Fin 4) (i k : Fin 512) : idx_main_v33 (ix2 b i) k = ix3 b i k := by
  funext a; match a with | ⟨0, _⟩ => rfl | ⟨1, _⟩ => rfl | ⟨2, _⟩ => rfl

theorem wexp_aa_apply (x0 : (⟨S4x64x64x512, .f32⟩ : BufTy).Contents (Elt Ideal)) (b : Fin 4) (i j : Fin 512) :
    val_main_v32 (F := Ideal) x0 (ix3 b i j) = Spec.wexp (Spec.aa x0 b i) j := by
  rw [val_main_v32_apply, val_main_v31_apply, val_main_v30_apply, val_main_v29_apply, idx_v29_v30_eq, aa_apply, rowmax_aa_apply]
  rfl

theorem wsum_aa_apply (x0 : (⟨S4x64x64x512, .f32⟩ : BufTy).Contents (Elt Ideal)) (b : Fin 4) (i : Fin 512) :
    val_main_v33 (F := Ideal) x0 (ix2 b i) = Spec.wsum (Spec.aa x0 b i) := by
  rw [val_main_v33_apply, val_main_cst_4_apply]
  simp only [idx_v33_eq, wexp_aa_apply, Ideal.ofBits_def, Ideal.ofBits_zero_f32]
  rfl

theorem soft_aa_apply (x0 : (⟨S4x64x64x512, .f32⟩ : BufTy).Contents (Elt Ideal)) (b : Fin 4) (i j : Fin 512) :
    val_main_v36 (F := Ideal) x0 (ix3 b i j) = Spec.soft (Spec.aa x0 b i) j := by
  rw [val_main_v36_apply, val_main_v35_apply, val_main_v34_apply, idx_v34_v35_eq, wexp_aa_apply, wsum_aa_apply]
  rfl

/-! ## The channel part -/

theorem lidx_v37_eq (b : Fin 4) (n : Fin 4096) (j c : Fin 512) : lidx_main_v37 (ix3 b n j) c = ix3 b n c := by
  funext a; match a with | ⟨0, _⟩ => rfl | ⟨1, _⟩ => rfl | ⟨2, _⟩ => rfl

theorem ridx_v37_eq (b : Fin 4) (n : Fin 4096) (j c : Fin 512) : ridx_main_v37 (ix3 b n j) c = ix3 b c j := by
  funext a; match a with | ⟨0, _⟩ => rfl | ⟨1, _⟩ => rfl | ⟨2, _⟩ => rfl

theorem cam_apply (x0 : (⟨S4x64x64x512, .f32⟩ : BufTy).Contents (Elt Ideal)) (b : Fin 4) (n : Fin 4096) (j : Fin 512) :
    val_main_v37 (F := Ideal) x0 (ix3 b n j) = Spec.cam x0 b n j := by
  rw [val_main_v37_apply]
  simp only [lidx_v37_eq, ridx_v37_eq, xf_apply, soft_aa_apply]
  rfl

/-! ## The result -/

/-- The position part `[4, 512, 4096]` re-read as `[4, 64, 64, 512]` by row-major position: `(b, h, w, c)` is flat position
    `((b · 64 + h) · 64 + w) · 512 + c`, whose channel is `((h · 64 + w) · 512 + c) / 4096` and pixel the remainder. -/
theorem idx_v19_eq (b : Fin 4) (h w : Fin 64) (c : Fin 512) :
    idx_main_v19 (ix4 b h w c) = ix3 b (Spec.pamChan h w c) (Spec.pamPix h w c) := by
  funext a
  have hb := b.isLt; have hh := h.isLt; have hw := w.isLt; have hc := c.isLt
  match a with
  | ⟨0, _⟩ => exact Fin.ext (by show (((b.val * 64 + h.val) * 64 + w.val) * 512 + c.val) / 2097152 = b.val; omega)
  | ⟨1, _⟩ => exact Fin.ext (by
      show (((b.val * 64 + h.val) * 64 + w.val) * 512 + c.val) / 4096 % 512 = ((h.val * 64 + w.val) * 512 + c.val) / 4096; omega)
  | ⟨2, _⟩ => exact Fin.ext (by
      show (((b.val * 64 + h.val) * 64 + w.val) * 512 + c.val) % 4096 = ((h.val * 64 + w.val) * 512 + c.val) % 4096; omega)

/-- The channel part `[4, 4096, 512]` re-read as `[4, 64, 64, 512]`: pixel `h · 64 + w`. -/
theorem idx_v38_eq (b : Fin 4) (h w : Fin 64) (c : Fin 512) :
    idx_main_v38 (ix4 b h w c) = ix3 b (Spec.pix h w) c := by
  funext a
  have hb := b.isLt; have hh := h.isLt; have hw := w.isLt; have hc := c.isLt
  match a with
  | ⟨0, _⟩ => exact Fin.ext (by show (((b.val * 64 + h.val) * 64 + w.val) * 512 + c.val) / 2097152 = b.val; omega)
  | ⟨1, _⟩ => exact Fin.ext (by
      show (((b.val * 64 + h.val) * 64 + w.val) * 512 + c.val) / 512 % 4096 = h.val * 64 + w.val; omega)
  | ⟨2, _⟩ => exact Fin.ext (by show (((b.val * 64 + h.val) * 64 + w.val) * 512 + c.val) % 512 = c.val; omega)

/-- A one-element array broadcast to the feature map's shape reads its one element. -/
theorem idx_v20_v21_eq (j : S4x64x64x512.Idx) : idx_main_v20 (idx_main_v21 j) = ix1 0 := by
  funext a; match a with | ⟨0, _⟩ => rfl

theorem idx_v39_v40_eq (j : S4x64x64x512.Idx) : idx_main_v39 (idx_main_v40 j) = ix1 0 := by
  funext a; match a with | ⟨0, _⟩ => rfl

/-- THE REFERENCE AT AN INDEX: the program's result at `(b, h, w, c)` is the specification's. -/
theorem ref_apply (x0 : (⟨S4x64x64x512, .f32⟩ : BufTy).Contents (Elt Ideal)) (x1 x2 : (⟨S512x64, .f32⟩ : BufTy).Contents (Elt Ideal))
    (x3 : (⟨S512x512, .f32⟩ : BufTy).Contents (Elt Ideal)) (x4 x5 : (⟨S1, .f32⟩ : BufTy).Contents (Elt Ideal))
    (b : Fin 4) (h w : Fin 64) (c : Fin 512) :
    val_main_v43 (F := Ideal) x0 x1 x2 x3 x4 x5 (ix4 b h w c) = Spec.out x0 x1 x2 x3 x4 x5 b h w c := by
  rw [val_main_v43_apply, val_main_v23_apply, val_main_v22_apply, val_main_v21_apply, val_main_v20_apply, idx_v20_v21_eq,
    val_main_v19_apply, idx_v19_eq, pam_apply,
    val_main_v42_apply, val_main_v41_apply, val_main_v40_apply, val_main_v39_apply, idx_v39_v40_eq,
    val_main_v38_apply, idx_v38_eq, cam_apply]
  rfl

/-- The same at an index not yet split into coordinates. -/
theorem ref_apply_idx (x0 : (⟨S4x64x64x512, .f32⟩ : BufTy).Contents (Elt Ideal)) (x1 x2 : (⟨S512x64, .f32⟩ : BufTy).Contents (Elt Ideal))
    (x3 : (⟨S512x512, .f32⟩ : BufTy).Contents (Elt Ideal)) (x4 x5 : (⟨S1, .f32⟩ : BufTy).Contents (Elt Ideal))
    (j : S4x64x64x512.Idx) :
    val_main_v43 (F := Ideal) x0 x1 x2 x3 x4 x5 j = Spec.out x0 x1 x2 x3 x4 x5 (j 0) (j 1) (j 2) (j 3) := by
  obtain ⟨b, h, w, c, rfl⟩ : ∃ (b : Fin 4) (h w : Fin 64) (c : Fin 512), j = ix4 b h w c := ⟨j 0, j 1, j 2, j 3, eq_ix4 j⟩
  exact ref_apply x0 x1 x2 x3 x4 x5 b h w c

end Cert.DualAttn.RefValue

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«117280_j38989713113557_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.PreReal.lean ====
/-
  The precondition, decoded: every entry of the six argument arrays is a real number.

  The precondition is printed as the conjunction, over the six arrays, of "every entry is below +∞ in
  absolute value", each a reduction by `and` of an entrywise comparison, the six results joined by `and`.
  A conjunction of one-bit words is 1 exactly when each is, and on the extended reals |x| < ⊤ leaves
  only the real numbers.
-/
import proofs.«117280_j38989713113557_2_alg».proof.Defs
import proofs.«117280_j38989713113557_2_alg».proof.Proof.Gen.Pre_finite_inputs
import proofs.«117280_j38989713113557_2_alg».proof.Proof.LibFinDecode
import proofs.«117280_j38989713113557_2_alg».proof.Proof.LibFinite
import Idealize.ShloMosaic.Lib.Affine

noncomputable section

namespace Cert.DualAttn.PreReal

open Idealize.ShloMosaic Idealize.SL.Sem Idealize.ShloMosaic.ValueIdx
open Cert.Pre_finite_inputs (S4x64x64x512 S512x64 S512x512 S1 S_)

/-- The printed predicate over six arrays of extended reals: if it evaluates to true, every entry of
    every array is a real number. -/
theorem fn_real [hP : Cert.Pre_finite_inputs.Facts] (a0 : FVec Ideal S4x64x64x512 .f32)
    (a1 a2 : FVec Ideal S512x64 .f32) (a3 : FVec Ideal S512x512 .f32) (a4 a5 : FVec Ideal S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  simp only [Idealize.ShloMosaic.andi, IntOp.andi_eq_one] at h0
  obtain ⟨⟨⟨⟨⟨e0, e1⟩, e2⟩, e3⟩, e4⟩, e5⟩ := h0
  exact ⟨fun i => Cert.LibFinDecode.all_fin a0 _ _ _ e0 i, fun i => Cert.LibFinDecode.all_fin a1 _ _ _ e1 i,
    fun i => Cert.LibFinDecode.all_fin a2 _ _ _ e2 i, fun i => Cert.LibFinDecode.all_fin a3 _ _ _ e3 i,
    fun i => Cert.LibFinDecode.all_fin a4 _ _ _ e4 i, fun i => Cert.LibFinDecode.all_fin a5 _ _ _ e5 i⟩

/-- Under the certificate's precondition, on every device, every entry of each of the six argument
    arrays of the kernel is a real number. -/
theorem pre_real [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) := by
  exact fn_real _ _ _ _ _ _ (h c)

end Cert.DualAttn.PreReal

end
-- ==== Proof.lean ====
/-
  The kernel and the reference compute one function of the six argument arrays, over the extended reals.

  Arguments: a feature map x : [4, 64, 64, 512] (pixel n = h * 64 + w of a batch entry, 512 channels), channel maps
  w1, w2 : [512, 64] and w3 : [512, 512], and two scalars.

  Position part. With q = x w1, k = x w2, v = x w3 at every pixel, the score of pixels i, j is s(i,j) = Σ_k q(i,k) k(j,k);
  row i of the scores is softmaxed, weight(i,j) = exp (s(i,j) - m_i) / Σ_j exp (s(i,j) - m_i) with m_i the row maximum;
  the part is Σ_n v(n,c) weight(i,n), a [512, 4096] array per batch entry, re-read as [64, 64, 512] by row-major position,
  scaled by the first scalar and added to x. The reference forms the whole 4096 by 4096 matrix of scores. The kernel
  reads the keys and values in tiles of 512 and keeps, per query, a running maximum m, a running normaliser
  l = Σ exp (s - m) and a running weighted sum a = Σ exp (s - m) v over the tiles read so far; a new tile moves the
  maximum to m' and rescales l and a by exp (m - m'). Since exp (m - m') exp (s - m) = exp (s - m'), after the last tile
  l and a are the full sums taken at the full maximum, and a / l is the softmax-weighted sum: the online softmax is
  the plain softmax.

  Channel part. The Gram matrix G(i,j) = Σ_n x(n,i) x(n,j) over the 4096 pixels is softmaxed by rows and applied,
  Σ_c x(n,c) weight(c,j); scaled by the second scalar and added to x. The reference takes the sum over pixels at once;
  the kernel adds it up over four blocks of 1024 pixels from zero, and a sum over 4096 = 4 * 1024 pixels is the sum of
  the four blocks' sums.

  Both results are the sum of the two parts. The inputs are finite (the precondition), so every sum and product above
  is one of real numbers, where these laws hold.
-/
import proofs.«117280_j38989713113557_2_alg».proof.Defs
import proofs.«117280_j38989713113557_2_alg».proof.Proof.K.Run
import proofs.«117280_j38989713113557_2_alg».proof.Proof.KI.Run
import proofs.«117280_j38989713113557_2_alg».proof.Proof.KI.Value
import proofs.«117280_j38989713113557_2_alg».proof.Proof.RefValue
import proofs.«117280_j38989713113557_2_alg».proof.Proof.PreReal
import proofs.«117280_j38989713113557_2_alg».proof.Proof.Gen.ReferenceIdeal.Run
import proofs.«117280_j38989713113557_2_alg».proof.Proof.Gen.ReferenceIdeal.Read
import proofs.«117280_j38989713113557_2_alg».proof.Proof.Gen.Kernel
import proofs.«117280_j38989713113557_2_alg».proof.Proof.Gen.KernelIdeal
import proofs.«117280_j38989713113557_2_alg».proof.Proof.Gen.ReferenceIdeal
import proofs.«117280_j38989713113557_2_alg».proof.Proof.Gen.Pre_finite_inputs

noncomputable section

namespace Cert.Proof

open Idealize.ShloMosaic Idealize.SL.Sem

/-- The kernel as printed runs and leaves its arguments as launched. -/
theorem frame_k : Cert.frame_Kernel := fun m ρ _ => Cert.Kernel.Hand.frame m ρ

/-- So does the kernel read over the extended reals, -/
theorem frame_ki : Cert.frame_KernelIdeal := fun m ρ _ => Cert.KernelIdeal.Hand.frame m ρ

/-- and the reference: its run's statement without the result. -/
theorem frame_ri : Cert.frame_ReferenceIdeal := fun m ρ _ =>
  (θ_run Cert.ReferenceIdeal.defs _ _).mono (fun _ h c => (h c).2) (Cert.ReferenceIdeal.Value.run (F := Ideal) m ρ)

/-- The kernel read over the extended reals is its own text: no operation was rewritten. -/
theorem preserves : Cert.preserves_Kernel_KernelIdeal := trivial

/-- From memories that agree on the six arguments, all of them finite, both programs run, leave the arguments as
    launched, and end with the same result array: each is the specification of the arguments, index by index. -/
theorem algebraic : Cert.algebraic_KernelIdeal_ReferenceIdeal := by
  intro m ρ m' ρ' hpre hagree
  refine ⟨fun c => Cert.KernelIdeal.Hand.W7 m c (Proc.devRef .tc Cert.KernelIdeal.main_v19), ?_, ?_⟩
  · exact Cert.KernelIdeal.Hand.run_of m ρ fun s h c =>
      ⟨h c _ (Cert.KernelIdeal.Hand.mem_uc Cert.KernelIdeal.main_v19 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := Cert.DualAttn.PreReal.pre_real m hpre c
    funext j
    rw [Cert.ReferenceIdeal.Read.val_main_v43_eq, (hagree c).1, (hagree c).2.1, (hagree c).2.2.1, (hagree c).2.2.2.1,
      (hagree c).2.2.2.2.1, (hagree c).2.2.2.2.2]
    exact (Cert.DualAttn.RefValue.ref_apply_idx _ _ _ _ _ _ j).trans
      (Cert.KernelIdeal.Hand.kernel_value m c h0 h1 h2 h3 h4 h5 j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
